-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100x65536 : Shape := ⟨3, ![1, 100, 65536]⟩
abbrev S2x2000 : Shape := ⟨2, ![2, 2000]⟩
abbrev S1 : Shape := ⟨1, ![1]⟩
abbrev S3x65536x60 : Shape := ⟨3, ![3, 65536, 60]⟩
abbrev S60 : Shape := ⟨1, ![60]⟩
abbrev S6003x100 : Shape := ⟨2, ![6003, 100]⟩
abbrev S100 : Shape := ⟨1, ![100]⟩
abbrev S6003x1 : Shape := ⟨2, ![6003, 1]⟩
abbrev S_ : Shape := ⟨0, ![]⟩

class Facts : Prop where
  bcast_S_S1x100x65536 : S_.BroadcastsInDim S1x100x65536 (![] : Fin 0 → Fin S1x100x65536.rank)
  reducesTo_S1x100x65536_S_d0_1_2 : S1x100x65536.ReducesTo [0, 1, 2] S_
  h_S_ : 0 < S_.numel
  bcast_S_S1 : S_.BroadcastsInDim S1 (![] : Fin 0 → Fin S1.rank)
  reducesTo_S1_S_d0 : S1.ReducesTo [0] S_
  bcast_S_S3x65536x60 : S_.BroadcastsInDim S3x65536x60 (![] : Fin 0 → Fin S3x65536x60.rank)
  reducesTo_S3x65536x60_S_d0_1_2 : S3x65536x60.ReducesTo [0, 1, 2] S_
  bcast_S_S60 : S_.BroadcastsInDim S60 (![] : Fin 0 → Fin S60.rank)
  reducesTo_S60_S_d0 : S60.ReducesTo [0] S_
  bcast_S_S6003x100 : S_.BroadcastsInDim S6003x100 (![] : Fin 0 → Fin S6003x100.rank)
  reducesTo_S6003x100_S_d0_1 : S6003x100.ReducesTo [0, 1] S_
  bcast_S_S100 : S_.BroadcastsInDim S100 (![] : Fin 0 → Fin S100.rank)
  reducesTo_S100_S_d0 : S100.ReducesTo [0] S_
  bcast_S_S6003x1 : S_.BroadcastsInDim S6003x1 (![] : Fin 0 → Fin S6003x1.rank)
  reducesTo_S6003x1_S_d0_1 : S6003x1.ReducesTo [0, 1] S_
  bcast_S_S2x2000 : S_.BroadcastsInDim S2x2000 (![] : Fin 0 → Fin S2x2000.rank)
  reducesTo_S2x2000_S_d0_1 : S2x2000.ReducesTo [0, 1] S_

variable [Facts]

def fn_part3 {F : FTy → Type} [FloatOps F] (main_arg1 : IVec S2x2000 32) (main_arg12 : FVec F S1 .f32) (main_v48 : IVec S_ 1) (main_v49 : FVec F S6003x1 .f32) (main_v50 : FVec F S6003x1 .f32) : IVec S_ 1 :=
  let main_v51 : IVec S6003x1 1 := cmpf .olt main_v49 main_v50
  let main_c_19 : IVec S_ 1 := constantI S_ 1 1#1
  let main_v52 : IVec S_ 1 := (fun x v => Host.reduce IntOp.andi x v reducesTo_S6003x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S2x2000 32 := broadcastInDim S2x2000 ![] bcast_S_S2x2000 main_c_22
  let main_v60 : IVec S2x2000 1 := cmpi .sge main_arg1 main_v59
  let main_c_23 : IVec S_ 1 := constantI S_ 1 1#1
  let main_v61 : IVec S_ 1 := (fun x v => Host.reduce IntOp.andi x v reducesTo_S2x2000_S_d0_1 h_S_) main_v60 main_c_23
  let main_v62 : IVec S_ 1 := andi main_v58 main_v61
  let main_c_24 : IVec S_ 32 := constantI S_ 32 100#32
  let main_v63 : IVec S2x2000 32 := broadcastInDim S2x2000 ![] bcast_S_S2x2000 main_c_24
  let main_v64 : IVec S2x2000 1 := cmpi .slt main_arg1 main_v63
  let main_c_25 : IVec S_ 1 := constantI S_ 1 1#1
  let main_v65 : IVec S_ 1 := (fun x v => Host.reduce IntOp.andi x v reducesTo_S2x2000_S_d0_1 h_S_) main_v64 main_c_25
  let main_v66 : IVec S_ 1 := andi main_v62 main_v65
  main_v66

def fn_part2 {F : FTy → Type} [FloatOps F] (main_arg1 : IVec S2x2000 32) (main_arg8 : FVec F S60 .f32) (main_arg9 : FVec F S6003x100 .f32) (main_arg10 : FVec F S100 .f32) (main_arg11 : FVec F S6003x1 .f32) (main_arg12 : FVec F S1 .f32) (main_v33 : IVec S_ 1) : IVec S_ 1 :=
  let main_v34 : FVec F S60 .f32 := Host.absf main_arg8
  let main_cst_12 : FVec F S_ .f32 := constant S_ .f32 0x7F800000#32
  let main_v35 : FVec F S60 .f32 := broadcastInDim S60 ![] bcast_S_S60 main_cst_12
  let main_v36 : IVec S60 1 := cmpf .olt main_v34 main_v35
  let main_c_13 : IVec S_ 1 := constantI S_ 1 1#1
  let main_v37 : IVec S_ 1 := (fun x v => Host.reduce IntOp.andi x v reducesTo_S60_S_d0 h_S_) main_v36 main_c_13
  let main_v38 : IVec S_ 1 := andi main_v33 main_v37
  let main_v39 : FVec F S6003x100 .f32 := Host.absf main_arg9
  let main_cst_14 : FVec F S_ .f32 := constant S_ .f32 0x7F800000#32
  let main_v40 : FVec F S6003x100 .f32 := broadcastInDim S6003x100 ![] bcast_S_S6003x100 main_cst_14
  let main_v41 : IVec S6003x100 1 := cmpf .olt main_v39 main_v40
  let main_c_15 : IVec S_ 1 := constantI S_ 1 1#1
  let main_v42 : IVec S_ 1 := (fun x v => Host.reduce IntOp.andi x v reducesTo_S6003x100_S_d0_1 h_S_) main_v41 main_c_15
  let main_v43 : IVec S_ 1 := andi main_v38 main_v42
  let main_v44 : FVec F S100 .f32 := Host.absf main_arg10
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S6003x1 .f32 := Host.absf main_arg11
  let main_cst_18 : FVec F S_ .f32 := constant S_ .f32 0x7F800000#32
  let main_v50 : FVec F S6003x1 .f32 := broadcastInDim S6003x1 ![] bcast_S_S6003x1 main_cst_18
  fn_part3 (F := F) main_arg1 main_arg12 main_v48 main_v49 main_v50

def fn_part1 {F : FTy → Type} [FloatOps F] (main_arg1 : IVec S2x2000 32) (main_arg5 : FVec F S3x65536x60 .f32) (main_arg6 : FVec F S60 .f32) (main_arg7 : FVec F S3x65536x60 .f32) (main_arg8 : FVec F S60 .f32) (main_arg9 : FVec F S6003x100 .f32) (main_arg10 : FVec F S100 .f32) (main_arg11 : FVec F S6003x1 .f32) (main_arg12 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S3x65536x60 .f32 := Host.absf main_arg5
  let main_cst_6 : FVec F S_ .f32 := constant S_ .f32 0x7F800000#32
  let main_v20 : FVec F S3x65536x60 .f32 := broadcastInDim S3x65536x60 ![] bcast_S_S3x65536x60 main_cst_6
  let main_v21 : IVec S3x65536x60 1 := cmpf .olt main_v19 main_v20
  let main_c_7 : IVec S_ 1 := constantI S_ 1 1#1
  let main_v22 : IVec S_ 1 := (fun x v => Host.reduce IntOp.andi x v reducesTo_S3x65536x60_S_d0_1_2 h_S_) main_v21 main_c_7
  let main_v23 : IVec S_ 1 := andi main_v18 main_v22
  let main_v24 : FVec F S60 .f32 := Host.absf main_arg6
  let main_cst_8 : FVec F S_ .f32 := constant S_ .f32 0x7F800000#32
  let main_v25 : FVec F S60 .f32 := broadcastInDim S60 ![] bcast_S_S60 main_cst_8
  let main_v26 : IVec S60 1 := cmpf .olt main_v24 main_v25
  let main_c_9 : IVec S_ 1 := constantI S_ 1 1#1
  let main_v27 : IVec S_ 1 := (fun x v => Host.reduce IntOp.andi x v reducesTo_S60_S_d0 h_S_) main_v26 main_c_9
  let main_v28 : IVec S_ 1 := andi main_v23 main_v27
  let main_v29 : FVec F S3x65536x60 .f32 := Host.absf main_arg7
  let main_cst_10 : FVec F S_ .f32 := constant S_ .f32 0x7F800000#32
  let main_v30 : FVec F S3x65536x60 .f32 := broadcastInDim S3x65536x60 ![] bcast_S_S3x65536x60 main_cst_10
  let main_v31 : IVec S3x65536x60 1 := cmpf .olt main_v29 main_v30
  let main_c_11 : IVec S_ 1 := constantI S_ 1 1#1
  let main_v32 : IVec S_ 1 := (fun x v => Host.reduce IntOp.andi x v reducesTo_S3x65536x60_S_d0_1_2 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S1x100x65536 .f32) (main_arg1 : IVec S2x2000 32) (main_arg2 : FVec F S1 .f32) (main_arg3 : FVec F S1 .f32) (main_arg4 : FVec F S1 .f32) (main_arg5 : FVec F S3x65536x60 .f32) (main_arg6 : FVec F S60 .f32) (main_arg7 : FVec F S3x65536x60 .f32) (main_arg8 : FVec F S60 .f32) (main_arg9 : FVec F S6003x100 .f32) (main_arg10 : FVec F S100 .f32) (main_arg11 : FVec F S6003x1 .f32) (main_arg12 : FVec F S1 .f32) : IVec S_ 1 :=
  let main_v0 : FVec F S1x100x65536 .f32 := Host.absf main_arg0
  let main_cst : FVec F S_ .f32 := constant S_ .f32 0x7F800000#32
  let main_v1 : FVec F S1x100x65536 .f32 := broadcastInDim S1x100x65536 ![] bcast_S_S1x100x65536 main_cst
  let main_v2 : IVec S1x100x65536 1 := cmpf .olt main_v0 main_v1
  let main_c : IVec S_ 1 := constantI S_ 1 1#1
  let main_v3 : IVec S_ 1 := (fun x v => Host.reduce IntOp.andi x v reducesTo_S1x100x65536_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg5 main_arg6 main_arg7 main_arg8 main_arg9 main_arg10 main_arg11 main_arg12 main_v13 main_v16
-- ==== Kernel.lean ====
abbrev S1x100x65536 : Shape := ⟨3, ![1, 100, 65536]⟩
abbrev S2x2000 : Shape := ⟨2, ![2, 2000]⟩
abbrev S1 : Shape := ⟨1, ![1]⟩
abbrev S3x65536x60 : Shape := ⟨3, ![3, 65536, 60]⟩
abbrev S60 : Shape := ⟨1, ![60]⟩
abbrev S6003x100 : Shape := ⟨2, ![6003, 100]⟩
abbrev S100 : Shape := ⟨1, ![100]⟩
abbrev S6003x1 : Shape := ⟨2, ![6003, 1]⟩
abbrev S1x2000 : Shape := ⟨2, ![1, 2000]⟩
abbrev S2000 : Shape := ⟨1, ![2000]⟩
abbrev S_ : Shape := ⟨0, ![]⟩
abbrev S2000x1 : Shape := ⟨2, ![2000, 1]⟩
abbrev S100x100 : Shape := ⟨2, ![100, 100]⟩
abbrev S2000x2 : Shape := ⟨2, ![2000, 2]⟩
abbrev S2x100x60 : Shape := ⟨3, ![2, 100, 60]⟩
abbrev S1x100x2048 : Shape := ⟨3, ![1, 100, 2048]⟩
abbrev S3x2048x60 : Shape := ⟨3, ![3, 2048, 60]⟩
abbrev S1x100x60 : Shape := ⟨3, ![1, 100, 60]⟩
abbrev S100x60 : Shape := ⟨2, ![100, 60]⟩
abbrev S100x2048 : Shape := ⟨2, ![100, 2048]⟩
abbrev S1x2048x60 : Shape := ⟨3, ![1, 2048, 60]⟩
abbrev S2048x60 : Shape := ⟨2, ![2048, 60]⟩
abbrev S1x60 : Shape := ⟨2, ![1, 60]⟩
abbrev S1x6000 : Shape := ⟨2, ![1, 6000]⟩
abbrev S1x1 : Shape := ⟨2, ![1, 1]⟩
abbrev S1x6003 : Shape := ⟨2, ![1, 6003]⟩
abbrev S1x100 : Shape := ⟨2, ![1, 100]⟩

abbrev nBuf : Space → Nat
  | .hbm => 105
  | .vmem => 13
  | .smem => 0
  | _ => 0

abbrev bufTy : (tb : Table) → Fin (tcTables nBuf tb) → BufTy
  | .hbm, ⟨0, _⟩ => ⟨S1x100x65536, .f32⟩
  | .hbm, ⟨1, _⟩ => ⟨S2x2000, .i32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S3x65536x60, .f32⟩
  | .hbm, ⟨6, _⟩ => ⟨S60, .f32⟩
  | .hbm, ⟨7, _⟩ => ⟨S3x65536x60, .f32⟩
  | .hbm, ⟨8, _⟩ => ⟨S60, .f32⟩
  | .hbm, ⟨9, _⟩ => ⟨S6003x100, .f32⟩
  | .hbm, ⟨10, _⟩ => ⟨S100, .f32⟩
  | .hbm, ⟨11, _⟩ => ⟨S6003x1, .f32⟩
  | .hbm, ⟨12, _⟩ => ⟨S1, .f32⟩
  | .hbm, ⟨13, _⟩ => ⟨S1x2000, .i32⟩
  | .hbm, ⟨14, _⟩ => ⟨S2000, .i32⟩
  | .hbm, ⟨15, _⟩ => ⟨S1x2000, .i32⟩
  | .hbm, ⟨16, _⟩ => ⟨S2000, .i32⟩
  | .hbm, ⟨17, _⟩ => ⟨S_, .f32⟩
  | .hbm, ⟨18, _⟩ => ⟨S2000, .f32⟩
  | .hbm, ⟨19, _⟩ => ⟨S_, .f32⟩
  | .hbm, ⟨20, _⟩ => ⟨S100, .f32⟩
  | .hbm, ⟨21, _⟩ => ⟨S2000x1, .i32⟩
  | .hbm, ⟨22, _⟩ => ⟨S100, .f32⟩
  | .hbm, ⟨23, _⟩ => ⟨S_, .f32⟩
  | .hbm, ⟨24, _⟩ => ⟨S100, .f32⟩
  | .hbm, ⟨25, _⟩ => ⟨S100, .i1⟩
  | .hbm, ⟨26, _⟩ => ⟨S_, .f32⟩
  | .hbm, ⟨27, _⟩ => ⟨S100, .f32⟩
  | .hbm, ⟨28, _⟩ => ⟨S100, .i1⟩
  | .hbm, ⟨29, _⟩ => ⟨S_, .f32⟩
  | .hbm, ⟨30, _⟩ => ⟨S_, .f32⟩
  | .hbm, ⟨31, _⟩ => ⟨S100, .f32⟩
  | .hbm, ⟨32, _⟩ => ⟨S100, .f32⟩
  | .hbm, ⟨33, _⟩ => ⟨S100, .f32⟩
  | .hbm, ⟨34, _⟩ => ⟨S_, .f32⟩
  | .hbm, ⟨35, _⟩ => ⟨S_, .f32⟩
  | .hbm, ⟨36, _⟩ => ⟨S100, .f32⟩
  | .hbm, ⟨37, _⟩ => ⟨S100, .f32⟩
  | .hbm, ⟨38, _⟩ => ⟨S_, .i32⟩
  | .hbm, ⟨39, _⟩ => ⟨S2000, .i32⟩
  | .hbm, ⟨40, _⟩ => ⟨S2000, .i1⟩
  | .hbm, ⟨41, _⟩ => ⟨S_, .i32⟩
  | .hbm, ⟨42, _⟩ => ⟨S2000, .i32⟩
  | .hbm, ⟨43, _⟩ => ⟨S2000, .i32⟩
  | .hbm, ⟨44, _⟩ => ⟨S2000, .i32⟩
  | .hbm, ⟨45, _⟩ => ⟨S2000x1, .i32⟩
  | .hbm, ⟨46, _⟩ => ⟨S2000, .f32⟩
  | .hbm, ⟨47, _⟩ => ⟨S_, .i32⟩
  | .hbm, ⟨48, _⟩ => ⟨S2000, .i32⟩
  | .hbm, ⟨49, _⟩ => ⟨S2000, .i1⟩
  | .hbm, ⟨50, _⟩ => ⟨S_, .i32⟩
  | .hbm, ⟨51, _⟩ => ⟨S2000, .i32⟩
  | .hbm, ⟨52, _⟩ => ⟨S2000, .i32⟩
  | .hbm, ⟨53, _⟩ => ⟨S2000, .i32⟩
  | .hbm, ⟨54, _⟩ => ⟨S2000x1, .i32⟩
  | .hbm, ⟨55, _⟩ => ⟨S2000, .f32⟩
  | .hbm, ⟨56, _⟩ => ⟨S2000, .f32⟩
  | .hbm, ⟨57, _⟩ => ⟨S2000, .f32⟩
  | .hbm, ⟨58, _⟩ => ⟨S_, .f32⟩
  | .hbm, ⟨59, _⟩ => ⟨S100x100, .f32⟩
  | .hbm, ⟨60, _⟩ => ⟨S_, .i32⟩
  | .hbm, ⟨61, _⟩ => ⟨S2000, .i32⟩
  | .hbm, ⟨62, _⟩ => ⟨S2000, .i1⟩
  | .hbm, ⟨63, _⟩ => ⟨S_, .i32⟩
  | .hbm, ⟨64, _⟩ => ⟨S2000, .i32⟩
  | .hbm, ⟨65, _⟩ => ⟨S2000, .i32⟩
  | .hbm, ⟨66, _⟩ => ⟨S2000, .i32⟩
  | .hbm, ⟨67, _⟩ => ⟨S_, .i32⟩
  | .hbm, ⟨68, _⟩ => ⟨S2000, .i32⟩
  | .hbm, ⟨69, _⟩ => ⟨S2000, .i1⟩
  | .hbm, ⟨70, _⟩ => ⟨S_, .i32⟩
  | .hbm, ⟨71, _⟩ => ⟨S2000, .i32⟩
  | .hbm, ⟨72, _⟩ => ⟨S2000, .i32⟩
  | .hbm, ⟨73, _⟩ => ⟨S2000, .i32⟩
  | .hbm, ⟨74, _⟩ => ⟨S2000x1, .i32⟩
  | .hbm, ⟨75, _⟩ => ⟨S2000x1, .i32⟩
  | .hbm, ⟨76, _⟩ => ⟨S2000x2, .i32⟩
  | .hbm, ⟨77, _⟩ => ⟨S100x100, .f32⟩
  | .hbm, ⟨78, _⟩ => ⟨S2x100x60, .f32⟩
  | .hbm, ⟨79, _⟩ => ⟨S2x100x60, .f32⟩
  | .hbm, ⟨80, _⟩ => ⟨S_, .f32⟩
  | .hbm, ⟨81, _⟩ => ⟨S100x60, .f32⟩
  | .hbm, ⟨82, _⟩ => ⟨S1x60, .f32⟩
  | .hbm, ⟨83, _⟩ => ⟨S100x60, .f32⟩
  | .hbm, ⟨84, _⟩ => ⟨S100x60, .f32⟩
  | .hbm, ⟨85, _⟩ => ⟨S100x60, .f32⟩
  | .hbm, ⟨86, _⟩ => ⟨S_, .f32⟩
  | .hbm, ⟨87, _⟩ => ⟨S100x60, .f32⟩
  | .hbm, ⟨88, _⟩ => ⟨S1x60, .f32⟩
  | .hbm, ⟨89, _⟩ => ⟨S100x60, .f32⟩
  | .hbm, ⟨90, _⟩ => ⟨S100x60, .f32⟩
  | .hbm, ⟨91, _⟩ => ⟨S100x60, .f32⟩
  | .hbm, ⟨92, _⟩ => ⟨S1x6000, .f32⟩
  | .hbm, ⟨93, _⟩ => ⟨S1x6000, .f32⟩
  | .hbm, ⟨94, _⟩ => ⟨S1x1, .f32⟩
  | .hbm, ⟨95, _⟩ => ⟨S1x1, .f32⟩
  | .hbm, ⟨96, _⟩ => ⟨S1x1, .f32⟩
  | .hbm, ⟨97, _⟩ => ⟨S1x6003, .f32⟩
  | .hbm, ⟨98, _⟩ => ⟨S1x6003, .f32⟩
  | .hbm, ⟨99, _⟩ => ⟨S1x100, .f32⟩
  | .hbm, ⟨100, _⟩ => ⟨S1x100, .f32⟩
  | .hbm, ⟨101, _⟩ => ⟨S1x100, .f32⟩
  | .hbm, ⟨102, _⟩ => ⟨S1x1, .f32⟩
  | .hbm, ⟨103, _⟩ => ⟨S1x1, .f32⟩
  | .hbm, ⟨104, _⟩ => ⟨S1x1, .f32⟩
  | .local _ .vmem, ⟨0, _⟩ => ⟨S100x100, .f32⟩
  | .local _ .vmem, ⟨1, _⟩ => ⟨S1x100x2048, .f32⟩
  | .local _ .vmem, ⟨2, _⟩ => ⟨S1x100x2048, .f32⟩
  | .local _ .vmem, ⟨3, _⟩ => ⟨S3x2048x60, .f32⟩
  | .local _ .vmem, ⟨4, _⟩ => ⟨S3x2048x60, .f32⟩
  | .local _ .vmem, ⟨5, _⟩ => ⟨S3x2048x60, .f32⟩
  | .local _ .vmem, ⟨6, _⟩ => ⟨S3x2048x60, .f32⟩
  | .local _ .vmem, ⟨7, _⟩ => ⟨S1x100x60, .f32⟩
  | .local _ .vmem, ⟨8, _⟩ => ⟨S1x100x60, .f32⟩
  | .local _ .vmem, ⟨9, _⟩ => ⟨S1x100x60, .f32⟩
  | .local _ .vmem, ⟨10, _⟩ => ⟨S1x100x60, .f32⟩
  | .local _ .vmem, ⟨11, _⟩ => ⟨S100x60, .f32⟩
  | .local _ .vmem, ⟨12, _⟩ => ⟨S100x60, .f32⟩
  | _, _ => ⟨S1x100x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_6 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_8 : Ref sig .tc := ⟨.hbm, 58, rfl⟩
abbrev main_v31 : Ref sig .tc := ⟨.hbm, 59, rfl⟩
abbrev main_c_9 : Ref sig .tc := ⟨.hbm, 60, rfl⟩
abbrev main_v32 : Ref sig .tc := ⟨.hbm, 61, rfl⟩
abbrev main_v33 : Ref sig .tc := ⟨.hbm, 62, rfl⟩
abbrev main_c_10 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_11 : Ref sig .tc := ⟨.hbm, 67, rfl⟩
abbrev main_v37 : Ref sig .tc := ⟨.hbm, 68, rfl⟩
abbrev main_v38 : Ref sig .tc := ⟨.hbm, 69, rfl⟩
abbrev main_c_12 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46_0 : Ref sig .tc := ⟨.hbm, 78, rfl⟩
abbrev main_v46_1 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_14 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_37 : BitVec 32 := 0#32
  let v56 : BitVec 1 := Scalar.cmpi .ne v55 c0_i32_37
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S100x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x100x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x2048x60 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x2048x60 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x100x60 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x100x60 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S2x2000_S1x2000_0_0 : S2x2000.Slices ![0, 0] S1x2000
  shapeCasts_S1x2000_S2000 : S1x2000.ShapeCasts S2000
  slices_S2x2000_S1x2000_1_0 : S2x2000.Slices ![1, 0] S1x2000
  bcast_S_S2000 : S_.BroadcastsInDim S2000 (![] : Fin 0 → Fin S2000.rank)
  bcast_S_S100 : S_.BroadcastsInDim S100 (![] : Fin 0 → Fin S100.rank)
  bcast_S2000_S2000x1_0 : S2000.BroadcastsInDim S2000x1 (![0] : Fin 1 → Fin S2000x1.rank)
  bcast_S_S100x100 : S_.BroadcastsInDim S100x100 (![] : Fin 0 → Fin S100x100.rank)
  concatenates_S2000x1_S2000x1_S2000x2_d1 : Shape.Concatenates [S2000x1, S2000x1] S2000x2 1
  inb_S100x60_S100x60_0_0 : ∀ a, (![0, 0] : Fin 2 → Nat) a + S100x60.size a ≤ S100x60.size a
  h_S100x60 : 0 < S100x60.numel
  shapeCasts_S100x60_S100x60 : S100x60.ShapeCasts S100x60
  inb_S100x100_S100x100_0_0 : ∀ a, (![0, 0] : Fin 2 → Nat) a + S100x100.size a ≤ S100x100.size a
  h_S100x100 : 0 < S100x100.numel
  shapeCasts_S100x100_S100x100 : S100x100.ShapeCasts S100x100
  bitsLt_bf16_f32 : FTy.bits .bf16 < FTy.bits .f32
  inb_S1x100x2048_S1x100x2048_0_0_0 : ∀ a, (![0, 0, 0] : Fin 3 → Nat) a + S1x100x2048.size a ≤ S1x100x2048.size a
  h_S1x100x2048 : 0 < S1x100x2048.numel
  shapeCasts_S1x100x2048_S100x2048 : S1x100x2048.ShapeCasts S100x2048
  inb_S3x2048x60_S1x2048x60_0_0_0 : ∀ a, (![0, 0, 0] : Fin 3 → Nat) a + S1x2048x60.size a ≤ S3x2048x60.size a
  h_S1x2048x60 : 0 < S1x2048x60.numel
  shapeCasts_S1x2048x60_S2048x60 : S1x2048x60.ShapeCasts S2048x60
  inb_S3x2048x60_S1x2048x60_1_0_0 : ∀ a, (![1, 0, 0] : Fin 3 → Nat) a + S1x2048x60.size a ≤ S3x2048x60.size a
  inb_S3x2048x60_S1x2048x60_2_0_0 : ∀ a, (![2, 0, 0] : Fin 3 → Nat) a + S1x2048x60.size a ≤ S3x2048x60.size a
  inb_S1x100x60_S1x100x60_0_0_0 : ∀ a, (![0, 0, 0] : Fin 3 → Nat) a + S1x100x60.size a ≤ S1x100x60.size a
  h_S1x100x60 : 0 < S1x100x60.numel
  shapeCasts_S1x100x60_S100x60 : S1x100x60.ShapeCasts S100x60
  shapeCasts_S100x60_S1x100x60 : S100x60.ShapeCasts S1x100x60
  reducesTo_S2x100x60_S100x60_d0 : S2x100x60.ReducesTo [0] S100x60
  h_S_ : 0 < S_.numel
  bcast_S60_S1x60_1 : S60.BroadcastsInDim S1x60 (![1] : Fin 1 → Fin S1x60.rank)
  bcast_S1x60_S100x60_0_1 : S1x60.BroadcastsInDim S100x60 (![0, 1] : Fin 2 → Fin S100x60.rank)
  shapeCasts_S100x60_S1x6000 : S100x60.ShapeCasts S1x6000
  bcast_S1_S1x1_1 : S1.BroadcastsInDim S1x1 (![1] : Fin 1 → Fin S1x1.rank)
  concatenates_S1x6000_S1x1_S1x1_S1x1_S1x6003_d1 : Shape.Concatenates [S1x6000, S1x1, S1x1, S1x1] S1x6003 1
  bcast_S100_S1x100_1 : S100.BroadcastsInDim S1x100 (![1] : Fin 1 → Fin S1x100.rank)
  scatter_S100_S2000x1_S2000_n_0_0_1_wf : ScatterDims.WF S100 S2000x1 S2000 [] [0] [0] 1
  gather_S100_S2000x1_S2000_n_0_n_n_0_1_1_wf : GatherDims.WF S100 S2000x1 S2000 [] [0] [] [0] [] 1 ![1]
  scatter_S100x100_S2000x2_S2000_n_01_01_1_wf : ScatterDims.WF S100x100 S2000x2 S2000 [] [0, 1] [0, 1] 1
  dot_S100x100_S100x2048_S100x2048_1_0_0_1_n_n_wf : DotDims.WF S100x100 S100x2048 S100x2048 [1] [0] [0] [1] [] []
  dot_S100x2048_S2048x60_S100x60_1_0_0_1_n_n_wf : DotDims.WF S100x2048 S2048x60 S100x60 [1] [0] [0] [1] [] []
  dot_S1x6003_S6003x100_S1x100_1_0_0_1_n_n_wf : DotDims.WF S1x6003 S6003x100 S1x100 [1] [0] [0] [1] [] []
  dot_S1x6003_S6003x1_S1x1_1_0_0_1_n_n_wf : DotDims.WF S1x6003 S6003x1 S1x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x100.size a ≤ S100x100.size a
  hwx0_0 : ∀ i : grid0.Coords, EltTy.bits .f32 = 32 ∨ (Rect.block (s := S100x100) S100x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x2048.size a ≤ S1x100x65536.size a
  hwx0_1 : ∀ i : grid0.Coords, EltTy.bits .f32 = 32 ∨ (Rect.block (s := S1x100x65536) S1x100x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x2048x60.size a ≤ S3x65536x60.size a
  hwx0_2 : ∀ i : grid0.Coords, EltTy.bits .f32 = 32 ∨ (Rect.block (s := S3x65536x60) S3x2048x60.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x2048x60.size a ≤ S3x65536x60.size a
  hwx0_3 : ∀ i : grid0.Coords, EltTy.bits .f32 = 32 ∨ (Rect.block (s := S3x65536x60) S3x2048x60.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x100x60.size a ≤ S2x100x60.size a
  hwx0_4 : ∀ i : grid0.Coords, EltTy.bits .f32 = 32 ∨ (Rect.block (s := S2x100x60) S1x100x60.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x100x60.size a ≤ S2x100x60.size a
  hwx0_5 : ∀ i : grid0.Coords, EltTy.bits .f32 = 32 ∨ (Rect.block (s := S2x100x60) S1x100x60.size (cc0_transform_5 i) (hinb0_5 i)).WholeWords (EltTy.packing .f32)

variable [Facts₀]

def scatter_S100_S2000x1_S2000_n_0_0_1 : ScatterDims S100 S2000x1 S2000 where
  updateWindowDims := []
  insertedWindowDims := [0]
  scatterDimsToOperandDims := [0]
  indexVectorDim := 1
  wf := scatter_S100_S2000x1_S2000_n_0_0_1_wf
def gather_S100_S2000x1_S2000_n_0_n_n_0_1_1 : GatherDims S100 S2000x1 S2000 where
  offsetDims := []
  collapsedSliceDims := [0]
  operandBatchingDims := []
  startIndicesBatchingDims := []
  startIndexMap := [0]
  indexVectorDim := 1
  sliceSizes := ![1]
  wf := gather_S100_S2000x1_S2000_n_0_n_n_0_1_1_wf
def scatter_S100x100_S2000x2_S2000_n_01_01_1 : ScatterDims S100x100 S2000x2 S2000 where
  updateWindowDims := []
  insertedWindowDims := [0, 1]
  scatterDimsToOperandDims := [0, 1]
  indexVectorDim := 1
  wf := scatter_S100x100_S2000x2_S2000_n_01_01_1_wf
def dot_S100x100_S100x2048_S100x2048_1_0_0_1_n_n : DotDims S100x100 S100x2048 S100x2048 where
  lhsContracting := [1]
  rhsContracting := [0]
  lhsNonContracting := [0]
  rhsNonContracting := [1]
  lhsBatch := []
  rhsBatch := []
  wf := dot_S100x100_S100x2048_S100x2048_1_0_0_1_n_n_wf
def dot_S100x2048_S2048x60_S100x60_1_0_0_1_n_n : DotDims S100x2048 S2048x60 S100x60 where
  lhsContracting := [1]
  rhsContracting := [0]
  lhsNonContracting := [0]
  rhsNonContracting := [1]
  lhsBatch := []
  rhsBatch := []
  wf := dot_S100x2048_S2048x60_S100x60_1_0_0_1_n_n_wf
def dot_S1x6003_S6003x100_S1x100_1_0_0_1_n_n : DotDims S1x6003 S6003x100 S1x100 where
  lhsContracting := [1]
  rhsContracting := [0]
  lhsNonContracting := [0]
  rhsNonContracting := [1]
  lhsBatch := []
  rhsBatch := []
  wf := dot_S1x6003_S6003x100_S1x100_1_0_0_1_n_n_wf
def dot_S1x6003_S6003x1_S1x1_1_0_0_1_n_n : DotDims S1x6003 S6003x1 S1x1 where
  lhsContracting := [1]
  rhsContracting := [0]
  lhsNonContracting := [0]
  rhsNonContracting := [1]
  lhsBatch := []
  rhsBatch := []
  wf := dot_S1x6003_S6003x1_S1x1_1_0_0_1_n_n_wf

abbrev win0_0 : Pipeline.Window sig grid0 :=
  Pipeline.Window.ofSpec (Memref.whole main_v45) S100x100.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x100x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S3x2048x60.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S3x2048x60.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46_0) S1x100x60.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v46_1) S1x100x60.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x100x65536 : Shape := ⟨3, ![1, 100, 65536]⟩
abbrev S2x2000 : Shape := ⟨2, ![2, 2000]⟩
abbrev S1 : Shape := ⟨1, ![1]⟩
abbrev S3x65536x60 : Shape := ⟨3, ![3, 65536, 60]⟩
abbrev S60 : Shape := ⟨1, ![60]⟩
abbrev S6003x100 : Shape := ⟨2, ![6003, 100]⟩
abbrev S100 : Shape := ⟨1, ![100]⟩
abbrev S6003x1 : Shape := ⟨2, ![6003, 1]⟩
abbrev S1x2000 : Shape := ⟨2, ![1, 2000]⟩
abbrev S2000 : Shape := ⟨1, ![2000]⟩
abbrev S_ : Shape := ⟨0, ![]⟩
abbrev S2000x1 : Shape := ⟨2, ![2000, 1]⟩
abbrev S100x65536 : Shape := ⟨2, ![100, 65536]⟩
abbrev S2000x65536 : Shape := ⟨2, ![2000, 65536]⟩
abbrev S1x65536x60 : Shape := ⟨3, ![1, 65536, 60]⟩
abbrev S65536x60 : Shape := ⟨2, ![65536, 60]⟩
abbrev S100x60 : Shape := ⟨2, ![100, 60]⟩
abbrev S1x60 : Shape := ⟨2, ![1, 60]⟩
abbrev S1x100x60 : Shape := ⟨3, ![1, 100, 60]⟩
abbrev S1x6000 : Shape := ⟨2, ![1, 6000]⟩
abbrev S1x1 : Shape := ⟨2, ![1, 1]⟩
abbrev S1x6003 : Shape := ⟨2, ![1, 6003]⟩
abbrev S1x100 : Shape := ⟨2, ![1, 100]⟩

abbrev nBuf : Space → Nat
  | .hbm => 222
  | .vmem => 0
  | .smem => 0
  | _ => 0

abbrev hbmTy0_0 (i : Nat) : BufTy := match i % 128 with
  | 0 => ⟨S1x100x65536, .f32⟩
  | 1 => ⟨S2x2000, .i32⟩
  | 2 => ⟨S1, .f32⟩
  | 3 => ⟨S1, .f32⟩
  | 4 => ⟨S1, .f32⟩
  | 5 => ⟨S3x65536x60, .f32⟩
  | 6 => ⟨S60, .f32⟩
  | 7 => ⟨S3x65536x60, .f32⟩
  | 8 => ⟨S60, .f32⟩
  | 9 => ⟨S6003x100, .f32⟩
  | 10 => ⟨S100, .f32⟩
  | 11 => ⟨S6003x1, .f32⟩
  | 12 => ⟨S1, .f32⟩
  | 13 => ⟨S1x2000, .i32⟩
  | 14 => ⟨S2000, .i32⟩
  | 15 => ⟨S1x2000, .i32⟩
  | 16 => ⟨S2000, .i32⟩
  | 17 => ⟨S_, .f32⟩
  | 18 => ⟨S2000, .f32⟩
  | 19 => ⟨S_, .f32⟩
  | 20 => ⟨S100, .f32⟩
  | 21 => ⟨S2000x1, .i32⟩
  | 22 => ⟨S100, .f32⟩
  | 23 => ⟨S_, .f32⟩
  | 24 => ⟨S100, .f32⟩
  | 25 => ⟨S100, .i1⟩
  | 26 => ⟨S_, .f32⟩
  | 27 => ⟨S100, .f32⟩
  | 28 => ⟨S100, .i1⟩
  | 29 => ⟨S_, .f32⟩
  | 30 => ⟨S_, .f32⟩
  | 31 => ⟨S100, .f32⟩
  | 32 => ⟨S100, .f32⟩
  | 33 => ⟨S100, .f32⟩
  | 34 => ⟨S_, .f32⟩
  | 35 => ⟨S_, .f32⟩
  | 36 => ⟨S100, .f32⟩
  | 37 => ⟨S100, .f32⟩
  | 38 => ⟨S_, .i32⟩
  | 39 => ⟨S2000, .i32⟩
  | 40 => ⟨S2000, .i1⟩
  | 41 => ⟨S_, .i32⟩
  | 42 => ⟨S2000, .i32⟩
  | 43 => ⟨S2000, .i32⟩
  | 44 => ⟨S2000, .i32⟩
  | 45 => ⟨S2000x1, .i32⟩
  | 46 => ⟨S2000, .f32⟩
  | 47 => ⟨S_, .i32⟩
  | 48 => ⟨S2000, .i32⟩
  | 49 => ⟨S2000, .i1⟩
  | 50 => ⟨S_, .i32⟩
  | 51 => ⟨S2000, .i32⟩
  | 52 => ⟨S2000, .i32⟩
  | 53 => ⟨S2000, .i32⟩
  | 54 => ⟨S2000x1, .i32⟩
  | 55 => ⟨S2000, .f32⟩
  | 56 => ⟨S2000, .f32⟩
  | 57 => ⟨S2000, .f32⟩
  | 58 => ⟨S100x65536, .f32⟩
  | 59 => ⟨S_, .i32⟩
  | 60 => ⟨S2000, .i32⟩
  | 61 => ⟨S2000, .i1⟩
  | 62 => ⟨S_, .i32⟩
  | 63 => ⟨S2000, .i32⟩
  | 64 => ⟨S2000, .i32⟩
  | 65 => ⟨S2000, .i32⟩
  | 66 => ⟨S2000x1, .i32⟩
  | 67 => ⟨S2000x65536, .f32⟩
  | 68 => ⟨S2000x1, .f32⟩
  | 69 => ⟨S2000x65536, .f32⟩
  | 70 => ⟨S2000x65536, .f32⟩
  | 71 => ⟨S_, .f32⟩
  | 72 => ⟨S100x65536, .f32⟩
  | 73 => ⟨S2000x1, .i32⟩
  | 74 => ⟨S100x65536, .f32⟩
  | 75 => ⟨S_, .i32⟩
  | 76 => ⟨S2000, .i32⟩
  | 77 => ⟨S2000, .i1⟩
  | 78 => ⟨S_, .i32⟩
  | 79 => ⟨S2000, .i32⟩
  | 80 => ⟨S2000, .i32⟩
  | 81 => ⟨S2000, .i32⟩
  | 82 => ⟨S2000x1, .i32⟩
  | 83 => ⟨S2000x65536, .f32⟩
  | 84 => ⟨S2000x1, .f32⟩
  | 85 => ⟨S2000x65536, .f32⟩
  | 86 => ⟨S2000x65536, .f32⟩
  | 87 => ⟨S_, .f32⟩
  | 88 => ⟨S100x65536, .f32⟩
  | 89 => ⟨S2000x1, .i32⟩
  | 90 => ⟨S100x65536, .f32⟩
  | 91 => ⟨S_, .f32⟩
  | 92 => ⟨S100x65536, .f32⟩
  | 93 => ⟨S100x65536, .f32⟩
  | 94 => ⟨S100x65536, .f32⟩
  | 95 => ⟨S1x65536x60, .f32⟩
  | 96 => ⟨S65536x60, .f32⟩
  | 97 => ⟨S100x60, .f32⟩
  | 98 => ⟨S1x65536x60, .f32⟩
  | 99 => ⟨S65536x60, .f32⟩
  | 100 => ⟨S100x60, .f32⟩
  | 101 => ⟨S100x60, .f32⟩
  | 102 => ⟨S1x65536x60, .f32⟩
  | 103 => ⟨S65536x60, .f32⟩
  | 104 => ⟨S100x60, .f32⟩
  | 105 => ⟨S100x60, .f32⟩
  | 106 => ⟨S1x60, .f32⟩
  | 107 => ⟨S100x60, .f32⟩
  | 108 => ⟨S100x60, .f32⟩
  | 109 => ⟨S1x100x60, .f32⟩
  | 110 => ⟨S1x100x60, .f32⟩
  | 111 => ⟨S1x6000, .f32⟩
  | 112 => ⟨S1x2000, .i32⟩
  | 113 => ⟨S2000, .i32⟩
  | 114 => ⟨S1x2000, .i32⟩
  | 115 => ⟨S2000, .i32⟩
  | 116 => ⟨S_, .f32⟩
  | 117 => ⟨S2000, .f32⟩
  | 118 => ⟨S_, .f32⟩
  | 119 => ⟨S100, .f32⟩
  | 120 => ⟨S2000x1, .i32⟩
  | 121 => ⟨S100, .f32⟩
  | 122 => ⟨S_, .f32⟩
  | 123 => ⟨S100, .f32⟩
  | 124 => ⟨S100, .i1⟩
  | 125 => ⟨S_, .f32⟩
  | 126 => ⟨S100, .f32⟩
  | 127 => ⟨S100, .i1⟩
  | _ => ⟨S1x100x65536, .f32⟩

abbrev hbmTy0_1 (i : Nat) : BufTy := match i % 128 with
  | 0 => ⟨S_, .f32⟩
  | 1 => ⟨S_, .f32⟩
  | 2 => ⟨S100, .f32⟩
  | 3 => ⟨S100, .f32⟩
  | 4 => ⟨S100, .f32⟩
  | 5 => ⟨S_, .f32⟩
  | 6 => ⟨S_, .f32⟩
  | 7 => ⟨S100, .f32⟩
  | 8 => ⟨S100, .f32⟩
  | 9 => ⟨S_, .i32⟩
  | 10 => ⟨S2000, .i32⟩
  | 11 => ⟨S2000, .i1⟩
  | 12 => ⟨S_, .i32⟩
  | 13 => ⟨S2000, .i32⟩
  | 14 => ⟨S2000, .i32⟩
  | 15 => ⟨S2000, .i32⟩
  | 16 => ⟨S2000x1, .i32⟩
  | 17 => ⟨S2000, .f32⟩
  | 18 => ⟨S_, .i32⟩
  | 19 => ⟨S2000, .i32⟩
  | 20 => ⟨S2000, .i1⟩
  | 21 => ⟨S_, .i32⟩
  | 22 => ⟨S2000, .i32⟩
  | 23 => ⟨S2000, .i32⟩
  | 24 => ⟨S2000, .i32⟩
  | 25 => ⟨S2000x1, .i32⟩
  | 26 => ⟨S2000, .f32⟩
  | 27 => ⟨S2000, .f32⟩
  | 28 => ⟨S2000, .f32⟩
  | 29 => ⟨S100x65536, .f32⟩
  | 30 => ⟨S_, .i32⟩
  | 31 => ⟨S2000, .i32⟩
  | 32 => ⟨S2000, .i1⟩
  | 33 => ⟨S_, .i32⟩
  | 34 => ⟨S2000, .i32⟩
  | 35 => ⟨S2000, .i32⟩
  | 36 => ⟨S2000, .i32⟩
  | 37 => ⟨S2000x1, .i32⟩
  | 38 => ⟨S2000x65536, .f32⟩
  | 39 => ⟨S2000x1, .f32⟩
  | 40 => ⟨S2000x65536, .f32⟩
  | 41 => ⟨S2000x65536, .f32⟩
  | 42 => ⟨S_, .f32⟩
  | 43 => ⟨S100x65536, .f32⟩
  | 44 => ⟨S2000x1, .i32⟩
  | 45 => ⟨S100x65536, .f32⟩
  | 46 => ⟨S_, .i32⟩
  | 47 => ⟨S2000, .i32⟩
  | 48 => ⟨S2000, .i1⟩
  | 49 => ⟨S_, .i32⟩
  | 50 => ⟨S2000, .i32⟩
  | 51 => ⟨S2000, .i32⟩
  | 52 => ⟨S2000, .i32⟩
  | 53 => ⟨S2000x1, .i32⟩
  | 54 => ⟨S2000x65536, .f32⟩
  | 55 => ⟨S2000x1, .f32⟩
  | 56 => ⟨S2000x65536, .f32⟩
  | 57 => ⟨S2000x65536, .f32⟩
  | 58 => ⟨S_, .f32⟩
  | 59 => ⟨S100x65536, .f32⟩
  | 60 => ⟨S2000x1, .i32⟩
  | 61 => ⟨S100x65536, .f32⟩
  | 62 => ⟨S_, .f32⟩
  | 63 => ⟨S100x65536, .f32⟩
  | 64 => ⟨S100x65536, .f32⟩
  | 65 => ⟨S100x65536, .f32⟩
  | 66 => ⟨S1x65536x60, .f32⟩
  | 67 => ⟨S65536x60, .f32⟩
  | 68 => ⟨S100x60, .f32⟩
  | 69 => ⟨S1x65536x60, .f32⟩
  | 70 => ⟨S65536x60, .f32⟩
  | 71 => ⟨S100x60, .f32⟩
  | 72 => ⟨S100x60, .f32⟩
  | 73 => ⟨S1x65536x60, .f32⟩
  | 74 => ⟨S65536x60, .f32⟩
  | 75 => ⟨S100x60, .f32⟩
  | 76 => ⟨S100x60, .f32⟩
  | 77 => ⟨S1x60, .f32⟩
  | 78 => ⟨S100x60, .f32⟩
  | 79 => ⟨S100x60, .f32⟩
  | 80 => ⟨S1x100x60, .f32⟩
  | 81 => ⟨S1x100x60, .f32⟩
  | 82 => ⟨S1x6000, .f32⟩
  | 83 => ⟨S1x1, .f32⟩
  | 84 => ⟨S1x1, .f32⟩
  | 85 => ⟨S1x1, .f32⟩
  | 86 => ⟨S1x6003, .f32⟩
  | 87 => ⟨S1x6003, .f32⟩
  | 88 => ⟨S1x100, .f32⟩
  | 89 => ⟨S1x100, .f32⟩
  | 90 => ⟨S1x100, .f32⟩
  | 91 => ⟨S1x1, .f32⟩
  | 92 => ⟨S1x1, .f32⟩
  | 93 => ⟨S1x1, .f32⟩
  | _ => ⟨S1x100x65536, .f32⟩

abbrev hbmTy (i : Nat) : BufTy := match i / 128 with
  | 0 => hbmTy0_0 i
  | 1 => hbmTy0_1 i
  | _ => ⟨S1x100x65536, .f32⟩

abbrev bufTy : (tb : Table) → Fin (tcTables nBuf tb) → BufTy
  | .hbm, ⟨i, _⟩ => hbmTy i
  | _, _ => ⟨S1x100x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_6 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_8 : Ref sig .tc := ⟨.hbm, 59, rfl⟩
abbrev main_v32 : Ref sig .tc := ⟨.hbm, 60, rfl⟩
abbrev main_v33 : Ref sig .tc := ⟨.hbm, 61, rfl⟩
abbrev main_c_9 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_11 : Ref sig .tc := ⟨.hbm, 75, rfl⟩
abbrev main_v45 : Ref sig .tc := ⟨.hbm, 76, rfl⟩
abbrev main_v46 : Ref sig .tc := ⟨.hbm, 77, rfl⟩
abbrev main_c_12 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_13 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_14 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_call2_v0 : Ref sig .tc := ⟨.hbm, 129, rfl⟩
abbrev main_call2_v1 : Ref sig .tc := ⟨.hbm, 130, rfl⟩
abbrev main_v90 : Ref sig .tc := ⟨.hbm, 131, rfl⟩
abbrev main_v91 : Ref sig .tc := ⟨.hbm, 132, rfl⟩
abbrev main_cst_20 : Ref sig .tc := ⟨.hbm, 133, rfl⟩
abbrev main_call3_v0 : Ref sig .tc := ⟨.hbm, 134, rfl⟩
abbrev main_call3_v1 : Ref sig .tc := ⟨.hbm, 135, rfl⟩
abbrev main_v92 : Ref sig .tc := ⟨.hbm, 136, rfl⟩
abbrev main_c_21 : Ref sig .tc := ⟨.hbm, 137, rfl⟩
abbrev main_v93 : Ref sig .tc := ⟨.hbm, 138, rfl⟩
abbrev main_v94 : Ref sig .tc := ⟨.hbm, 139, rfl⟩
abbrev main_c_22 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_c_23 : Ref sig .tc := ⟨.hbm, 146, rfl⟩
abbrev main_v100 : Ref sig .tc := ⟨.hbm, 147, rfl⟩
abbrev main_v101 : Ref sig .tc := ⟨.hbm, 148, rfl⟩
abbrev main_c_24 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_25 : Ref sig .tc := ⟨.hbm, 158, rfl⟩
abbrev main_v110 : Ref sig .tc := ⟨.hbm, 159, rfl⟩
abbrev main_v111 : Ref sig .tc := ⟨.hbm, 160, rfl⟩
abbrev main_c_26 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_27 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_28 : Ref sig .tc := ⟨.hbm, 174, rfl⟩
abbrev main_v123 : Ref sig .tc := ⟨.hbm, 175, rfl⟩
abbrev main_v124 : Ref sig .tc := ⟨.hbm, 176, rfl⟩
abbrev main_c_29 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_30 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_31 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩

abbrev nD : Nat := 1
abbrev τ : Topo := Topo.v7x

variable {F : FTy → Type} [FloatOps F]

class Facts₀ : Prop where
  slices_S2x2000_S1x2000_0_0 : S2x2000.Slices ![0, 0] S1x2000
  shapeCasts_S1x2000_S2000 : S1x2000.ShapeCasts S2000
  slices_S2x2000_S1x2000_1_0 : S2x2000.Slices ![1, 0] S1x2000
  bcast_S_S2000 : S_.BroadcastsInDim S2000 (![] : Fin 0 → Fin S2000.rank)
  bcast_S_S100 : S_.BroadcastsInDim S100 (![] : Fin 0 → Fin S100.rank)
  bcast_S2000_S2000x1_0 : S2000.BroadcastsInDim S2000x1 (![0] : Fin 1 → Fin S2000x1.rank)
  shapeCasts_S1x100x65536_S100x65536 : S1x100x65536.ShapeCasts S100x65536
  bcast_S2000x1_S2000x65536_0_1 : S2000x1.BroadcastsInDim S2000x65536 (![0, 1] : Fin 2 → Fin S2000x65536.rank)
  bcast_S_S100x65536 : S_.BroadcastsInDim S100x65536 (![] : Fin 0 → Fin S100x65536.rank)
  slices_S3x65536x60_S1x65536x60_0_0_0 : S3x65536x60.Slices ![0, 0, 0] S1x65536x60
  shapeCasts_S1x65536x60_S65536x60 : S1x65536x60.ShapeCasts S65536x60
  slices_S3x65536x60_S1x65536x60_1_0_0 : S3x65536x60.Slices ![1, 0, 0] S1x65536x60
  slices_S3x65536x60_S1x65536x60_2_0_0 : S3x65536x60.Slices ![2, 0, 0] S1x65536x60
  bcast_S60_S1x60_1 : S60.BroadcastsInDim S1x60 (![1] : Fin 1 → Fin S1x60.rank)
  bcast_S1x60_S100x60_0_1 : S1x60.BroadcastsInDim S100x60 (![0, 1] : Fin 2 → Fin S100x60.rank)
  bcast_S100x60_S1x100x60_1_2 : S100x60.BroadcastsInDim S1x100x60 (![1, 2] : Fin 2 → Fin S1x100x60.rank)
  shapeCasts_S1x100x60_S1x6000 : S1x100x60.ShapeCasts S1x6000
  bcast_S1_S1x1_1 : S1.BroadcastsInDim S1x1 (![1] : Fin 1 → Fin S1x1.rank)
  concatenates_S1x6000_S1x1_S1x1_S1x1_S1x6003_d1 : Shape.Concatenates [S1x6000, S1x1, S1x1, S1x1] S1x6003 1
  bcast_S100_S1x100_1 : S100.BroadcastsInDim S1x100 (![1] : Fin 1 → Fin S1x100.rank)
  scatter_S100_S2000x1_S2000_n_0_0_1_wf : ScatterDims.WF S100 S2000x1 S2000 [] [0] [0] 1
  gather_S100_S2000x1_S2000_n_0_n_n_0_1_1_wf : GatherDims.WF S100 S2000x1 S2000 [] [0] [] [0] [] 1 ![1]
  gather_S100x65536_S2000x1_S2000x65536_1_0_n_n_0_1_165536_wf : GatherDims.WF S100x65536 S2000x1 S2000x65536 [1] [0] [] [0] [] 1 ![1, 65536]
  scatter_S100x65536_S2000x1_S2000x65536_1_0_0_1_wf : ScatterDims.WF S100x65536 S2000x1 S2000x65536 [1] [0] [0] 1
  dot_S100x65536_S65536x60_S100x60_1_0_0_1_n_n_wf : DotDims.WF S100x65536 S65536x60 S100x60 [1] [0] [0] [1] [] []
  dot_S1x6003_S6003x100_S1x100_1_0_0_1_n_n_wf : DotDims.WF S1x6003 S6003x100 S1x100 [1] [0] [0] [1] [] []
  dot_S1x6003_S6003x1_S1x1_1_0_0_1_n_n_wf : DotDims.WF S1x6003 S6003x1 S1x1 [1] [0] [0] [1] [] []

variable [Facts₀]

def scatter_S100_S2000x1_S2000_n_0_0_1 : ScatterDims S100 S2000x1 S2000 where
  updateWindowDims := []
  insertedWindowDims := [0]
  scatterDimsToOperandDims := [0]
  indexVectorDim := 1
  wf := scatter_S100_S2000x1_S2000_n_0_0_1_wf
def gather_S100_S2000x1_S2000_n_0_n_n_0_1_1 : GatherDims S100 S2000x1 S2000 where
  offsetDims := []
  collapsedSliceDims := [0]
  operandBatchingDims := []
  startIndicesBatchingDims := []
  startIndexMap := [0]
  indexVectorDim := 1
  sliceSizes := ![1]
  wf := gather_S100_S2000x1_S2000_n_0_n_n_0_1_1_wf
def gather_S100x65536_S2000x1_S2000x65536_1_0_n_n_0_1_165536 : GatherDims S100x65536 S2000x1 S2000x65536 where
  offsetDims := [1]
  collapsedSliceDims := [0]
  operandBatchingDims := []
  startIndicesBatchingDims := []
  startIndexMap := [0]
  indexVectorDim := 1
  sliceSizes := ![1, 65536]
  wf := gather_S100x65536_S2000x1_S2000x65536_1_0_n_n_0_1_165536_wf
def scatter_S100x65536_S2000x1_S2000x65536_1_0_0_1 : ScatterDims S100x65536 S2000x1 S2000x65536 where
  updateWindowDims := [1]
  insertedWindowDims := [0]
  scatterDimsToOperandDims := [0]
  indexVectorDim := 1
  wf := scatter_S100x65536_S2000x1_S2000x65536_1_0_0_1_wf
def dot_S100x65536_S65536x60_S100x60_1_0_0_1_n_n : DotDims S100x65536 S65536x60 S100x60 where
  lhsContracting := [1]
  rhsContracting := [0]
  lhsNonContracting := [0]
  rhsNonContracting := [1]
  lhsBatch := []
  rhsBatch := []
  wf := dot_S100x65536_S65536x60_S100x60_1_0_0_1_n_n_wf
def dot_S1x6003_S6003x100_S1x100_1_0_0_1_n_n : DotDims S1x6003 S6003x100 S1x100 where
  lhsContracting := [1]
  rhsContracting := [0]
  lhsNonContracting := [0]
  rhsNonContracting := [1]
  lhsBatch := []
  rhsBatch := []
  wf := dot_S1x6003_S6003x100_S1x100_1_0_0_1_n_n_wf
def dot_S1x6003_S6003x1_S1x1_1_0_0_1_n_n : DotDims S1x6003 S6003x1 S1x1 where
  lhsContracting := [1]
  rhsContracting := [0]
  lhsNonContracting := [0]
  rhsNonContracting := [1]
  lhsBatch := []
  rhsBatch := []
  wf := dot_S1x6003_S6003x1_S1x1_1_0_0_1_n_n_wf

class Facts : Prop extends Facts₀ where

variable [Facts]
-- ==== Proof.K.Around.lean ====
/-
  The launch side of the kernel program's run: the program is a prefix of host operations, one pallas_call over a
  2 × 16 grid, and a suffix of host operations.  This module names what the region finds in every buffer, shows that
  the program reduces to the region continued by the suffix, that the suffix touches no array of the pipeline, and
  that each input window's staging buffer holds its block at every grid point.
-/
import proofs.«136048_j27848567947758_2_alg».proof.Proof.Gen.Kernel.Launch
import proofs.«136048_j27848567947758_2_alg».proof.Proof.Gen.Kernel.Skeleton
import proofs.«136048_j27848567947758_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the pallas_call

  The host operations before the call come in five stretches (the two `where` selections are stretches of their
  own); one stretch follows it.  The region finds every buffer at the contents the five stretches leave. -/

/-- Core `c`'s buffer contents when the region is entered: after the host operations before it. -/
abbrev V0 (c : Dev nD) : Valuation τ sig (Elt F) :=
  StableHlo.after (List.flatten [hostOps0, hostOps0_1, hostOps0_2, hostOps0_3, hostOps0_4]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the five stretches, the region, the last stretch; so it reduces to the region continued by the
    last stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The operations after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: unfetched, the block
    index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: unfetched, the block
    index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: unfetched, the block
    index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place: unfetched, the block
    index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.GenH

end
-- ==== Proof.K.Args.lean ====
/-
  The argument arrays of the kernel program around the pallas_call: no host operation writes one, so each ends the
  run as it was launched — which is the frame claim, read off a frame run's final contents.
-/
import proofs.«136048_j27848567947758_2_alg».proof.Proof.K.Around
import proofs.«136048_j27848567947758_2_alg».proof.Proof.Gen.Kernel.Skeleton
import proofs.«136048_j27848567947758_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays around the region

  No host operation writes an argument array (each writes only its own result buffer), so the region finds each as
  it was launched and the operations after the region leave it so. -/

set_option maxHeartbeats 1000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 1000000 in
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 1000000 in
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 1000000 in
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 1000000 in
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

set_option maxHeartbeats 1000000 in
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

set_option maxHeartbeats 1000000 in
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

set_option maxHeartbeats 1000000 in
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

set_option maxHeartbeats 1000000 in
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- The frame from a frame run: every argument array ends as launched — a staged input by the library's reading
    of an input array after the run, an array no window stages by the run's clause for the bypassing buffers. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(((h c).1 1).trans (((dats 0 c).arrAt_in 1 rfl _).trans ((hA c 1).trans (V_main_arg0 m c)))),
     (((h c).2 main_arg1 (Pipeline.mem_restRefs_of main_arg1 (by decide) (by decide))).trans (W_main_arg1 m dats c)),
     (((h c).2 main_arg2 (Pipeline.mem_restRefs_of main_arg2 (by decide) (by decide))).trans (W_main_arg2 m dats c)),
     (((h c).2 main_arg3 (Pipeline.mem_restRefs_of main_arg3 (by decide) (by decide))).trans (W_main_arg3 m dats c)),
     (((h c).2 main_arg4 (Pipeline.mem_restRefs_of main_arg4 (by decide) (by decide))).trans (W_main_arg4 m dats c)),
     (((h c).1 2).trans (((dats 0 c).arrAt_in 2 rfl _).trans ((hA c 2).trans (V_main_arg5 m c)))),
     (((h c).2 main_arg6 (Pipeline.mem_restRefs_of main_arg6 (by decide) (by decide))).trans (W_main_arg6 m dats c)),
     (((h c).1 3).trans (((dats 0 c).arrAt_in 3 rfl _).trans ((hA c 3).trans (V_main_arg7 m c)))),
     (((h c).2 main_arg8 (Pipeline.mem_restRefs_of main_arg8 (by decide) (by decide))).trans (W_main_arg8 m dats c)),
     (((h c).2 main_arg9 (Pipeline.mem_restRefs_of main_arg9 (by decide) (by decide))).trans (W_main_arg9 m dats c)),
     (((h c).2 main_arg10 (Pipeline.mem_restRefs_of main_arg10 (by decide) (by decide))).trans (W_main_arg10 m dats c)),
     (((h c).2 main_arg11 (Pipeline.mem_restRefs_of main_arg11 (by decide) (by decide))).trans (W_main_arg11 m dats c)),
     (((h c).2 main_arg12 (Pipeline.mem_restRefs_of main_arg12 (by decide) (by decide))).trans (W_main_arg12 m dats c))⟩) h

end Cert.Kernel.GenH

end
-- ==== Proof.K.Body.lean ====
/-
  One grid point of the convolution kernel, seen from outside: which of its two conditional blocks run at
  which of the 2 × 16 grid points, and which buffers it is handed there.

  The second grid coordinate k = i 1 counts the 16 runs of 2048 features inside one half.  At k = 0 the two
  100 × 60 accumulators are first set to zero; at every k one run's contribution is added to each; at k = 15
  the accumulators are copied out into the two 1 × 100 × 60 output blocks.  So a point is of one of three kinds:
  A (k = 0: zero, add), B (0 < k < 15: add), C (k = 15: add, copy out).  With the points numbered row by row,
  t = 16 · (i 0) + k, these are t ≡ 0, t ≢ 0, 15 and t ≡ 15 (mod 16).
-/
import proofs.«136048_j27848567947758_2_alg».proof.Proof.Gen.Kernel.Launch
import proofs.«136048_j27848567947758_2_alg».proof.Proof.Gen.Kernel.Skeleton
import proofs.«136048_j27848567947758_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions, as functions of the grid point -/

/-- "This is the first run of its half" (k = 0), computed as the kernel computes it: compare, widen, compare
    with zero. -/
abbrev cond0_0 (i : grid0.Coords) : Prop :=
  (Scalar.cmpi .ne (Scalar.extui (Scalar.cmpi .eq (BitVec.ofNat 32 (i 1).val) 0#32)) 0#32) = 1#1

/-- It holds exactly at the points t ≡ 0 (mod 16): checked at each of the 32 points. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last run of its half" (k = 15). -/
abbrev cond0_1 (i : grid0.Coords) : Prop := k0_cond2 i = 1#1

/-- It holds exactly at the points t ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## The buffers a point is handed -/

/-- The staging buffer each of the six windows is on at point t, with the fact that it is a whole buffer. -/
abbrev ms0_0 (t : Fin cfg0.N) : Memref sig .tc .vmem S100x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x100x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x2048x60 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x2048x60 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x100x60 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x100x60 .f32 := win0_5.stage (cfg0.slots t 5)
abbrev hs0_5 (t : Fin cfg0.N) : (ms0_5 t).IsWhole := hstage0_5 ((cfg0.slots t 5).cast nbuf0_5)

/-- The two accumulators: whole buffers of the kernel's own, the same at every point. -/
abbrev scM0_0 : Memref sig .tc .vmem S100x60 .f32 := Memref.whole cc0_scratch0
abbrev scM0_1 : Memref sig .tc .vmem S100x60 .f32 := Memref.whole cc0_scratch1
/-- The accumulators as index spaces: what they hold is stated through these. -/
abbrev VS0_0 : View sig .tc .vmem S100x60 .f32 := scM0_0.view
abbrev VS0_1 : View sig .tc .vmem S100x60 .f32 := scM0_1.view
/-- One staging buffer of each output as an index space (all of an output's staging buffers have the same). -/
abbrev VO0_4 : View sig .tc .vmem S1x100x60 .f32 := (Memref.whole cc0_stg4_0 : Memref sig .tc .vmem S1x100x60 .f32).view
abbrev VO0_5 : View sig .tc .vmem S1x100x60 .f32 := (Memref.whole cc0_stg5_0 : Memref sig .tc .vmem S1x100x60 .f32).view

/-! ## Which windows a point leaves alone

  The four inputs are read at every point.  An output block is stored into only at the points of kind C, and
  only there is it written back to its array; at the points of kinds A and B it is left as it was found. -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

end Cert.Kernel.GenH

end
-- ==== Proof.K.BodyA.lean ====
/-
  A grid point of kind A (the first run of its half): the accumulators, whatever they held, are set to zero,
  and one run's contribution is added to each.  The output blocks are not touched.
-/
import proofs.«136048_j27848567947758_2_alg».proof.Proof.K.Body

set_option maxRecDepth 16384

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The point's effect on memory.  Given the four input blocks at contents x0 … x3, the two output blocks at any
    contents xi4, xi5 and the two accumulators at anything, the body runs; afterwards the inputs and the output
    blocks are as they were and each accumulator holds the listed pieces (the last store first) over what it held.
    The lists are part of the statement's witness: they are read off the body's stores. -/
noncomputable def kernelRun0_A (c : Dev nD) (i : grid0.Coords) (arg2 : Memref sig .tc .vmem S100x100 .f32) (harg2 : arg2.IsWhole) (arg3 : Memref sig .tc .vmem S1x100x2048 .f32) (harg3 : arg3.IsWhole) (arg4 : Memref sig .tc .vmem S3x2048x60 .f32) (harg4 : arg4.IsWhole) (arg5 : Memref sig .tc .vmem S3x2048x60 .f32) (harg5 : arg5.IsWhole) (arg6 : Memref sig .tc .vmem S1x100x60 .f32) (harg6 : arg6.IsWhole) (arg7 : Memref sig .tc .vmem S1x100x60 .f32) (harg7 : arg7.IsWhole) (arg8 : Memref sig .tc .vmem S100x60 .f32) (harg8 : arg8.IsWhole) (arg9 : Memref sig .tc .vmem S100x60 .f32) (harg9 : arg9.IsWhole) (hc0 : cond0_0 i) (hc1 : ¬cond0_1 i)
    (x0 : Vec F S100x100 .f32) (x1 : Vec F S1x100x2048 .f32) (x2 : Vec F S3x2048x60 .f32) (x3 : Vec F S3x2048x60 .f32) :
    Σ' (L4 L5 : List (View.Piece (Elt F) S1x100x60 .f32)) (LS0 : List (View.Piece (Elt F) S100x60 .f32)), { LS1 : List (View.Piece (Elt F) S100x60 .f32) //
      ∀ (xi4 xi5 : Vec F S1x100x60 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__cheb_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.GenH

end
-- ==== Proof.K.BodyB.lean ====
/-
  A grid point of kind B (neither the first nor the last run of its half): one run's contribution is added to
  each accumulator, which starts from what the point before left.  The output blocks are not touched.
-/
import proofs.«136048_j27848567947758_2_alg».proof.Proof.K.BodyA

set_option maxRecDepth 16384

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The point's effect on memory.  Given the four input blocks at contents x0 … x3, the two output blocks at any
    contents xi4, xi5 and the accumulators at xs0, xs1, the body runs; afterwards the inputs and the output blocks
    are as they were and each accumulator holds the listed pieces (the last store first) over what it held. -/
noncomputable def kernelRun0_B (c : Dev nD) (i : grid0.Coords) (arg2 : Memref sig .tc .vmem S100x100 .f32) (harg2 : arg2.IsWhole) (arg3 : Memref sig .tc .vmem S1x100x2048 .f32) (harg3 : arg3.IsWhole) (arg4 : Memref sig .tc .vmem S3x2048x60 .f32) (harg4 : arg4.IsWhole) (arg5 : Memref sig .tc .vmem S3x2048x60 .f32) (harg5 : arg5.IsWhole) (arg6 : Memref sig .tc .vmem S1x100x60 .f32) (harg6 : arg6.IsWhole) (arg7 : Memref sig .tc .vmem S1x100x60 .f32) (harg7 : arg7.IsWhole) (arg8 : Memref sig .tc .vmem S100x60 .f32) (harg8 : arg8.IsWhole) (arg9 : Memref sig .tc .vmem S100x60 .f32) (harg9 : arg9.IsWhole) (hc0 : ¬cond0_0 i) (hc1 : ¬cond0_1 i)
    (x0 : Vec F S100x100 .f32) (x1 : Vec F S1x100x2048 .f32) (x2 : Vec F S3x2048x60 .f32) (x3 : Vec F S3x2048x60 .f32) (xs0 xs1 : Vec F S100x60 .f32) :
    Σ' (L4 L5 : List (View.Piece (Elt F) S1x100x60 .f32)) (LS0 : List (View.Piece (Elt F) S100x60 .f32)), { LS1 : List (View.Piece (Elt F) S100x60 .f32) //
      ∀ (xi4 xi5 : Vec F S1x100x60 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__cheb_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.GenH

end
-- ==== Proof.K.BodyC.lean ====
/-
  A grid point of kind C (the last run of its half): one run's contribution is added to each accumulator, and
  the two totals are copied out into the output blocks, whatever those held.
-/
import proofs.«136048_j27848567947758_2_alg».proof.Proof.K.BodyB

set_option maxRecDepth 16384

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The point's effect on memory.  Given the four input blocks at contents x0 … x3, the two output blocks at
    anything and the accumulators at xs0, xs1, the body runs; afterwards the inputs are as they were, and each
    accumulator and each output block holds the listed pieces (the last store first) over what it held. -/
noncomputable def kernelRun0_C (c : Dev nD) (i : grid0.Coords) (arg2 : Memref sig .tc .vmem S100x100 .f32) (harg2 : arg2.IsWhole) (arg3 : Memref sig .tc .vmem S1x100x2048 .f32) (harg3 : arg3.IsWhole) (arg4 : Memref sig .tc .vmem S3x2048x60 .f32) (harg4 : arg4.IsWhole) (arg5 : Memref sig .tc .vmem S3x2048x60 .f32) (harg5 : arg5.IsWhole) (arg6 : Memref sig .tc .vmem S1x100x60 .f32) (harg6 : arg6.IsWhole) (arg7 : Memref sig .tc .vmem S1x100x60 .f32) (harg7 : arg7.IsWhole) (arg8 : Memref sig .tc .vmem S100x60 .f32) (harg8 : arg8.IsWhole) (arg9 : Memref sig .tc .vmem S100x60 .f32) (harg9 : arg9.IsWhole) (hc0 : ¬cond0_0 i) (hc1 : cond0_1 i)
    (x0 : Vec F S100x100 .f32) (x1 : Vec F S1x100x2048 .f32) (x2 : Vec F S3x2048x60 .f32) (x3 : Vec F S3x2048x60 .f32) (xs0 xs1 : Vec F S100x60 .f32) :
    Σ' (L4 L5 : List (View.Piece (Elt F) S1x100x60 .f32)) (LS0 : List (View.Piece (Elt F) S100x60 .f32)), { LS1 : List (View.Piece (Elt F) S100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__cheb_kernel i arg2 harg2 arg3 harg3 arg4 harg4 arg5 harg5 arg6 harg6 arg7 harg7 arg8 harg8 arg9 harg9) K } := by
  refine ⟨?_, ?_, ?_, ?_, fun E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.GenH

end
-- ==== Proof.K.Frame.lean ====
/-
  The kernel program's run, point by point.

  The grid has 32 points: two halves of 16.  Each point adds one run of 2048 features' contribution to two scratch
  accumulators (one per weight family); the first point of a half first clears them, the last point of a half copies
  them into the two output blocks, which are written back only there.  So what the accumulators hold after a point is
  defined by recursion on the point, case by case, and an output block is live only at the last point of its half.
  From the three cases' runs of the body this module builds the pipeline's proof data, discharges the body obligation
  at every point, and concludes the program's run with every array named and the frame claim.
-/
import proofs.«136048_j27848567947758_2_alg».proof.Proof.K.Args
import proofs.«136048_j27848567947758_2_alg».proof.Proof.K.BodyC
import proofs.«136048_j27848567947758_2_alg».proof.Proof.Gen.Kernel.Skeleton
import proofs.«136048_j27848567947758_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region besides the windows: each accumulator owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What a list of stored pieces leaves in a buffer -/

/-- The contents of the first accumulator after the pieces `L` were stored into it. -/
def rdS0 (L : List (View.Piece (Elt F) S100x60 .f32)) : Vec F S100x60 .f32 := VS0_0.read (Elt F) (VS0_0.writes (Elt F) VS0_0.junk L)
/-- The contents of the second accumulator after the pieces `L` were stored into it. -/
def rdS1 (L : List (View.Piece (Elt F) S100x60 .f32)) : Vec F S100x60 .f32 := VS0_1.read (Elt F) (VS0_1.writes (Elt F) VS0_1.junk L)
/-- The contents of the first output's staging buffer after the pieces `L` were stored into it. -/
def rdO4 (L : List (View.Piece (Elt F) S1x100x60 .f32)) : Vec F S1x100x60 .f32 := VO0_4.read (Elt F) (VO0_4.writes (Elt F) VO0_4.junk L)
/-- The contents of the second output's staging buffer after the pieces `L` were stored into it. -/
def rdO5 (L : List (View.Piece (Elt F) S1x100x60 .f32)) : Vec F S1x100x60 .f32 := VO0_5.read (Elt F) (VO0_5.writes (Elt F) VO0_5.junk L)

/-! ## The stored pieces cover their buffers, case by case -/

section Covers
variable (c : Dev nD) (i : grid0.Coords) (arg2 : Memref sig .tc .vmem S100x100 .f32) (harg2 : arg2.IsWhole) (arg3 : Memref sig .tc .vmem S1x100x2048 .f32) (harg3 : arg3.IsWhole) (arg4 : Memref sig .tc .vmem S3x2048x60 .f32) (harg4 : arg4.IsWhole) (arg5 : Memref sig .tc .vmem S3x2048x60 .f32) (harg5 : arg5.IsWhole) (arg6 : Memref sig .tc .vmem S1x100x60 .f32) (harg6 : arg6.IsWhole) (arg7 : Memref sig .tc .vmem S1x100x60 .f32) (harg7 : arg7.IsWhole) (arg8 : Memref sig .tc .vmem S100x60 .f32) (harg8 : arg8.IsWhole) (arg9 : Memref sig .tc .vmem S100x60 .f32) (harg9 : arg9.IsWhole) (x0 : Vec F S100x100 .f32) (x1 : Vec F S1x100x2048 .f32) (x2 : Vec F S3x2048x60 .f32) (x3 : Vec F S3x2048x60 .f32) (xs0 xs1 : Vec F S100x60 .f32)

theorem scoverA_0 (hc0 : cond0_0 i) (hc1 : ¬cond0_1 i) (y : S100x60.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S100x60.size (by sl_kernel_rfl) y
theorem scoverA_1 (hc0 : cond0_0 i) (hc1 : ¬cond0_1 i) (y : S100x60.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S100x60.size (by sl_kernel_rfl) y
theorem scoverB_0 (hc0 : ¬cond0_0 i) (hc1 : ¬cond0_1 i) (y : S100x60.Idx) :
    ∃ pc ∈ (kernelRun0_B c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.1 S100x60.size (by sl_kernel_rfl) y
theorem scoverB_1 (hc0 : ¬cond0_0 i) (hc1 : ¬cond0_1 i) (y : S100x60.Idx) :
    ∃ pc ∈ (kernelRun0_B c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.2.1 S100x60.size (by sl_kernel_rfl) y
theorem scoverC_0 (hc0 : ¬cond0_0 i) (hc1 : cond0_1 i) (y : S100x60.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S100x60.size (by sl_kernel_rfl) y
theorem scoverC_1 (hc0 : ¬cond0_0 i) (hc1 : cond0_1 i) (y : S100x60.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S100x60.size (by sl_kernel_rfl) y
theorem coverC_4 (hc0 : ¬cond0_0 i) (hc1 : cond0_1 i) (y : S1x100x60.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S1x100x60.size (by sl_kernel_rfl) y
theorem coverC_5 (hc0 : ¬cond0_0 i) (hc1 : cond0_1 i) (y : S1x100x60.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1x100x60.size (by sl_kernel_rfl) y
end Covers

/-! ## The three cases at a grid point -/

/-- The first point of a half, run at the point's memrefs and input blocks. -/
@[reducible] def runA (c : Dev nD) (t : Fin cfg0.N) (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
/-- A middle point of a half, the accumulators found at `xs0`, `xs1`. -/
@[reducible] def runB (c : Dev nD) (t : Fin cfg0.N) (h0 : ¬t.val % 16 = 0) (h1 : ¬t.val % 16 = 15) (xs0 xs1 : Vec F S100x60 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) xs0 xs1
/-- The last point of a half, the accumulators found at `xs0`, `xs1`. -/
@[reducible] def runC (c : Dev nD) (t : Fin cfg0.N) (h0 : ¬t.val % 16 = 0) (h1 : t.val % 16 = 15) (xs0 xs1 : Vec F S100x60 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) xs0 xs1

/-! ## The accumulators after each point -/

/-- What the two accumulators hold after the body at position `n`: the case the position is in, a middle or last point
    over what the point before left. -/
def scrAt (c : Dev nD) : (n : ℕ) → n < cfg0.N → Vec F S100x60 .f32 × Vec F S100x60 .f32
  | 0, hn => (rdS0 (runA m c ⟨0, hn⟩ (Nat.zero_mod _) (by show ¬(0 : ℕ) % 16 = 15; decide)).2.2.1, rdS1 (runA m c ⟨0, hn⟩ (Nat.zero_mod _) (by show ¬(0 : ℕ) % 16 = 15; decide)).2.2.2.1)
  | n + 1, hn =>
    if h0 : (n + 1) % 16 = 0 then
      (rdS0 (runA m c ⟨n + 1, hn⟩ h0 (by show ¬(n + 1) % 16 = 15; omega)).2.2.1, rdS1 (runA m c ⟨n + 1, hn⟩ h0 (by show ¬(n + 1) % 16 = 15; omega)).2.2.2.1)
    else if h1 : (n + 1) % 16 = 15 then
      (rdS0 (runC m c ⟨n + 1, hn⟩ h0 h1 (scrAt c n (Nat.lt_of_succ_lt hn)).1 (scrAt c n (Nat.lt_of_succ_lt hn)).2).2.2.1,
       rdS1 (runC m c ⟨n + 1, hn⟩ h0 h1 (scrAt c n (Nat.lt_of_succ_lt hn)).1 (scrAt c n (Nat.lt_of_succ_lt hn)).2).2.2.2.1)
    else
      (rdS0 (runB m c ⟨n + 1, hn⟩ h0 h1 (scrAt c n (Nat.lt_of_succ_lt hn)).1 (scrAt c n (Nat.lt_of_succ_lt hn)).2).2.2.1,
       rdS1 (runB m c ⟨n + 1, hn⟩ h0 h1 (scrAt c n (Nat.lt_of_succ_lt hn)).1 (scrAt c n (Nat.lt_of_succ_lt hn)).2).2.2.2.1)

/-- The accumulators before point `t` (what the point before left; at the first point, a placeholder never used). -/
def scrBefore (c : Dev nD) (t : Fin cfg0.N) : Vec F S100x60 .f32 × Vec F S100x60 .f32 :=
  scrAt m c (t.val - 1) (Nat.lt_of_le_of_lt (Nat.sub_le _ _) t.isLt)

theorem scrAt_A (c : Dev nD) (t : Fin cfg0.N) (h0 : t.val % 16 = 0) (h1 : ¬t.val % 16 = 15) :
    scrAt m c t.val t.isLt = (rdS0 (runA m c t h0 h1).2.2.1, rdS1 (runA m c t h0 h1).2.2.2.1) := by
  obtain ⟨n, hn⟩ := t
  cases n with
  | zero => rfl
  | succ n => exact (dif_pos h0).trans rfl

theorem scrAt_B (c : Dev nD) (t : Fin cfg0.N) (h0 : ¬t.val % 16 = 0) (h1 : ¬t.val % 16 = 15) :
    scrAt m c t.val t.isLt = (rdS0 (runB m c t h0 h1 (scrBefore m c t).1 (scrBefore m c t).2).2.2.1,
      rdS1 (runB m c t h0 h1 (scrBefore m c t).1 (scrBefore m c t).2).2.2.2.1) := by
  obtain ⟨n, hn⟩ := t
  cases n with
  | zero => exact absurd (Nat.zero_mod _) h0
  | succ n => exact (dif_neg h0).trans ((dif_neg h1).trans rfl)

theorem scrAt_C (c : Dev nD) (t : Fin cfg0.N) (h0 : ¬t.val % 16 = 0) (h1 : t.val % 16 = 15) :
    scrAt m c t.val t.isLt = (rdS0 (runC m c t h0 h1 (scrBefore m c t).1 (scrBefore m c t).2).2.2.1,
      rdS1 (runC m c t h0 h1 (scrBefore m c t).1 (scrBefore m c t).2).2.2.2.1) := by
  obtain ⟨n, hn⟩ := t
  cases n with
  | zero => exact absurd (Nat.zero_mod _) h0
  | succ n => exact (dif_neg h0).trans ((dif_pos h1).trans rfl)

/-- What the two outputs' staging buffers hold after the body at point `t`: at the last point of a half the
    accumulators just copied out; elsewhere the buffers are idle and a placeholder stands that nothing consults. -/
def outAt (c : Dev nD) (t : Fin cfg0.N) : Vec F S1x100x60 .f32 × Vec F S1x100x60 .f32 :=
  if h1 : t.val % 16 = 15 then
    (rdO4 (runC m c t (by omega) h1 (scrBefore m c t).1 (scrBefore m c t).2).1,
     rdO5 (runC m c t (by omega) h1 (scrBefore m c t).1 (scrBefore m c t).2).2.1)
  else (rdO4 [], rdO5 [])

theorem outAt_C (c : Dev nD) (t : Fin cfg0.N) (h0 : ¬t.val % 16 = 0) (h1 : t.val % 16 = 15) :
    outAt m c t = (rdO4 (runC m c t h0 h1 (scrBefore m c t).1 (scrBefore m c t).2).1,
      rdO5 (runC m c t h0 h1 (scrBefore m c t).1 (scrBefore m c t).2).2.1) := dif_pos h1

/-! ## The region invariant -/

/-- The invariant before position `n`: before the first point what the launch hands over; afterwards the two
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((scrAt m c n hn).1) ∗ owns (c : Thread nD τ) scM0_1 fullShare ((scrAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scrAt m c n hn).1) ∗ owns (c : Thread nD τ) scM0_1 fullShare ((scrAt m c n hn).2)) ∗ (∃ r, prngReg c r)) := rfl

theorem PhiS_pos (c : Dev nD) (t : Fin cfg0.N) (hz : t.val ≠ 0) :
    PhiS m c t.val (Nat.le_of_lt t.isLt) = iprop(iprop(owns (c : Thread nD τ) scM0_0 fullShare ((scrBefore m c t).1) ∗ owns (c : Thread nD τ) scM0_1 fullShare ((scrBefore m c t).2)) ∗ (∃ r, prngReg c r)) := by
  obtain ⟨n, hn⟩ := t
  cases n with
  | zero => exact absurd rfl hz
  | succ n => rfl

/-! ## The pipeline's proof data -/

/-- The proof data of the pipeline on core `c`: the arrays as the region finds them; after the body at point `t`
    each input's buffer at its block and each output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outAt m c t).1
    | ⟨5, _⟩ => (outAt m c t).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outAt m c t).1 := by dsimp only [dats]
theorem after0_5 (c : Dev nD) (t : Fin cfg0.N) : (dats m 0 c).after 5 t = (outAt m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in0 (c : Dev nD) (t : Fin cfg0.N) : (dats m 0 c).leavesExact 0 t = owns (c : Thread nD τ) (ms0_0 t) fullShare (iblk m c 0 t) :=
  (show (dats m 0 c).leavesExact 0 t = owns (c : Thread nD τ) (ms0_0 t) fullShare ((dats m 0 c).after 0 t) from by
    unfold Dat.leavesExact; rw [liveAt0_0 t]).trans (by rw [after0_0])
theorem leaves_in1 (c : Dev nD) (t : Fin cfg0.N) : (dats m 0 c).leavesExact 1 t = owns (c : Thread nD τ) (ms0_1 t) fullShare (iblk m c 1 t) :=
  (show (dats m 0 c).leavesExact 1 t = owns (c : Thread nD τ) (ms0_1 t) fullShare ((dats m 0 c).after 1 t) from by
    unfold Dat.leavesExact; rw [liveAt0_1 t]).trans (by rw [after0_1])
theorem leaves_in2 (c : Dev nD) (t : Fin cfg0.N) : (dats m 0 c).leavesExact 2 t = owns (c : Thread nD τ) (ms0_2 t) fullShare (iblk m c 2 t) :=
  (show (dats m 0 c).leavesExact 2 t = owns (c : Thread nD τ) (ms0_2 t) fullShare ((dats m 0 c).after 2 t) from by
    unfold Dat.leavesExact; rw [liveAt0_2 t]).trans (by rw [after0_2])
theorem leaves_in3 (c : Dev nD) (t : Fin cfg0.N) : (dats m 0 c).leavesExact 3 t = owns (c : Thread nD τ) (ms0_3 t) fullShare (iblk m c 3 t) :=
  (show (dats m 0 c).leavesExact 3 t = owns (c : Thread nD τ) (ms0_3 t) fullShare ((dats m 0 c).after 3 t) from by
    unfold Dat.leavesExact; rw [liveAt0_3 t]).trans (by rw [after0_3])

set_option maxHeartbeats 8000000 in
/-- The body at any point: the inputs' buffers hold their blocks; the point's position in its half says which case
    it is in; the invariant hands the body the accumulators at what the point before left (at anything at the very
    first point) and takes them back at this point's contents; an idle output buffer is handed back untouched, a
    live one with the accumulator copied into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 32 := lt_of_lt_of_eq t.isLt (show cfg0.N = 32 from N_0)
  by_cases h0 : t.val % 16 = 0
  · have h1 : ¬t.val % 16 = 15 := by omega
    rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
    rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
    rw [scrAt_A m c t h0 h1]
    unfold rdS0 rdS1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    by_cases h1 : t.val % 16 = 15
    · rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outAt_C m c t h0 h1, scrAt_C m c t h0 h1]
      unfold rdS0 rdS1 rdO4 rdO5; (try dsimp only)
      rw [PhiS_castSucc m c t, PhiS_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runC m c t h0 h1 _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _)
          · unfold owns; iexists _; isplitr
            swap; · iexact HS1
            ipureintro; exact View.read_writes_of_cover _ _ _ _ _ (scoverC_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 c _ _ _ _ _ _ _ _ _ _ _ _ _ _ _ _ _ _ _ _ _ _ _ _ _)
      unfold owns; iexists _; isplitr
      swap; · iexact H5
      ipureintro; exact View.read_writes_of_cover _ _ _ _ _ (coverC_5 c _ _ _ _ _ _ _ _ _ _ _ _ _ _ _ _ _ _ _ _ _ _ _ _ _)
    · rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [scrAt_B m c t h0 h1]
      unfold rdS0 rdS1; (try dsimp only)
      rw [PhiS_castSucc m c t, PhiS_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runB m c t h0 h1 _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _)
          · unfold owns; iexists _; isplitr
            swap; · iexact HS1
            ipureintro; exact View.read_writes_of_cover _ _ _ _ _ (scoverB_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulators' named contents are
    forgotten. -/
theorem hout (c : Dev nD) : (dats m 0 c).Φ (Fin.last cfg0.N) ⊢ Pipeline.ΦA spec0 c := by
  have hN : cfg0.N = 32 := N_0
  have hlast : (dats m 0 c).Φ (Fin.last cfg0.N) = PhiS m c ((⟨31, by omega⟩ : Fin cfg0.N).val + 1) (by simp only []; omega) := by
    dsimp only [dats]; simp only [Fin.val_last, hN]
  rw [hlast, PhiS_succ, PhiA0_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- From any memory with zero counters every weakly fair execution of the program terminates, and every final state
    has every array of the pipeline at what the proof data compute and every other buffer as the operations after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.GenH

end
-- ==== Proof.KI.Around.lean ====
/-
  The launch side of the kernel program's run: the program is a prefix of host operations, one pallas_call over a
  2 × 16 grid, and a suffix of host operations.  This module names what the region finds in every buffer, shows that
  the program reduces to the region continued by the suffix, that the suffix touches no array of the pipeline, and
  that each input window's staging buffer holds its block at every grid point.
-/
import proofs.«136048_j27848567947758_2_alg».proof.Proof.Gen.KernelIdeal.Launch
import proofs.«136048_j27848567947758_2_alg».proof.Proof.Gen.KernelIdeal.Skeleton
import proofs.«136048_j27848567947758_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the pallas_call

  The host operations before the call come in five stretches (the two `where` selections are stretches of their
  own); one stretch follows it.  The region finds every buffer at the contents the five stretches leave. -/

/-- Core `c`'s buffer contents when the region is entered: after the host operations before it. -/
abbrev V0 (c : Dev nD) : Valuation τ sig (Elt F) :=
  StableHlo.after (List.flatten [hostOps0, hostOps0_1, hostOps0_2, hostOps0_3, hostOps0_4]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the five stretches, the region, the last stretch; so it reduces to the region continued by the
    last stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The operations after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: unfetched, the block
    index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: unfetched, the block
    index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: unfetched, the block
    index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place: unfetched, the block
    index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.GenH

end
-- ==== Proof.KI.Args.lean ====
/-
  The argument arrays of the kernel program around the pallas_call: no host operation writes one, so each ends the
  run as it was launched — which is the frame claim, read off a frame run's final contents.
-/
import proofs.«136048_j27848567947758_2_alg».proof.Proof.KI.Around
import proofs.«136048_j27848567947758_2_alg».proof.Proof.Gen.KernelIdeal.Skeleton
import proofs.«136048_j27848567947758_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays around the region

  No host operation writes an argument array (each writes only its own result buffer), so the region finds each as
  it was launched and the operations after the region leave it so. -/

set_option maxHeartbeats 1000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 1000000 in
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 1000000 in
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 1000000 in
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 1000000 in
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 1000000 in
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

set_option maxHeartbeats 1000000 in
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

set_option maxHeartbeats 1000000 in
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

set_option maxHeartbeats 1000000 in
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

set_option maxHeartbeats 1000000 in
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- The frame from a frame run: every argument array ends as launched — a staged input by the library's reading
    of an input array after the run, an array no window stages by the run's clause for the bypassing buffers. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(((h c).1 1).trans (((dats 0 c).arrAt_in 1 rfl _).trans ((hA c 1).trans (V_main_arg0 m c)))),
     (((h c).2 main_arg1 (Pipeline.mem_restRefs_of main_arg1 (by decide) (by decide))).trans (W_main_arg1 m dats c)),
     (((h c).2 main_arg2 (Pipeline.mem_restRefs_of main_arg2 (by decide) (by decide))).trans (W_main_arg2 m dats c)),
     (((h c).2 main_arg3 (Pipeline.mem_restRefs_of main_arg3 (by decide) (by decide))).trans (W_main_arg3 m dats c)),
     (((h c).2 main_arg4 (Pipeline.mem_restRefs_of main_arg4 (by decide) (by decide))).trans (W_main_arg4 m dats c)),
     (((h c).1 2).trans (((dats 0 c).arrAt_in 2 rfl _).trans ((hA c 2).trans (V_main_arg5 m c)))),
     (((h c).2 main_arg6 (Pipeline.mem_restRefs_of main_arg6 (by decide) (by decide))).trans (W_main_arg6 m dats c)),
     (((h c).1 3).trans (((dats 0 c).arrAt_in 3 rfl _).trans ((hA c 3).trans (V_main_arg7 m c)))),
     (((h c).2 main_arg8 (Pipeline.mem_restRefs_of main_arg8 (by decide) (by decide))).trans (W_main_arg8 m dats c)),
     (((h c).2 main_arg9 (Pipeline.mem_restRefs_of main_arg9 (by decide) (by decide))).trans (W_main_arg9 m dats c)),
     (((h c).2 main_arg10 (Pipeline.mem_restRefs_of main_arg10 (by decide) (by decide))).trans (W_main_arg10 m dats c)),
     (((h c).2 main_arg11 (Pipeline.mem_restRefs_of main_arg11 (by decide) (by decide))).trans (W_main_arg11 m dats c)),
     (((h c).2 main_arg12 (Pipeline.mem_restRefs_of main_arg12 (by decide) (by decide))).trans (W_main_arg12 m dats c))⟩) h

end Cert.KernelIdeal.GenH

end
-- ==== Proof.KI.Body.lean ====
/-
  One grid point of the convolution kernel, seen from outside: which of its two conditional blocks run at
  which of the 2 × 16 grid points, and which buffers it is handed there.

  The second grid coordinate k = i 1 counts the 16 runs of 2048 features inside one half.  At k = 0 the two
  100 × 60 accumulators are first set to zero; at every k one run's contribution is added to each; at k = 15
  the accumulators are copied out into the two 1 × 100 × 60 output blocks.  So a point is of one of three kinds:
  A (k = 0: zero, add), B (0 < k < 15: add), C (k = 15: add, copy out).  With the points numbered row by row,
  t = 16 · (i 0) + k, these are t ≡ 0, t ≢ 0, 15 and t ≡ 15 (mod 16).
-/
import proofs.«136048_j27848567947758_2_alg».proof.Proof.Gen.KernelIdeal.Launch
import proofs.«136048_j27848567947758_2_alg».proof.Proof.Gen.KernelIdeal.Skeleton
import proofs.«136048_j27848567947758_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions, as functions of the grid point -/

/-- "This is the first run of its half" (k = 0), computed as the kernel computes it: compare, widen, compare
    with zero. -/
abbrev cond0_0 (i : grid0.Coords) : Prop :=
  (Scalar.cmpi .ne (Scalar.extui (Scalar.cmpi .eq (BitVec.ofNat 32 (i 1).val) 0#32)) 0#32) = 1#1

/-- It holds exactly at the points t ≡ 0 (mod 16): checked at each of the 32 points. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last run of its half" (k = 15). -/
abbrev cond0_1 (i : grid0.Coords) : Prop := k0_cond2 i = 1#1

/-- It holds exactly at the points t ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## The buffers a point is handed -/

/-- The staging buffer each of the six windows is on at point t, with the fact that it is a whole buffer. -/
abbrev ms0_0 (t : Fin cfg0.N) : Memref sig .tc .vmem S100x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x100x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x2048x60 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x2048x60 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x100x60 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x100x60 .f32 := win0_5.stage (cfg0.slots t 5)
abbrev hs0_5 (t : Fin cfg0.N) : (ms0_5 t).IsWhole := hstage0_5 ((cfg0.slots t 5).cast nbuf0_5)

/-- The two accumulators: whole buffers of the kernel's own, the same at every point. -/
abbrev scM0_0 : Memref sig .tc .vmem S100x60 .f32 := Memref.whole cc0_scratch0
abbrev scM0_1 : Memref sig .tc .vmem S100x60 .f32 := Memref.whole cc0_scratch1
/-- The accumulators as index spaces: what they hold is stated through these. -/
abbrev VS0_0 : View sig .tc .vmem S100x60 .f32 := scM0_0.view
abbrev VS0_1 : View sig .tc .vmem S100x60 .f32 := scM0_1.view
/-- One staging buffer of each output as an index space (all of an output's staging buffers have the same). -/
abbrev VO0_4 : View sig .tc .vmem S1x100x60 .f32 := (Memref.whole cc0_stg4_0 : Memref sig .tc .vmem S1x100x60 .f32).view
abbrev VO0_5 : View sig .tc .vmem S1x100x60 .f32 := (Memref.whole cc0_stg5_0 : Memref sig .tc .vmem S1x100x60 .f32).view

/-! ## Which windows a point leaves alone

  The four inputs are read at every point.  An output block is stored into only at the points of kind C, and
  only there is it written back to its array; at the points of kinds A and B it is left as it was found. -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

end Cert.KernelIdeal.GenH

end
-- ==== Proof.KI.BodyA.lean ====
/-
  A grid point of kind A (the first run of its half): the accumulators, whatever they held, are set to zero,
  and one run's contribution is added to each.  The output blocks are not touched.
-/
import proofs.«136048_j27848567947758_2_alg».proof.Proof.KI.Body

set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The point's effect on memory.  Given the four input blocks at contents x0 … x3, the two output blocks at any
    contents xi4, xi5 and the two accumulators at anything, the body runs; afterwards the inputs and the output
    blocks are as they were and each accumulator holds the listed pieces (the last store first) over what it held.
    The lists are part of the statement's witness: they are read off the body's stores. -/
noncomputable def kernelRun0_A (c : Dev nD) (i : grid0.Coords) (arg2 : Memref sig .tc .vmem S100x100 .f32) (harg2 : arg2.IsWhole) (arg3 : Memref sig .tc .vmem S1x100x2048 .f32) (harg3 : arg3.IsWhole) (arg4 : Memref sig .tc .vmem S3x2048x60 .f32) (harg4 : arg4.IsWhole) (arg5 : Memref sig .tc .vmem S3x2048x60 .f32) (harg5 : arg5.IsWhole) (arg6 : Memref sig .tc .vmem S1x100x60 .f32) (harg6 : arg6.IsWhole) (arg7 : Memref sig .tc .vmem S1x100x60 .f32) (harg7 : arg7.IsWhole) (arg8 : Memref sig .tc .vmem S100x60 .f32) (harg8 : arg8.IsWhole) (arg9 : Memref sig .tc .vmem S100x60 .f32) (harg9 : arg9.IsWhole) (hc0 : cond0_0 i) (hc1 : ¬cond0_1 i)
    (x0 : Vec F S100x100 .f32) (x1 : Vec F S1x100x2048 .f32) (x2 : Vec F S3x2048x60 .f32) (x3 : Vec F S3x2048x60 .f32) :
    Σ' (L4 L5 : List (View.Piece (Elt F) S1x100x60 .f32)) (LS0 : List (View.Piece (Elt F) S100x60 .f32)), { LS1 : List (View.Piece (Elt F) S100x60 .f32) //
      ∀ (xi4 xi5 : Vec F S1x100x60 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__cheb_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.GenH

end
-- ==== Proof.KI.BodyB.lean ====
/-
  A grid point of kind B (neither the first nor the last run of its half): one run's contribution is added to
  each accumulator, which starts from what the point before left.  The output blocks are not touched.
-/
import proofs.«136048_j27848567947758_2_alg».proof.Proof.KI.BodyA

set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The point's effect on memory.  Given the four input blocks at contents x0 … x3, the two output blocks at any
    contents xi4, xi5 and the accumulators at xs0, xs1, the body runs; afterwards the inputs and the output blocks
    are as they were and each accumulator holds the listed pieces (the last store first) over what it held. -/
noncomputable def kernelRun0_B (c : Dev nD) (i : grid0.Coords) (arg2 : Memref sig .tc .vmem S100x100 .f32) (harg2 : arg2.IsWhole) (arg3 : Memref sig .tc .vmem S1x100x2048 .f32) (harg3 : arg3.IsWhole) (arg4 : Memref sig .tc .vmem S3x2048x60 .f32) (harg4 : arg4.IsWhole) (arg5 : Memref sig .tc .vmem S3x2048x60 .f32) (harg5 : arg5.IsWhole) (arg6 : Memref sig .tc .vmem S1x100x60 .f32) (harg6 : arg6.IsWhole) (arg7 : Memref sig .tc .vmem S1x100x60 .f32) (harg7 : arg7.IsWhole) (arg8 : Memref sig .tc .vmem S100x60 .f32) (harg8 : arg8.IsWhole) (arg9 : Memref sig .tc .vmem S100x60 .f32) (harg9 : arg9.IsWhole) (hc0 : ¬cond0_0 i) (hc1 : ¬cond0_1 i)
    (x0 : Vec F S100x100 .f32) (x1 : Vec F S1x100x2048 .f32) (x2 : Vec F S3x2048x60 .f32) (x3 : Vec F S3x2048x60 .f32) (xs0 xs1 : Vec F S100x60 .f32) :
    Σ' (L4 L5 : List (View.Piece (Elt F) S1x100x60 .f32)) (LS0 : List (View.Piece (Elt F) S100x60 .f32)), { LS1 : List (View.Piece (Elt F) S100x60 .f32) //
      ∀ (xi4 xi5 : Vec F S1x100x60 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__cheb_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.GenH

end
-- ==== Proof.KI.BodyC.lean ====
/-
  A grid point of kind C (the last run of its half): one run's contribution is added to each accumulator, and
  the two totals are copied out into the output blocks, whatever those held.
-/
import proofs.«136048_j27848567947758_2_alg».proof.Proof.KI.BodyB

set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The point's effect on memory.  Given the four input blocks at contents x0 … x3, the two output blocks at
    anything and the accumulators at xs0, xs1, the body runs; afterwards the inputs are as they were, and each
    accumulator and each output block holds the listed pieces (the last store first) over what it held. -/
noncomputable def kernelRun0_C (c : Dev nD) (i : grid0.Coords) (arg2 : Memref sig .tc .vmem S100x100 .f32) (harg2 : arg2.IsWhole) (arg3 : Memref sig .tc .vmem S1x100x2048 .f32) (harg3 : arg3.IsWhole) (arg4 : Memref sig .tc .vmem S3x2048x60 .f32) (harg4 : arg4.IsWhole) (arg5 : Memref sig .tc .vmem S3x2048x60 .f32) (harg5 : arg5.IsWhole) (arg6 : Memref sig .tc .vmem S1x100x60 .f32) (harg6 : arg6.IsWhole) (arg7 : Memref sig .tc .vmem S1x100x60 .f32) (harg7 : arg7.IsWhole) (arg8 : Memref sig .tc .vmem S100x60 .f32) (harg8 : arg8.IsWhole) (arg9 : Memref sig .tc .vmem S100x60 .f32) (harg9 : arg9.IsWhole) (hc0 : ¬cond0_0 i) (hc1 : cond0_1 i)
    (x0 : Vec F S100x100 .f32) (x1 : Vec F S1x100x2048 .f32) (x2 : Vec F S3x2048x60 .f32) (x3 : Vec F S3x2048x60 .f32) (xs0 xs1 : Vec F S100x60 .f32) :
    Σ' (L4 L5 : List (View.Piece (Elt F) S1x100x60 .f32)) (LS0 : List (View.Piece (Elt F) S100x60 .f32)), { LS1 : List (View.Piece (Elt F) S100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__cheb_kernel i arg2 harg2 arg3 harg3 arg4 harg4 arg5 harg5 arg6 harg6 arg7 harg7 arg8 harg8 arg9 harg9) K } := by
  refine ⟨?_, ?_, ?_, ?_, fun E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.GenH

end
-- ==== Proof.KI.Frame.lean ====
/-
  The kernel program's run, point by point.

  The grid has 32 points: two halves of 16.  Each point adds one run of 2048 features' contribution to two scratch
  accumulators (one per weight family); the first point of a half first clears them, the last point of a half copies
  them into the two output blocks, which are written back only there.  So what the accumulators hold after a point is
  defined by recursion on the point, case by case, and an output block is live only at the last point of its half.
  From the three cases' runs of the body this module builds the pipeline's proof data, discharges the body obligation
  at every point, and concludes the program's run with every array named and the frame claim.
-/
import proofs.«136048_j27848567947758_2_alg».proof.Proof.KI.Args
import proofs.«136048_j27848567947758_2_alg».proof.Proof.KI.BodyC
import proofs.«136048_j27848567947758_2_alg».proof.Proof.Gen.KernelIdeal.Skeleton
import proofs.«136048_j27848567947758_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region besides the windows: each accumulator owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What a list of stored pieces leaves in a buffer -/

/-- The contents of the first accumulator after the pieces `L` were stored into it. -/
def rdS0 (L : List (View.Piece (Elt F) S100x60 .f32)) : Vec F S100x60 .f32 := VS0_0.read (Elt F) (VS0_0.writes (Elt F) VS0_0.junk L)
/-- The contents of the second accumulator after the pieces `L` were stored into it. -/
def rdS1 (L : List (View.Piece (Elt F) S100x60 .f32)) : Vec F S100x60 .f32 := VS0_1.read (Elt F) (VS0_1.writes (Elt F) VS0_1.junk L)
/-- The contents of the first output's staging buffer after the pieces `L` were stored into it. -/
def rdO4 (L : List (View.Piece (Elt F) S1x100x60 .f32)) : Vec F S1x100x60 .f32 := VO0_4.read (Elt F) (VO0_4.writes (Elt F) VO0_4.junk L)
/-- The contents of the second output's staging buffer after the pieces `L` were stored into it. -/
def rdO5 (L : List (View.Piece (Elt F) S1x100x60 .f32)) : Vec F S1x100x60 .f32 := VO0_5.read (Elt F) (VO0_5.writes (Elt F) VO0_5.junk L)

/-! ## The stored pieces cover their buffers, case by case -/

section Covers
variable (c : Dev nD) (i : grid0.Coords) (arg2 : Memref sig .tc .vmem S100x100 .f32) (harg2 : arg2.IsWhole) (arg3 : Memref sig .tc .vmem S1x100x2048 .f32) (harg3 : arg3.IsWhole) (arg4 : Memref sig .tc .vmem S3x2048x60 .f32) (harg4 : arg4.IsWhole) (arg5 : Memref sig .tc .vmem S3x2048x60 .f32) (harg5 : arg5.IsWhole) (arg6 : Memref sig .tc .vmem S1x100x60 .f32) (harg6 : arg6.IsWhole) (arg7 : Memref sig .tc .vmem S1x100x60 .f32) (harg7 : arg7.IsWhole) (arg8 : Memref sig .tc .vmem S100x60 .f32) (harg8 : arg8.IsWhole) (arg9 : Memref sig .tc .vmem S100x60 .f32) (harg9 : arg9.IsWhole) (x0 : Vec F S100x100 .f32) (x1 : Vec F S1x100x2048 .f32) (x2 : Vec F S3x2048x60 .f32) (x3 : Vec F S3x2048x60 .f32) (xs0 xs1 : Vec F S100x60 .f32)

theorem scoverA_0 (hc0 : cond0_0 i) (hc1 : ¬cond0_1 i) (y : S100x60.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S100x60.size (by sl_kernel_rfl) y
theorem scoverA_1 (hc0 : cond0_0 i) (hc1 : ¬cond0_1 i) (y : S100x60.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S100x60.size (by sl_kernel_rfl) y
theorem scoverB_0 (hc0 : ¬cond0_0 i) (hc1 : ¬cond0_1 i) (y : S100x60.Idx) :
    ∃ pc ∈ (kernelRun0_B c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.1 S100x60.size (by sl_kernel_rfl) y
theorem scoverB_1 (hc0 : ¬cond0_0 i) (hc1 : ¬cond0_1 i) (y : S100x60.Idx) :
    ∃ pc ∈ (kernelRun0_B c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.2.1 S100x60.size (by sl_kernel_rfl) y
theorem scoverC_0 (hc0 : ¬cond0_0 i) (hc1 : cond0_1 i) (y : S100x60.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S100x60.size (by sl_kernel_rfl) y
theorem scoverC_1 (hc0 : ¬cond0_0 i) (hc1 : cond0_1 i) (y : S100x60.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S100x60.size (by sl_kernel_rfl) y
theorem coverC_4 (hc0 : ¬cond0_0 i) (hc1 : cond0_1 i) (y : S1x100x60.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S1x100x60.size (by sl_kernel_rfl) y
theorem coverC_5 (hc0 : ¬cond0_0 i) (hc1 : cond0_1 i) (y : S1x100x60.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1x100x60.size (by sl_kernel_rfl) y
end Covers

/-! ## The three cases at a grid point -/

/-- The first point of a half, run at the point's memrefs and input blocks. -/
@[reducible] def runA (c : Dev nD) (t : Fin cfg0.N) (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
/-- A middle point of a half, the accumulators found at `xs0`, `xs1`. -/
@[reducible] def runB (c : Dev nD) (t : Fin cfg0.N) (h0 : ¬t.val % 16 = 0) (h1 : ¬t.val % 16 = 15) (xs0 xs1 : Vec F S100x60 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) xs0 xs1
/-- The last point of a half, the accumulators found at `xs0`, `xs1`. -/
@[reducible] def runC (c : Dev nD) (t : Fin cfg0.N) (h0 : ¬t.val % 16 = 0) (h1 : t.val % 16 = 15) (xs0 xs1 : Vec F S100x60 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) xs0 xs1

/-! ## The accumulators after each point -/

/-- What the two accumulators hold after the body at position `n`: the case the position is in, a middle or last point
    over what the point before left. -/
def scrAt (c : Dev nD) : (n : ℕ) → n < cfg0.N → Vec F S100x60 .f32 × Vec F S100x60 .f32
  | 0, hn => (rdS0 (runA m c ⟨0, hn⟩ (Nat.zero_mod _) (by show ¬(0 : ℕ) % 16 = 15; decide)).2.2.1, rdS1 (runA m c ⟨0, hn⟩ (Nat.zero_mod _) (by show ¬(0 : ℕ) % 16 = 15; decide)).2.2.2.1)
  | n + 1, hn =>
    if h0 : (n + 1) % 16 = 0 then
      (rdS0 (runA m c ⟨n + 1, hn⟩ h0 (by show ¬(n + 1) % 16 = 15; omega)).2.2.1, rdS1 (runA m c ⟨n + 1, hn⟩ h0 (by show ¬(n + 1) % 16 = 15; omega)).2.2.2.1)
    else if h1 : (n + 1) % 16 = 15 then
      (rdS0 (runC m c ⟨n + 1, hn⟩ h0 h1 (scrAt c n (Nat.lt_of_succ_lt hn)).1 (scrAt c n (Nat.lt_of_succ_lt hn)).2).2.2.1,
       rdS1 (runC m c ⟨n + 1, hn⟩ h0 h1 (scrAt c n (Nat.lt_of_succ_lt hn)).1 (scrAt c n (Nat.lt_of_succ_lt hn)).2).2.2.2.1)
    else
      (rdS0 (runB m c ⟨n + 1, hn⟩ h0 h1 (scrAt c n (Nat.lt_of_succ_lt hn)).1 (scrAt c n (Nat.lt_of_succ_lt hn)).2).2.2.1,
       rdS1 (runB m c ⟨n + 1, hn⟩ h0 h1 (scrAt c n (Nat.lt_of_succ_lt hn)).1 (scrAt c n (Nat.lt_of_succ_lt hn)).2).2.2.2.1)

/-- The accumulators before point `t` (what the point before left; at the first point, a placeholder never used). -/
def scrBefore (c : Dev nD) (t : Fin cfg0.N) : Vec F S100x60 .f32 × Vec F S100x60 .f32 :=
  scrAt m c (t.val - 1) (Nat.lt_of_le_of_lt (Nat.sub_le _ _) t.isLt)

theorem scrAt_A (c : Dev nD) (t : Fin cfg0.N) (h0 : t.val % 16 = 0) (h1 : ¬t.val % 16 = 15) :
    scrAt m c t.val t.isLt = (rdS0 (runA m c t h0 h1).2.2.1, rdS1 (runA m c t h0 h1).2.2.2.1) := by
  obtain ⟨n, hn⟩ := t
  cases n with
  | zero => rfl
  | succ n => exact (dif_pos h0).trans rfl

theorem scrAt_B (c : Dev nD) (t : Fin cfg0.N) (h0 : ¬t.val % 16 = 0) (h1 : ¬t.val % 16 = 15) :
    scrAt m c t.val t.isLt = (rdS0 (runB m c t h0 h1 (scrBefore m c t).1 (scrBefore m c t).2).2.2.1,
      rdS1 (runB m c t h0 h1 (scrBefore m c t).1 (scrBefore m c t).2).2.2.2.1) := by
  obtain ⟨n, hn⟩ := t
  cases n with
  | zero => exact absurd (Nat.zero_mod _) h0
  | succ n => exact (dif_neg h0).trans ((dif_neg h1).trans rfl)

theorem scrAt_C (c : Dev nD) (t : Fin cfg0.N) (h0 : ¬t.val % 16 = 0) (h1 : t.val % 16 = 15) :
    scrAt m c t.val t.isLt = (rdS0 (runC m c t h0 h1 (scrBefore m c t).1 (scrBefore m c t).2).2.2.1,
      rdS1 (runC m c t h0 h1 (scrBefore m c t).1 (scrBefore m c t).2).2.2.2.1) := by
  obtain ⟨n, hn⟩ := t
  cases n with
  | zero => exact absurd (Nat.zero_mod _) h0
  | succ n => exact (dif_neg h0).trans ((dif_pos h1).trans rfl)

/-- What the two outputs' staging buffers hold after the body at point `t`: at the last point of a half the
    accumulators just copied out; elsewhere the buffers are idle and a placeholder stands that nothing consults. -/
def outAt (c : Dev nD) (t : Fin cfg0.N) : Vec F S1x100x60 .f32 × Vec F S1x100x60 .f32 :=
  if h1 : t.val % 16 = 15 then
    (rdO4 (runC m c t (by omega) h1 (scrBefore m c t).1 (scrBefore m c t).2).1,
     rdO5 (runC m c t (by omega) h1 (scrBefore m c t).1 (scrBefore m c t).2).2.1)
  else (rdO4 [], rdO5 [])

theorem outAt_C (c : Dev nD) (t : Fin cfg0.N) (h0 : ¬t.val % 16 = 0) (h1 : t.val % 16 = 15) :
    outAt m c t = (rdO4 (runC m c t h0 h1 (scrBefore m c t).1 (scrBefore m c t).2).1,
      rdO5 (runC m c t h0 h1 (scrBefore m c t).1 (scrBefore m c t).2).2.1) := dif_pos h1

/-! ## The region invariant -/

/-- The invariant before position `n`: before the first point what the launch hands over; afterwards the two
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((scrAt m c n hn).1) ∗ owns (c : Thread nD τ) scM0_1 fullShare ((scrAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scrAt m c n hn).1) ∗ owns (c : Thread nD τ) scM0_1 fullShare ((scrAt m c n hn).2)) ∗ (∃ r, prngReg c r)) := rfl

theorem PhiS_pos (c : Dev nD) (t : Fin cfg0.N) (hz : t.val ≠ 0) :
    PhiS m c t.val (Nat.le_of_lt t.isLt) = iprop(iprop(owns (c : Thread nD τ) scM0_0 fullShare ((scrBefore m c t).1) ∗ owns (c : Thread nD τ) scM0_1 fullShare ((scrBefore m c t).2)) ∗ (∃ r, prngReg c r)) := by
  obtain ⟨n, hn⟩ := t
  cases n with
  | zero => exact absurd rfl hz
  | succ n => rfl

/-! ## The pipeline's proof data -/

/-- The proof data of the pipeline on core `c`: the arrays as the region finds them; after the body at point `t`
    each input's buffer at its block and each output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outAt m c t).1
    | ⟨5, _⟩ => (outAt m c t).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outAt m c t).1 := by dsimp only [dats]
theorem after0_5 (c : Dev nD) (t : Fin cfg0.N) : (dats m 0 c).after 5 t = (outAt m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in0 (c : Dev nD) (t : Fin cfg0.N) : (dats m 0 c).leavesExact 0 t = owns (c : Thread nD τ) (ms0_0 t) fullShare (iblk m c 0 t) :=
  (show (dats m 0 c).leavesExact 0 t = owns (c : Thread nD τ) (ms0_0 t) fullShare ((dats m 0 c).after 0 t) from by
    unfold Dat.leavesExact; rw [liveAt0_0 t]).trans (by rw [after0_0])
theorem leaves_in1 (c : Dev nD) (t : Fin cfg0.N) : (dats m 0 c).leavesExact 1 t = owns (c : Thread nD τ) (ms0_1 t) fullShare (iblk m c 1 t) :=
  (show (dats m 0 c).leavesExact 1 t = owns (c : Thread nD τ) (ms0_1 t) fullShare ((dats m 0 c).after 1 t) from by
    unfold Dat.leavesExact; rw [liveAt0_1 t]).trans (by rw [after0_1])
theorem leaves_in2 (c : Dev nD) (t : Fin cfg0.N) : (dats m 0 c).leavesExact 2 t = owns (c : Thread nD τ) (ms0_2 t) fullShare (iblk m c 2 t) :=
  (show (dats m 0 c).leavesExact 2 t = owns (c : Thread nD τ) (ms0_2 t) fullShare ((dats m 0 c).after 2 t) from by
    unfold Dat.leavesExact; rw [liveAt0_2 t]).trans (by rw [after0_2])
theorem leaves_in3 (c : Dev nD) (t : Fin cfg0.N) : (dats m 0 c).leavesExact 3 t = owns (c : Thread nD τ) (ms0_3 t) fullShare (iblk m c 3 t) :=
  (show (dats m 0 c).leavesExact 3 t = owns (c : Thread nD τ) (ms0_3 t) fullShare ((dats m 0 c).after 3 t) from by
    unfold Dat.leavesExact; rw [liveAt0_3 t]).trans (by rw [after0_3])

set_option maxHeartbeats 8000000 in
/-- The body at any point: the inputs' buffers hold their blocks; the point's position in its half says which case
    it is in; the invariant hands the body the accumulators at what the point before left (at anything at the very
    first point) and takes them back at this point's contents; an idle output buffer is handed back untouched, a
    live one with the accumulator copied into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 32 := lt_of_lt_of_eq t.isLt (show cfg0.N = 32 from N_0)
  by_cases h0 : t.val % 16 = 0
  · have h1 : ¬t.val % 16 = 15 := by omega
    rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
    rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
    rw [scrAt_A m c t h0 h1]
    unfold rdS0 rdS1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    by_cases h1 : t.val % 16 = 15
    · rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outAt_C m c t h0 h1, scrAt_C m c t h0 h1]
      unfold rdS0 rdS1 rdO4 rdO5; (try dsimp only)
      rw [PhiS_castSucc m c t, PhiS_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runC m c t h0 h1 _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _)
          · unfold owns; iexists _; isplitr
            swap; · iexact HS1
            ipureintro; exact View.read_writes_of_cover _ _ _ _ _ (scoverC_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 c _ _ _ _ _ _ _ _ _ _ _ _ _ _ _ _ _ _ _ _ _ _ _ _ _)
      unfold owns; iexists _; isplitr
      swap; · iexact H5
      ipureintro; exact View.read_writes_of_cover _ _ _ _ _ (coverC_5 c _ _ _ _ _ _ _ _ _ _ _ _ _ _ _ _ _ _ _ _ _ _ _ _ _)
    · rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [scrAt_B m c t h0 h1]
      unfold rdS0 rdS1; (try dsimp only)
      rw [PhiS_castSucc m c t, PhiS_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runB m c t h0 h1 _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _)
          · unfold owns; iexists _; isplitr
            swap; · iexact HS1
            ipureintro; exact View.read_writes_of_cover _ _ _ _ _ (scoverB_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulators' named contents are
    forgotten. -/
theorem hout (c : Dev nD) : (dats m 0 c).Φ (Fin.last cfg0.N) ⊢ Pipeline.ΦA spec0 c := by
  have hN : cfg0.N = 32 := N_0
  have hlast : (dats m 0 c).Φ (Fin.last cfg0.N) = PhiS m c ((⟨31, by omega⟩ : Fin cfg0.N).val + 1) (by simp only []; omega) := by
    dsimp only [dats]; simp only [Fin.val_last, hN]
  rw [hlast, PhiS_succ, PhiA0_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- From any memory with zero counters every weakly fair execution of the program terminates, and every final state
    has every array of the pipeline at what the proof data compute and every other buffer as the operations after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.GenH

end
-- ==== Proof.KI.OutArrays.lean ====
/-
  The kernel's two output arrays after the run, from their blocks.

  Each output array has shape [2, 100, 60] and is windowed in blocks [1, 100, 60]: the block of grid point t is half
  t / 16 of the array.  A block is written back only at the last point of a half (t ≡ 15 mod 16), so the array ends
  holding, in half q, what point 16 q + 15 left in the staging buffer: entry (q, n, k) of the array is entry (0, n, k)
  of that buffer.  Every index of the array lies in the block of the last point of its half, so nothing of the array's
  earlier contents survives.
-/
import proofs.«136048_j27848567947758_2_alg».proof.Proof.KI.Frame
import Idealize.ShloMosaic.Lib.Pipeline.Value
import Idealize.ShloMosaic.Lib.ValueIdx

set_option maxRecDepth 16384

noncomputable section

namespace Cert.KernelIdeal.GenH

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two output arrays after the run, from their blocks -/

/-- The last point of half `q` lies on the grid. -/
theorem lastPt_lt (q : Fin 2) : q.val * 16 + 15 < cfg0.N := by
  have := q.isLt
  rw [show cfg0.N = 32 from N_0]; omega

/-- The block index of the first output's window at point `t`: the half `t` lies in, then zeros. -/
theorem idx4 : ∀ t : Fin cfg0.N, win0_4.index t (0 : Fin 3) = t.val / 16 ∧ win0_4.index t (1 : Fin 3) = 0 ∧ win0_4.index t (2 : Fin 3) = 0 :=
  (by decide +kernel : ∀ t : Fin grid0.N, win0_4.index t (0 : Fin 3) = t.val / 16 ∧ win0_4.index t (1 : Fin 3) = 0 ∧ win0_4.index t (2 : Fin 3) = 0)
/-- The same for the second output's window. -/
theorem idx5 : ∀ t : Fin cfg0.N, win0_5.index t (0 : Fin 3) = t.val / 16 ∧ win0_5.index t (1 : Fin 3) = 0 ∧ win0_5.index t (2 : Fin 3) = 0 :=
  (by decide +kernel : ∀ t : Fin grid0.N, win0_5.index t (0 : Fin 3) = t.val / 16 ∧ win0_5.index t (1 : Fin 3) = 0 ∧ win0_5.index t (2 : Fin 3) = 0)

/-- An index of the first output array is in point `t`'s block iff each coordinate is in the block's range on its axis. -/
theorem mem_blk4 (t : Fin cfg0.N) (i : S2x100x60.Idx) :
    i ∈ ((cfg0.win 4).blk t).view.set ↔ ∀ a : Fin 3, win0_4.index t a * S1x100x60.size a ≤ (i a).val ∧ (i a).val < win0_4.index t a * S1x100x60.size a + S1x100x60.size a := by
  show i ∈ ((View.whole main_v46_0).slice (win0_4.rect t)).set ↔ _
  rw [View.set_slice_whole, Rect.mem_set_unit]
  exact Iff.rfl
theorem mem_blk5 (t : Fin cfg0.N) (i : S2x100x60.Idx) :
    i ∈ ((cfg0.win 5).blk t).view.set ↔ ∀ a : Fin 3, win0_5.index t a * S1x100x60.size a ≤ (i a).val ∧ (i a).val < win0_5.index t a * S1x100x60.size a + S1x100x60.size a := by
  show i ∈ ((View.whole main_v46_1).slice (win0_5.rect t)).set ↔ _
  rw [View.set_slice_whole, Rect.mem_set_unit]
  exact Iff.rfl

/-- Every index of the first output array lies in the block of the last point of its half, which writes back. -/
theorem cover4 (i : S2x100x60.Idx) :
    ∃ t : Fin cfg0.N, (cfg0.win 4).flush t = true ∧ i ∈ ((cfg0.win 4).blk t).view.set := by
  have h0 : (i 0).val < 2 := (i 0).isLt
  have h1 : (i 1).val < 100 := (i 1).isLt
  have h2 : (i 2).val < 60 := (i 2).isLt
  refine ⟨⟨(i 0).val * 16 + 15, lastPt_lt (i 0)⟩, (flush0_4 _).mpr (by show ((i 0).val * 16 + 15) % 16 = 15; omega), ?_⟩
  obtain ⟨e0, e1, e2⟩ := idx4 ⟨(i 0).val * 16 + 15, lastPt_lt (i 0)⟩
  have e0' : win0_4.index ⟨(i 0).val * 16 + 15, lastPt_lt (i 0)⟩ (0 : Fin 3) = (i 0).val := by rw [e0]; show ((i 0).val * 16 + 15) / 16 = _; omega
  rw [mem_blk4]
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 100 ≤ (i 1).val ∧ (i 1).val < win0_4.index _ (1 : Fin 3) * 100 + 100; rw [e1]; omega
  | ⟨2, _⟩ => show win0_4.index _ (2 : Fin 3) * 60 ≤ (i 2).val ∧ (i 2).val < win0_4.index _ (2 : Fin 3) * 60 + 60; rw [e2]; omega

/-- Every index of the second output array lies in the block of the last point of its half, which writes back. -/
theorem cover5 (i : S2x100x60.Idx) :
    ∃ t : Fin cfg0.N, (cfg0.win 5).flush t = true ∧ i ∈ ((cfg0.win 5).blk t).view.set := by
  have h0 : (i 0).val < 2 := (i 0).isLt
  have h1 : (i 1).val < 100 := (i 1).isLt
  have h2 : (i 2).val < 60 := (i 2).isLt
  refine ⟨⟨(i 0).val * 16 + 15, lastPt_lt (i 0)⟩, (flush0_5 _).mpr (by show ((i 0).val * 16 + 15) % 16 = 15; omega), ?_⟩
  obtain ⟨e0, e1, e2⟩ := idx5 ⟨(i 0).val * 16 + 15, lastPt_lt (i 0)⟩
  have e0' : win0_5.index ⟨(i 0).val * 16 + 15, lastPt_lt (i 0)⟩ (0 : Fin 3) = (i 0).val := by rw [e0]; show ((i 0).val * 16 + 15) / 16 = _; omega
  rw [mem_blk5]
  intro a
  match a with
  | ⟨0, _⟩ => show win0_5.index _ (0 : Fin 3) * 1 ≤ (i 0).val ∧ (i 0).val < win0_5.index _ (0 : Fin 3) * 1 + 1; rw [e0']; omega
  | ⟨1, _⟩ => show win0_5.index _ (1 : Fin 3) * 100 ≤ (i 1).val ∧ (i 1).val < win0_5.index _ (1 : Fin 3) * 100 + 100; rw [e1]; omega
  | ⟨2, _⟩ => show win0_5.index _ (2 : Fin 3) * 60 ≤ (i 2).val ∧ (i 2).val < win0_5.index _ (2 : Fin 3) * 60 + 60; rw [e2]; omega

variable {c : Dev nD}

/-- What a flushing point writes back to the first output array is its block of the array assembled from the last points'
    staging contents `O`. -/
theorem flushed4_of_after (dat : Dat τ (Elt F) Unit ℕ (UR sig nD τ) ℕ cfg0 c) (O : Fin cfg0.N → Vec F S1x100x60 .f32)
    (hO : ∀ t, dat.after 4 t = O t) (t : Fin cfg0.N) (hf : (cfg0.win 4).flush t = true) :
    dat.flushed 4 t = ((cfg0.win 4).blk t).view.read (Elt F)
      (fun i : S2x100x60.Idx => O ⟨(i 0).val * 16 + 15, lastPt_lt (i 0)⟩ (ix3 (0 : Fin 1) (i 1) (i 2))) := by
  show (cfg0.win 4).cut (grid0.coords t) (dat.after 4 t) = _
  rw [hO]
  have h15 : t.val % 16 = 15 := (flush0_4 t).mp hf
  obtain ⟨e0, e1, e2⟩ := idx4 t
  funext y
  have hy0 : (y 0).val < 1 := (y 0).isLt
  -- the array index of the block's element y: on axis 0 the half, on axes 1 and 2 the element's own coordinates
  have c0 : ((((cfg0.win 4).blk t).view.emb y) 0).val = win0_4.index t (0 : Fin 3) * 1 + 1 * (y 0).val := rfl
  have c1 : ((((cfg0.win 4).blk t).view.emb y) 1).val = win0_4.index t (1 : Fin 3) * 100 + 1 * (y 1).val := rfl
  have c2 : ((((cfg0.win 4).blk t).view.emb y) 2).val = win0_4.index t (2 : Fin 3) * 60 + 1 * (y 2).val := rfl
  have ht : (⟨((((cfg0.win 4).blk t).view.emb y) 0).val * 16 + 15, lastPt_lt _⟩ : Fin cfg0.N) = t :=
    Fin.ext (by show ((((cfg0.win 4).blk t).view.emb y) 0).val * 16 + 15 = t.val; rw [c0, e0]; omega)
  have hj : ix3 (0 : Fin 1) ((((cfg0.win 4).blk t).view.emb y) 1) ((((cfg0.win 4).blk t).view.emb y) 2)
      = (cfg0.win 4).xinj (grid0.coords t) y := funext fun a => Fin.ext (by
    match a with
    | ⟨0, _⟩ => show (0 : ℕ) = (y 0).val; omega
    | ⟨1, _⟩ => show ((((cfg0.win 4).blk t).view.emb y) 1).val = (y 1).val; rw [c1, e1]; omega
    | ⟨2, _⟩ => show ((((cfg0.win 4).blk t).view.emb y) 2).val = (y 2).val; rw [c2, e2]; omega)
  rw [View.read_apply]
  refine Eq.trans ?_ (congrArg₂ (fun (s : Fin cfg0.N) (j : S1x100x60.Idx) => O s j) ht.symm hj.symm)
  rfl

/-- What a flushing point writes back to the second output array is its block of the array assembled from the last points'
    staging contents `O`. -/
theorem flushed5_of_after (dat : Dat τ (Elt F) Unit ℕ (UR sig nD τ) ℕ cfg0 c) (O : Fin cfg0.N → Vec F S1x100x60 .f32)
    (hO : ∀ t, dat.after 5 t = O t) (t : Fin cfg0.N) (hf : (cfg0.win 5).flush t = true) :
    dat.flushed 5 t = ((cfg0.win 5).blk t).view.read (Elt F)
      (fun i : S2x100x60.Idx => O ⟨(i 0).val * 16 + 15, lastPt_lt (i 0)⟩ (ix3 (0 : Fin 1) (i 1) (i 2))) := by
  show (cfg0.win 5).cut (grid0.coords t) (dat.after 5 t) = _
  rw [hO]
  have h15 : t.val % 16 = 15 := (flush0_5 t).mp hf
  obtain ⟨e0, e1, e2⟩ := idx5 t
  funext y
  have hy0 : (y 0).val < 1 := (y 0).isLt
  -- the array index of the block's element y: on axis 0 the half, on axes 1 and 2 the element's own coordinates
  have c0 : ((((cfg0.win 5).blk t).view.emb y) 0).val = win0_5.index t (0 : Fin 3) * 1 + 1 * (y 0).val := rfl
  have c1 : ((((cfg0.win 5).blk t).view.emb y) 1).val = win0_5.index t (1 : Fin 3) * 100 + 1 * (y 1).val := rfl
  have c2 : ((((cfg0.win 5).blk t).view.emb y) 2).val = win0_5.index t (2 : Fin 3) * 60 + 1 * (y 2).val := rfl
  have ht : (⟨((((cfg0.win 5).blk t).view.emb y) 0).val * 16 + 15, lastPt_lt _⟩ : Fin cfg0.N) = t :=
    Fin.ext (by show ((((cfg0.win 5).blk t).view.emb y) 0).val * 16 + 15 = t.val; rw [c0, e0]; omega)
  have hj : ix3 (0 : Fin 1) ((((cfg0.win 5).blk t).view.emb y) 1) ((((cfg0.win 5).blk t).view.emb y) 2)
      = (cfg0.win 5).xinj (grid0.coords t) y := funext fun a => Fin.ext (by
    match a with
    | ⟨0, _⟩ => show (0 : ℕ) = (y 0).val; omega
    | ⟨1, _⟩ => show ((((cfg0.win 5).blk t).view.emb y) 1).val = (y 1).val; rw [c1, e1]; omega
    | ⟨2, _⟩ => show ((((cfg0.win 5).blk t).view.emb y) 2).val = (y 2).val; rw [c2, e2]; omega)
  rw [View.read_apply]
  refine Eq.trans ?_ (congrArg₂ (fun (s : Fin cfg0.N) (j : S1x100x60.Idx) => O s j) ht.symm hj.symm)
  rfl

/-- The first output array after the run: half `q` of it is what the last point of half `q` left in the staging buffer. -/
theorem arr4_of_after (dat : Dat τ (Elt F) Unit ℕ (UR sig nD τ) ℕ cfg0 c) (O : Fin cfg0.N → Vec F S1x100x60 .f32)
    (hO : ∀ t, dat.after 4 t = O t) :
    dat.arrAt 4 cfg0.N = fun i : S2x100x60.Idx => O ⟨(i 0).val * 16 + 15, lastPt_lt (i 0)⟩ (ix3 (0 : Fin 1) (i 1) (i 2)) :=
  dat.arrAt_eq_of_cover 4 _ (flushed4_of_after dat O hO) cover4

/-- The second output array after the run, likewise. -/
theorem arr5_of_after (dat : Dat τ (Elt F) Unit ℕ (UR sig nD τ) ℕ cfg0 c) (O : Fin cfg0.N → Vec F S1x100x60 .f32)
    (hO : ∀ t, dat.after 5 t = O t) :
    dat.arrAt 5 cfg0.N = fun i : S2x100x60.Idx => O ⟨(i 0).val * 16 + 15, lastPt_lt (i 0)⟩ (ix3 (0 : Fin 1) (i 1) (i 2)) :=
  dat.arrAt_eq_of_cover 5 _ (flushed5_of_after dat O hO) cover5

/-- The first output array after the run. -/
theorem out4_final (c : Dev nD) : (dats m 0 c).arrAt 4 cfg0.N
    = fun i : S2x100x60.Idx => (outAt m c ⟨(i 0).val * 16 + 15, lastPt_lt (i 0)⟩).1 (ix3 (0 : Fin 1) (i 1) (i 2)) :=
  arr4_of_after (dats m 0 c) (fun t => (outAt m c t).1) (after0_4 m c)

/-- The second output array after the run. -/
theorem out5_final (c : Dev nD) : (dats m 0 c).arrAt 5 cfg0.N
    = fun i : S2x100x60.Idx => (outAt m c ⟨(i 0).val * 16 + 15, lastPt_lt (i 0)⟩).2 (ix3 (0 : Fin 1) (i 1) (i 2)) :=
  arr5_of_after (dats m 0 c) (fun t => (outAt m c t).2) (after0_5 m c)

end Cert.KernelIdeal.GenH

end
-- ==== Proof.KI.Pieces.lean ====
/-
  What each kind of grid point leaves in the accumulators and in the output blocks, as a value.

  Write x0 for the 100 × 100 Laplacian block, x1 for the point's 100 × 2048 run of features, x2 and x3 for the two
  families' three 2048 × 60 weight slabs.  One run's contribution to an accumulator is a fixed function of these:
  the features, the Laplacian applied to them once, and the third Chebyshev term, each multiplied by its slab and
  the three products added up.  A point adds that contribution to what the accumulator held (to zero at the first
  point of a half); the last point of a half also copies the two new totals into the output blocks.
-/
import proofs.«136048_j27848567947758_2_alg».proof.Proof.KI.BodyC
import Idealize.ShloMosaic.Lib.Pipeline.Value

set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a two-axis and of a three-axis buffer, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Slab k of a block of three 2048 × 60 weight matrices: the entries (k, r, c). -/
abbrev slab0 (x : Vec F S3x2048x60 .f32) : Vec F S1x2048x60 .f32 :=
  View.ld x (Rect.unit (s := S3x2048x60) ![0, 0, 0] S1x2048x60.size inb_S3x2048x60_S1x2048x60_0_0_0)
abbrev slab1 (x : Vec F S3x2048x60 .f32) : Vec F S1x2048x60 .f32 :=
  View.ld x (Rect.unit (s := S3x2048x60) ![1, 0, 0] S1x2048x60.size inb_S3x2048x60_S1x2048x60_1_0_0)
abbrev slab2 (x : Vec F S3x2048x60 .f32) : Vec F S1x2048x60 .f32 :=
  View.ld x (Rect.unit (s := S3x2048x60) ![2, 0, 0] S1x2048x60.size inb_S3x2048x60_S1x2048x60_2_0_0)

/-- The first accumulator after one run's contribution is added to `acc`: the three terms (features, Laplacian
    times features, third Chebyshev term) against the first family's three slabs. -/
abbrev new0 (x0 : Vec F S100x100 .f32) (x1 : Vec F S1x100x2048 .f32) (x2 : Vec F S3x2048x60 .f32) (acc : Vec F S100x60 .f32) : FVec F S100x60 .f32 :=
  k0_pay1 (k0_pay9 x1) (k0_pay10 x0 x1) (k0_pay11 x0 x1) (k0_pay12 (slab0 x2)) (k0_pay13 (slab1 x2)) (k0_pay14 (slab2 x2)) acc
/-- The second accumulator likewise, against the second family's slabs (the third slab is narrowed where it is used). -/
abbrev new1 (x0 : Vec F S100x100 .f32) (x1 : Vec F S1x100x2048 .f32) (x3 : Vec F S3x2048x60 .f32) (acc : Vec F S100x60 .f32) : FVec F S100x60 .f32 :=
  k0_pay2 (k0_pay9 x1) (k0_pay10 x0 x1) (k0_pay11 x0 x1) (k0_pay15 (slab0 x3)) (k0_pay16 (slab1 x3)) (slab2 x3) acc

section Pieces
variable (c : Dev nD) (i : grid0.Coords) (arg2 : Memref sig .tc .vmem S100x100 .f32) (harg2 : arg2.IsWhole) (arg3 : Memref sig .tc .vmem S1x100x2048 .f32) (harg3 : arg3.IsWhole) (arg4 : Memref sig .tc .vmem S3x2048x60 .f32) (harg4 : arg4.IsWhole) (arg5 : Memref sig .tc .vmem S3x2048x60 .f32) (harg5 : arg5.IsWhole) (arg6 : Memref sig .tc .vmem S1x100x60 .f32) (harg6 : arg6.IsWhole) (arg7 : Memref sig .tc .vmem S1x100x60 .f32) (harg7 : arg7.IsWhole) (arg8 : Memref sig .tc .vmem S100x60 .f32) (harg8 : arg8.IsWhole) (arg9 : Memref sig .tc .vmem S100x60 .f32) (harg9 : arg9.IsWhole) (x0 : Vec F S100x100 .f32) (x1 : Vec F S1x100x2048 .f32) (x2 : Vec F S3x2048x60 .f32) (x3 : Vec F S3x2048x60 .f32) (xs0 xs1 : Vec F S100x60 .f32)

/-! Every buffer a point stores into is stored into whole: the stored pieces cover it. -/
private theorem covA_0 (hc0 : cond0_0 i) (hc1 : ¬cond0_1 i) (y : S100x60.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S100x60.size (by sl_kernel_rfl) y
private theorem covA_1 (hc0 : cond0_0 i) (hc1 : ¬cond0_1 i) (y : S100x60.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S100x60.size (by sl_kernel_rfl) y
private theorem covB_0 (hc0 : ¬cond0_0 i) (hc1 : ¬cond0_1 i) (y : S100x60.Idx) :
    ∃ pc ∈ (kernelRun0_B c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.1 S100x60.size (by sl_kernel_rfl) y
private theorem covB_1 (hc0 : ¬cond0_0 i) (hc1 : ¬cond0_1 i) (y : S100x60.Idx) :
    ∃ pc ∈ (kernelRun0_B c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.2.1 S100x60.size (by sl_kernel_rfl) y
private theorem covC_0 (hc0 : ¬cond0_0 i) (hc1 : cond0_1 i) (y : S100x60.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S100x60.size (by sl_kernel_rfl) y
private theorem covC_1 (hc0 : ¬cond0_0 i) (hc1 : cond0_1 i) (y : S100x60.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S100x60.size (by sl_kernel_rfl) y
private theorem covC_4 (hc0 : ¬cond0_0 i) (hc1 : cond0_1 i) (y : S1x100x60.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S1x100x60.size (by sl_kernel_rfl) y
private theorem covC_5 (hc0 : ¬cond0_0 i) (hc1 : cond0_1 i) (y : S1x100x60.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1x100x60.size (by sl_kernel_rfl) y

/-- At a first point the first accumulator is cleared and then added to: it ends at one run's contribution over zero. -/
theorem pieceA_0 (hc0 : cond0_0 i) (hc1 : ¬cond0_1 i) :
    VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).2.2.1) = new0 x0 x1 x2 k0_pay5 := by
  rw [View.read_writes_eq_canon _ _ _ (covA_0 c i arg2 harg2 arg3 harg3 arg4 harg4 arg5 harg5 arg6 harg6 arg7 harg7 arg8 harg8 arg9 harg9 x0 x1 x2 x3 hc0 hc1)]
  unfold kernelRun0_A
  dsimp only
  sl_unfold_run_names
  rw [View.canon_cons_unit_zero (S := S100x60) hz2, View.readCov_unit_zero (S := S100x60) _ hz2]
  simp only [View.readAt_eq_ld, harg2.read_unread, harg3.read_unread, harg4.read_unread, harg5.read_unread, harg8.read_unread, harg9.read_unread,
    View.ld_unit_zero (S := S100x100) hz2, View.ld_unit_zero (S := S1x100x2048) hz3, View.ld_unit_zero (S := S100x60) hz2]

/-- The same for the second accumulator. -/
theorem pieceA_1 (hc0 : cond0_0 i) (hc1 : ¬cond0_1 i) :
    VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.2.2.1) = new1 x0 x1 x3 k0_pay6 := by
  rw [View.read_writes_eq_canon _ _ _ (covA_1 c i arg2 harg2 arg3 harg3 arg4 harg4 arg5 harg5 arg6 harg6 arg7 harg7 arg8 harg8 arg9 harg9 x0 x1 x2 x3 hc0 hc1)]
  unfold kernelRun0_A
  dsimp only
  sl_unfold_run_names
  rw [View.canon_cons_unit_zero (S := S100x60) hz2, View.readCov_unit_zero (S := S100x60) _ hz2]
  simp only [View.readAt_eq_ld, harg2.read_unread, harg3.read_unread, harg4.read_unread, harg5.read_unread, harg8.read_unread, harg9.read_unread,
    View.ld_unit_zero (S := S100x100) hz2, View.ld_unit_zero (S := S1x100x2048) hz3, View.ld_unit_zero (S := S100x60) hz2]

/-- At a middle point the first accumulator ends at one run's contribution over what it held. -/
theorem pieceB_0 (hc0 : ¬cond0_0 i) (hc1 : ¬cond0_1 i) :
    VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).2.2.1) = new0 x0 x1 x2 xs0 := by
  rw [View.read_writes_eq_canon _ _ _ (covB_0 c i arg2 harg2 arg3 harg3 arg4 harg4 arg5 harg5 arg6 harg6 arg7 harg7 arg8 harg8 arg9 harg9 x0 x1 x2 x3 xs0 xs1 hc0 hc1)]
  unfold kernelRun0_B
  dsimp only
  sl_unfold_run_names
  rw [View.canon_unit_zero (S := S100x60) hz2]
  simp only [View.readAt_eq_ld, harg2.read_unread, harg3.read_unread, harg4.read_unread, harg5.read_unread, harg8.read_unread, harg9.read_unread,
    View.ld_unit_zero (S := S100x100) hz2, View.ld_unit_zero (S := S1x100x2048) hz3, View.ld_unit_zero (S := S100x60) hz2]

/-- The same for the second accumulator. -/
theorem pieceB_1 (hc0 : ¬cond0_0 i) (hc1 : ¬cond0_1 i) :
    VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.2.2.1) = new1 x0 x1 x3 xs1 := by
  rw [View.read_writes_eq_canon _ _ _ (covB_1 c i arg2 harg2 arg3 harg3 arg4 harg4 arg5 harg5 arg6 harg6 arg7 harg7 arg8 harg8 arg9 harg9 x0 x1 x2 x3 xs0 xs1 hc0 hc1)]
  unfold kernelRun0_B
  dsimp only
  sl_unfold_run_names
  rw [View.canon_unit_zero (S := S100x60) hz2]
  simp only [View.readAt_eq_ld, harg2.read_unread, harg3.read_unread, harg4.read_unread, harg5.read_unread, harg8.read_unread, harg9.read_unread,
    View.ld_unit_zero (S := S100x100) hz2, View.ld_unit_zero (S := S1x100x2048) hz3, View.ld_unit_zero (S := S100x60) hz2]

/-- At a last point the first accumulator ends, as at a middle point, at one run's contribution over what it held; -/
theorem pieceC_0 (hc0 : ¬cond0_0 i) (hc1 : cond0_1 i) :
    VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1) = new0 x0 x1 x2 xs0 := by
  rw [View.read_writes_eq_canon _ _ _ (covC_0 c i arg2 harg2 arg3 harg3 arg4 harg4 arg5 harg5 arg6 harg6 arg7 harg7 arg8 harg8 arg9 harg9 x0 x1 x2 x3 xs0 xs1 hc0 hc1)]
  unfold kernelRun0_C
  dsimp only
  sl_unfold_run_names
  rw [View.canon_unit_zero (S := S100x60) hz2]
  simp only [View.readAt_eq_ld, harg2.read_unread, harg3.read_unread, harg4.read_unread, harg5.read_unread, harg8.read_unread, harg9.read_unread,
    View.ld_unit_zero (S := S100x100) hz2, View.ld_unit_zero (S := S1x100x2048) hz3, View.ld_unit_zero (S := S100x60) hz2]

/-- so does the second; -/
theorem pieceC_1 (hc0 : ¬cond0_0 i) (hc1 : cond0_1 i) :
    VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1) = new1 x0 x1 x3 xs1 := by
  rw [View.read_writes_eq_canon _ _ _ (covC_1 c i arg2 harg2 arg3 harg3 arg4 harg4 arg5 harg5 arg6 harg6 arg7 harg7 arg8 harg8 arg9 harg9 x0 x1 x2 x3 xs0 xs1 hc0 hc1)]
  unfold kernelRun0_C
  dsimp only
  sl_unfold_run_names
  rw [View.canon_unit_zero (S := S100x60) hz2]
  simp only [View.readAt_eq_ld, harg2.read_unread, harg3.read_unread, harg4.read_unread, harg5.read_unread, harg8.read_unread, harg9.read_unread,
    View.ld_unit_zero (S := S100x100) hz2, View.ld_unit_zero (S := S1x100x2048) hz3, View.ld_unit_zero (S := S100x60) hz2]

/-- and the first output block receives the first accumulator's new contents, reshaped to one slab. -/
theorem pieceC_4 (hc0 : ¬cond0_0 i) (hc1 : cond0_1 i) :
    VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1) = k0_pay3 (new0 x0 x1 x2 xs0) := by
  rw [View.read_writes_eq_canon _ _ _ (covC_4 c i arg2 harg2 arg3 harg3 arg4 harg4 arg5 harg5 arg6 harg6 arg7 harg7 arg8 harg8 arg9 harg9 x0 x1 x2 x3 xs0 xs1 hc0 hc1)]
  unfold kernelRun0_C
  dsimp only
  sl_unfold_run_names
  rw [View.canon_unit_zero (S := S1x100x60) hz3]
  rw [View.readCov_unit_zero (S := S100x60) _ hz2]
  simp only [View.readAt_eq_ld, harg2.read_unread, harg3.read_unread, harg4.read_unread, harg5.read_unread, harg8.read_unread, harg9.read_unread,
    View.ld_unit_zero (S := S100x100) hz2, View.ld_unit_zero (S := S1x100x2048) hz3, View.ld_unit_zero (S := S100x60) hz2]

/-- The second output block receives the second accumulator's new contents. -/
theorem pieceC_5 (hc0 : ¬cond0_0 i) (hc1 : cond0_1 i) :
    VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1) = k0_pay4 (new1 x0 x1 x3 xs1) := by
  rw [View.read_writes_eq_canon _ _ _ (covC_5 c i arg2 harg2 arg3 harg3 arg4 harg4 arg5 harg5 arg6 harg6 arg7 harg7 arg8 harg8 arg9 harg9 x0 x1 x2 x3 xs0 xs1 hc0 hc1)]
  unfold kernelRun0_C
  dsimp only
  sl_unfold_run_names
  rw [View.canon_unit_zero (S := S1x100x60) hz3]
  rw [View.readCov_unit_zero (S := S100x60) _ hz2]
  simp only [View.readAt_eq_ld, harg2.read_unread, harg3.read_unread, harg4.read_unread, harg5.read_unread, harg8.read_unread, harg9.read_unread,
    View.ld_unit_zero (S := S100x100) hz2, View.ld_unit_zero (S := S1x100x2048) hz3, View.ld_unit_zero (S := S100x60) hz2]

end Pieces

end Cert.KernelIdeal.GenH

end
-- ==== Proof.Spec.lean ====
/-
  The mathematics both programs compute, over the extended reals, as functions of plain finite index types.

  A graph on 100 nodes is given by 2000 directed edges `(src e, dst e)`.  With `deg n` the number of edges leaving
  `n`, `dis n = deg n ^ (-1/2)` where `deg n > 0` and `0` elsewhere, every edge carries the weight
  `nrm e = -(dis (src e) · dis (dst e))`: the off-diagonal entries of the scaled graph Laplacian.

  The scaled Laplacian is applied to a feature matrix `z` (100 nodes × 65536 features) in one of two ways:
  * edge by edge (`prop`): row `d` of the result collects `z (src e) · nrm e` over the edges ending in `d`;
  * densely (`dense (lhat …)`): first the 100 × 100 matrix `lhat d s` = the summed weight of the edges `s → d`,
    then an ordinary matrix product.
  With `T₀ = x`, `T₁ = L x`, `T₂ = 2 · L T₁ − x` (the Chebyshev recurrence) the convolution is
  `T₀ W₀ + T₁ W₁ + T₂ W₂ + b`, a 100 × 60 matrix; one form sums each product over all 65536 features at once
  (`convRef`), the other over 2 · 16 consecutive runs of 2048 features, run by run, and adds the runs up
  (`convKer`).  After `tanh` the 6000 entries, followed by three scalars, are the state vector a linear head reads.
-/
import Mathlib
import Idealize.ShloMosaic.PureOps.Ideal
import Idealize.ShloMosaic.PureOps.Ideal.Laws
import Idealize.ShloMosaic.Lib.ValueIdx

noncomputable section

namespace Cheb

open Idealize.ShloMosaic

/-- A feature matrix: 100 nodes × 65536 features. -/
abbrev Feat := Fin 100 → Fin 65536 → EReal

/-- The number of edges leaving node `n` (a sum of ones started from zero). -/
def deg (src : Fin 2000 → Fin 100) (n : Fin 100) : EReal :=
  0 + ∑ e : Fin 2000, if src e = n then (1 : EReal) else 0

/-- `deg n ^ (-1/2)` where the degree is positive, zero elsewhere. -/
def dis (src : Fin 2000 → Fin 100) (n : Fin 100) : EReal :=
  Scalar.select (Ideal.cmp .ogt (deg src n) 0)
    (Ideal.rsqrt (Scalar.select (Ideal.cmp .ogt (deg src n) 0) (deg src n) 1)) 0

/-- The weight of edge `e`: minus the product of the two end points' `dis`. -/
def nrm (src dst : Fin 2000 → Fin 100) (e : Fin 2000) : EReal := -(dis src (src e) * dis src (dst e))

/-- The Laplacian applied edge by edge: row `d` collects `z (src e) · w e` over the edges ending in `d`. -/
def prop (src dst : Fin 2000 → Fin 100) (w : Fin 2000 → EReal) (z : Feat) : Feat := fun d f =>
  0 + ∑ e : Fin 2000, if dst e = d then z (src e) f * w e else 0

/-- The dense 100 × 100 Laplacian: entry `(d, s)` is the summed weight of the edges from `s` to `d`. -/
def lhat (src dst : Fin 2000 → Fin 100) (w : Fin 2000 → EReal) (d s : Fin 100) : EReal :=
  0 + ∑ e : Fin 2000, if dst e = d ∧ src e = s then w e else 0

/-- A 100 × 100 matrix times a feature matrix. -/
def dense (L : Fin 100 → Fin 100 → EReal) (z : Feat) : Feat := fun d f => ∑ s : Fin 100, L d s * z s f

/-- The float word of 2.0, kept as a word: it stands on both sides and is never evaluated. -/
def two : EReal := Ideal.ofBits .f32 0x40000000#32

/-- The third Chebyshev term `2 · P (P x) − x` for a propagation `P`. -/
def cheb2 (P : Feat → Feat) (x : Feat) : Feat := fun n f => two * P (P x) n f - x n f

/-- A feature matrix times a 65536 × 60 weight matrix, all features at once. -/
def mm (z : Feat) (W : Fin 65536 → Fin 60 → EReal) (n : Fin 100) (c : Fin 60) : EReal :=
  ∑ f : Fin 65536, z n f * W f c

/-- The convolution with a propagation `P`, each product summed over all the features at once. -/
def convWith (P : Feat → Feat) (x : Feat) (W : Fin 3 → Fin 65536 → Fin 60 → EReal) (b : Fin 60 → EReal)
    (n : Fin 100) (c : Fin 60) : EReal :=
  ((mm x (W 0) n c + mm (P x) (W 1) n c) + mm (cheb2 P x) (W 2) n c) + b c

/-- The convolution, edge by edge. -/
def convRef (src dst : Fin 2000 → Fin 100) (x : Feat) (W : Fin 3 → Fin 65536 → Fin 60 → EReal) (b : Fin 60 → EReal) :
    Fin 100 → Fin 60 → EReal :=
  convWith (prop src dst (nrm src dst)) x W b

/-- Feature `j` of run `k` of half `q`: the features come in 2 halves of 16 runs of 2048. -/
def feat (q : Fin 2) (k : Fin 16) (j : Fin 2048) : Fin 65536 :=
  ⟨(q.val * 16 + k.val) * 2048 + j.val, by have := q.isLt; have := k.isLt; have := j.isLt; omega⟩

/-- One run's contribution to the convolution with the dense Laplacian `L`. -/
def part (L : Fin 100 → Fin 100 → EReal) (x : Feat) (W : Fin 3 → Fin 65536 → Fin 60 → EReal)
    (q : Fin 2) (k : Fin 16) (n : Fin 100) (c : Fin 60) : EReal :=
  ((∑ j : Fin 2048, x n (feat q k j) * W 0 (feat q k j) c
    + ∑ j : Fin 2048, dense L x n (feat q k j) * W 1 (feat q k j) c)
    + ∑ j : Fin 2048, cheb2 (dense L) x n (feat q k j) * W 2 (feat q k j) c)

/-- What a half has accumulated after its runs `0 … k`, started from zero and added to run by run. -/
def accum (L : Fin 100 → Fin 100 → EReal) (x : Feat) (W : Fin 3 → Fin 65536 → Fin 60 → EReal)
    (q : Fin 2) (n : Fin 100) (c : Fin 60) : (k : ℕ) → k < 16 → EReal
  | 0, h => 0 + part L x W q ⟨0, h⟩ n c
  | k + 1, h => accum L x W q n c k (Nat.lt_of_succ_lt h) + part L x W q ⟨k + 1, h⟩ n c

/-- The convolution, densely and run by run: the two halves' totals added up from zero, plus the bias. -/
def convKer (src dst : Fin 2000 → Fin 100) (x : Feat) (W : Fin 3 → Fin 65536 → Fin 60 → EReal) (b : Fin 60 → EReal)
    (n : Fin 100) (c : Fin 60) : EReal :=
  (0 + ∑ q : Fin 2, accum (lhat src dst (nrm src dst)) x W q n c 15 (by omega)) + b c

/-- The state vector: the 100 × 60 embedding row by row, then three scalars. -/
def state (emb : Fin 100 → Fin 60 → EReal) (v1 v2 v3 : EReal) (j : Fin 6003) : EReal :=
  if h : j.val < 6000 then emb ⟨j.val / 60, by omega⟩ ⟨j.val % 60, Nat.mod_lt _ (by omega)⟩
  else if j.val = 6000 then v1 else if j.val = 6001 then v2 else v3

/-- One output of a linear head over the state vector. -/
def head (st : Fin 6003 → EReal) (w : Fin 6003 → EReal) (bias : EReal) : EReal := (∑ j : Fin 6003, st j * w j) + bias

/-- One output of the network given the convolution `conv`: `tanh`, flatten, append the scalars, linear head. -/
def out (conv : Fin 100 → Fin 60 → EReal) (v1 v2 v3 : EReal) (w : Fin 6003 → EReal) (bias : EReal) : EReal :=
  head (state (fun n c => Ideal.tanh (conv n c)) v1 v2 v3) w bias

end Cheb

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.KI.Payload.lean ====
/-
  The kernel body's arithmetic over the extended reals, read index by index.

  One grid point multiplies a run of 2048 features.  With L the 100 × 100 matrix, X the 100 × 2048 run of the feature
  matrix and W₀, W₁, W₂ three 2048 × 60 weight slices, the body forms T₁ = L X, T₂ = 2 · (L T₁) − X and adds
  (X W₀ + T₁ W₁) + T₂ W₂ to a 100 × 60 accumulator.  Over the extended reals a change of float format is the identity,
  so each payload is, entry by entry, the textbook expression: a reshape that drops or adds a leading unit axis reads the
  same entry, a matrix product into the zero splat reads ∑ₖ A(r,k) · B(k,c), and the elementwise operations act on the
  entries.  The last two statements compose these into what one point adds to each accumulator entry.
-/
import proofs.«136048_j27848567947758_2_alg».proof.Proof.Gen.KernelIdeal.Skeleton
import proofs.«136048_j27848567947758_2_alg».proof.Proof.Spec
import proofs.«136048_j27848567947758_2_alg».proof.Proof.LibSplit
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx
open Cert.KernelIdeal Cert.KernelIdeal.Gen
open scoped BigOperators

/-! ## The pieces: reshapes, narrowings, splats -/

/-- The 100 × 100 matrix as loaded, narrowed: the same entries. -/
theorem pay7_apply (v3 : Vec Ideal S100x100 .f32) (n s : Fin 100) :
    k0_pay7 (F := Ideal) v3 (ix2 n s) = v3 (ix2 n s) :=
  congrFun (shapeCast_self v3 _) (ix2 n s)

/-- The feature run [1, 100, 2048] as a 100 × 2048 matrix: entry (n, j) is entry (0, n, j). -/
theorem pay8_apply (v6 : Vec Ideal S1x100x2048 .f32) (n : Fin 100) (j : Fin 2048) :
    k0_pay8 (F := Ideal) v6 (ix2 n j) = v6 (ix3 0 n j) :=
  shapeCast_1ab_ab_apply v6 _ n j

/-- The feature run, reshaped to a matrix and narrowed: entry (n, j) of the block. -/
theorem pay9_apply (v6 : Vec Ideal S1x100x2048 .f32) (n : Fin 100) (j : Fin 2048) :
    k0_pay9 (F := Ideal) v6 (ix2 n j) = v6 (ix3 0 n j) :=
  pay8_apply v6 n j

/-- A weight slice [1, 2048, 60] as a 2048 × 60 matrix, narrowed: entry (j, k) is entry (0, j, k). -/
theorem pay12_apply (v : Vec Ideal S1x2048x60 .f32) (j : Fin 2048) (k : Fin 60) :
    k0_pay12 (F := Ideal) v (ix2 j k) = v (ix3 0 j k) :=
  shapeCast_1ab_ab_apply v _ j k
theorem pay13_apply (v : Vec Ideal S1x2048x60 .f32) (j : Fin 2048) (k : Fin 60) :
    k0_pay13 (F := Ideal) v (ix2 j k) = v (ix3 0 j k) :=
  shapeCast_1ab_ab_apply v _ j k
theorem pay14_apply (v : Vec Ideal S1x2048x60 .f32) (j : Fin 2048) (k : Fin 60) :
    k0_pay14 (F := Ideal) v (ix2 j k) = v (ix3 0 j k) :=
  shapeCast_1ab_ab_apply v _ j k
theorem pay15_apply (v : Vec Ideal S1x2048x60 .f32) (j : Fin 2048) (k : Fin 60) :
    k0_pay15 (F := Ideal) v (ix2 j k) = v (ix3 0 j k) :=
  shapeCast_1ab_ab_apply v _ j k
theorem pay16_apply (v : Vec Ideal S1x2048x60 .f32) (j : Fin 2048) (k : Fin 60) :
    k0_pay16 (F := Ideal) v (ix2 j k) = v (ix3 0 j k) :=
  shapeCast_1ab_ab_apply v _ j k

/-- An accumulator [100, 60] written out as [1, 100, 60]: entry (0, n, k) is entry (n, k). -/
theorem pay3_apply (v57 : Vec Ideal S100x60 .f32) (n : Fin 100) (k : Fin 60) :
    k0_pay3 (F := Ideal) v57 (ix3 0 n k) = v57 (ix2 n k) :=
  shapeCast_ab_1ab_apply v57 _ 0 n k
theorem pay4_apply (v61 : Vec Ideal S100x60 .f32) (n : Fin 100) (k : Fin 60) :
    k0_pay4 (F := Ideal) v61 (ix3 0 n k) = v61 (ix2 n k) :=
  shapeCast_ab_1ab_apply v61 _ 0 n k

/-- The zero splat an accumulator starts from. -/
theorem pay5_apply (n : Fin 100) (k : Fin 60) : k0_pay5 (F := Ideal) (ix2 n k) = 0 := by
  unfold k0_pay5
  rw [shapeCast_self]
  exact Ideal.ofBits_zero_f32
theorem pay6_apply (n : Fin 100) (k : Fin 60) : k0_pay6 (F := Ideal) (ix2 n k) = 0 := by
  unfold k0_pay6
  rw [shapeCast_self]
  exact Ideal.ofBits_zero_f32

/-! ## The matrix products -/

/-- T₁ = L X at entry (n, j). -/
theorem pay10_apply (v3 : Vec Ideal S100x100 .f32) (v6 : Vec Ideal S1x100x2048 .f32) (n : Fin 100) (j : Fin 2048) :
    k0_pay10 (F := Ideal) v3 v6 (ix2 n j) = ∑ s : Fin 100, v3 (ix2 n s) * v6 (ix3 0 s j) := by
  refine (Cert.Bridge.Split.matmul_zero_plain_apply dot_S100x100_S100x2048_S100x2048_1_0_0_1_n_n rfl
    (k0_pay7 (F := Ideal) v3) (k0_pay9 (F := Ideal) v6) n j).trans ?_
  exact Finset.sum_congr rfl fun s _ => congrArg₂ (· * ·) (pay7_apply v3 n s) (pay9_apply v6 s j)

/-- T₂ = 2 · (L T₁) − X at entry (n, j). -/
theorem pay11_apply (v3 : Vec Ideal S100x100 .f32) (v6 : Vec Ideal S1x100x2048 .f32) (n : Fin 100) (j : Fin 2048) :
    k0_pay11 (F := Ideal) v3 v6 (ix2 n j)
      = Cheb.two * (∑ s : Fin 100, v3 (ix2 n s) * (∑ s' : Fin 100, v3 (ix2 s s') * v6 (ix3 0 s' j))) - v6 (ix3 0 n j) := by
  unfold Cheb.two
  refine congrArg₂ (· - ·) (congrArg (Ideal.ofBits .f32 0x40000000#32 * ·) ?_) (pay8_apply v6 n j)
  refine (Cert.Bridge.Split.matmul_zero_plain_apply dot_S100x100_S100x2048_S100x2048_1_0_0_1_n_n rfl
    (k0_pay7 (F := Ideal) v3) (k0_pay10 (F := Ideal) v3 v6) n j).trans ?_
  exact Finset.sum_congr rfl fun s _ => congrArg₂ (· * ·) (pay7_apply v3 n s) (pay10_apply v3 v6 s j)

/-- One accumulator's new contents: the old entry plus (X W₀ + T₁ W₁) + T₂ W₂ at (n, k), for any three left factors
    and any three right factors. -/
theorem pay1_apply (v8 v10 v15 : FVec Ideal S100x2048 .bf16) (v18 v21 v24 : FVec Ideal S2048x60 .bf16)
    (v44 : Vec Ideal S100x60 .f32) (n : Fin 100) (k : Fin 60) :
    k0_pay1 (F := Ideal) v8 v10 v15 v18 v21 v24 v44 (ix2 n k)
      = v44 (ix2 n k) + ((∑ j : Fin 2048, v8 (ix2 n j) * v18 (ix2 j k) + ∑ j : Fin 2048, v10 (ix2 n j) * v21 (ix2 j k))
          + ∑ j : Fin 2048, v15 (ix2 n j) * v24 (ix2 j k)) := by
  unfold k0_pay1
  rw [shapeCast_self]
  refine congrArg (v44 (ix2 n k) + ·) ?_
  exact congrArg₂ (· + ·)
    (congrArg₂ (· + ·)
      (Cert.Bridge.Split.matmul_zero_plain_apply dot_S100x2048_S2048x60_S100x60_1_0_0_1_n_n rfl v8 v18 n k)
      (Cert.Bridge.Split.matmul_zero_plain_apply dot_S100x2048_S2048x60_S100x60_1_0_0_1_n_n rfl v10 v21 n k))
    (Cert.Bridge.Split.matmul_zero_plain_apply dot_S100x2048_S2048x60_S100x60_1_0_0_1_n_n rfl v15 v24 n k)

/-- The second accumulator's: its third right factor arrives as a [1, 2048, 60] slice and is reshaped here. -/
theorem pay2_apply (v8 v10 v15 : FVec Ideal S100x2048 .bf16) (v27 v30 : FVec Ideal S2048x60 .bf16)
    (v31 : Vec Ideal S1x2048x60 .f32) (v49 : Vec Ideal S100x60 .f32) (n : Fin 100) (k : Fin 60) :
    k0_pay2 (F := Ideal) v8 v10 v15 v27 v30 v31 v49 (ix2 n k)
      = v49 (ix2 n k) + ((∑ j : Fin 2048, v8 (ix2 n j) * v27 (ix2 j k) + ∑ j : Fin 2048, v10 (ix2 n j) * v30 (ix2 j k))
          + ∑ j : Fin 2048, v15 (ix2 n j) * v31 (ix3 0 j k)) := by
  unfold k0_pay2
  rw [shapeCast_self]
  refine congrArg (v49 (ix2 n k) + ·) ?_
  refine congrArg₂ (· + ·)
    (congrArg₂ (· + ·)
      (Cert.Bridge.Split.matmul_zero_plain_apply dot_S100x2048_S2048x60_S100x60_1_0_0_1_n_n rfl v8 v27 n k)
      (Cert.Bridge.Split.matmul_zero_plain_apply dot_S100x2048_S2048x60_S100x60_1_0_0_1_n_n rfl v10 v30 n k))
    ((Cert.Bridge.Split.matmul_zero_plain_apply dot_S100x2048_S2048x60_S100x60_1_0_0_1_n_n rfl v15
      (k0_pay12 (F := Ideal) v31) n k).trans ?_)
  exact Finset.sum_congr rfl fun j _ => congrArg (v15 (ix2 n j) * ·) (pay12_apply v31 j k)

/-! ## What one grid point adds to an accumulator entry -/

/-- The first accumulator after one point. -/
theorem actor_point_apply (L : Vec Ideal S100x100 .f32) (X : Vec Ideal S1x100x2048 .f32)
    (w0 w1 w2 : Vec Ideal S1x2048x60 .f32) (acc : Vec Ideal S100x60 .f32) (n : Fin 100) (k : Fin 60) :
    k0_pay1 (F := Ideal) (k0_pay9 X) (k0_pay10 L X) (k0_pay11 L X) (k0_pay12 w0) (k0_pay13 w1) (k0_pay14 w2) acc (ix2 n k)
      = acc (ix2 n k)
        + ((∑ j : Fin 2048, X (ix3 0 n j) * w0 (ix3 0 j k)
            + ∑ j : Fin 2048, (∑ s : Fin 100, L (ix2 n s) * X (ix3 0 s j)) * w1 (ix3 0 j k))
          + ∑ j : Fin 2048, (Cheb.two * (∑ s : Fin 100, L (ix2 n s) * ∑ s' : Fin 100, L (ix2 s s') * X (ix3 0 s' j))
              - X (ix3 0 n j)) * w2 (ix3 0 j k)) := by
  refine (pay1_apply _ _ _ _ _ _ acc n k).trans ?_
  refine congrArg (acc (ix2 n k) + ·) ?_
  exact congrArg₂ (· + ·)
    (congrArg₂ (· + ·)
      (Finset.sum_congr rfl fun j _ => congrArg₂ (· * ·) (pay9_apply X n j) (pay12_apply w0 j k))
      (Finset.sum_congr rfl fun j _ => congrArg₂ (· * ·) (pay10_apply L X n j) (pay13_apply w1 j k)))
    (Finset.sum_congr rfl fun j _ => congrArg₂ (· * ·) (pay11_apply L X n j) (pay14_apply w2 j k))

/-- The second accumulator after one point. -/
theorem critic_point_apply (L : Vec Ideal S100x100 .f32) (X : Vec Ideal S1x100x2048 .f32)
    (w0 w1 w2 : Vec Ideal S1x2048x60 .f32) (acc : Vec Ideal S100x60 .f32) (n : Fin 100) (k : Fin 60) :
    k0_pay2 (F := Ideal) (k0_pay9 X) (k0_pay10 L X) (k0_pay11 L X) (k0_pay15 w0) (k0_pay16 w1) w2 acc (ix2 n k)
      = acc (ix2 n k)
        + ((∑ j : Fin 2048, X (ix3 0 n j) * w0 (ix3 0 j k)
            + ∑ j : Fin 2048, (∑ s : Fin 100, L (ix2 n s) * X (ix3 0 s j)) * w1 (ix3 0 j k))
          + ∑ j : Fin 2048, (Cheb.two * (∑ s : Fin 100, L (ix2 n s) * ∑ s' : Fin 100, L (ix2 s s') * X (ix3 0 s' j))
              - X (ix3 0 n j)) * w2 (ix3 0 j k)) := by
  refine (pay2_apply _ _ _ _ _ w2 acc n k).trans ?_
  refine congrArg (acc (ix2 n k) + ·) ?_
  exact congrArg₂ (· + ·)
    (congrArg₂ (· + ·)
      (Finset.sum_congr rfl fun j _ => congrArg₂ (· * ·) (pay9_apply X n j) (pay15_apply w0 j k))
      (Finset.sum_congr rfl fun j _ => congrArg₂ (· * ·) (pay10_apply L X n j) (pay16_apply w1 j k)))
    (Finset.sum_congr rfl fun j _ => congrArg (· * w2 (ix3 0 j k)) (pay11_apply L X n j))

end Cert.KernelIdeal.PayValue

end
-- ==== Proof.LibSlab.lean ====
/-
  Reading one slab of a stack, for any extents.

  Slab k of a stack X of n slabs (each a × b) is read through the unit-stride rectangle that starts at (k, 0, 0) and has
  sizes (1, a, b): the rectangle puts its index (0, p, j) at (k, p, j), so the slab's entry (0, p, j) is X(k, p, j).
-/
import Idealize.ShloMosaic.Lib.Pipeline.FrameBody
import Idealize.ShloMosaic.Lib.ValueIdx

noncomputable section

namespace Cert.Bridge.Slab

open Idealize.ShloMosaic Idealize.ShloMosaic.ValueIdx

/-- Where the rectangle of slab k puts its index (0, p, j): at (k, p, j). -/
theorem idx_slab {n a b : ℕ} (o : ℕ)
    (inb : ∀ ax, (![o, 0, 0] : Fin 3 → ℕ) ax + (![1, a, b] : Fin 3 → ℕ) ax ≤ (⟨3, ![n, a, b]⟩ : Shape).size ax)
    (k : Fin n) (hk : k.val = o) (p : Fin a) (j : Fin b) :
    (Rect.unit (s := ⟨3, ![n, a, b]⟩) ![o, 0, 0] ![1, a, b] inb).toLoadRect.idx (ix3 (0 : Fin 1) p j) = ix3 k p j := by
  funext ax
  apply Fin.ext
  match ax with
  | ⟨0, _⟩ => show o + 1 * 0 = k.val; omega
  | ⟨1, _⟩ => show 0 + 1 * p.val = p.val; omega
  | ⟨2, _⟩ => show 0 + 1 * j.val = j.val; omega

/-- Slab k of a stack, read through its rectangle. -/
theorem ld_slab {Val : EltTy → Type} {e : EltTy} {n a b : ℕ} (X : (⟨3, ![n, a, b]⟩ : Shape).Idx → Val e) (o : ℕ)
    (inb : ∀ ax, (![o, 0, 0] : Fin 3 → ℕ) ax + (![1, a, b] : Fin 3 → ℕ) ax ≤ (⟨3, ![n, a, b]⟩ : Shape).size ax)
    (k : Fin n) (hk : k.val = o) (p : Fin a) (j : Fin b) :
    View.ld X (Rect.unit (s := ⟨3, ![n, a, b]⟩) ![o, 0, 0] ![1, a, b] inb) (ix3 (0 : Fin 1) p j) = X (ix3 k p j) := by
  show X _ = X _
  congr 1
  funext ax
  apply Fin.ext
  match ax with
  | ⟨0, _⟩ => show o + 1 * 0 = k.val; omega
  | ⟨1, _⟩ => show 0 + 1 * p.val = p.val; omega
  | ⟨2, _⟩ => show 0 + 1 * j.val = j.val; omega

end Cert.Bridge.Slab

end
-- ==== Proof.KI.Blocks.lean ====
/-
  The input blocks of a grid point, read entry by entry.

  The grid has 2 · 16 = 32 points; point t works on feature run t.  Its blocks are: the whole 100 × 100 matrix; the
  columns 2048 t … 2048 t + 2047 of the [1, 100, 65536] feature array; and the rows 2048 t … 2048 t + 2047 of each of
  the two [3, 65536, 60] weight stacks.  A block's entry sits in its array at block index × block size + the coordinate
  inside the block, axis by axis; the block indices are decided once over the 32 points.  Last, slab s of a
  [3, 2048, 60] block, read through the unit-stride rectangle that starts at (s, 0, 0) with sizes (1, 2048, 60), has at
  (0, j, k) the block's entry (s, j, k).
-/
import proofs.«136048_j27848567947758_2_alg».proof.Proof.KI.Around
import proofs.«136048_j27848567947758_2_alg».proof.Proof.LibSlab
import Idealize.ShloMosaic.Lib.ValueIdx
import Idealize.ShloMosaic.Lib.Pipeline.Value

noncomputable section

namespace Cert.KernelIdeal.GenH

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The grid has 32 points. -/
theorem N0_eq : cfg0.N = 32 := N_0

/-- Column (or row) 2048 t + j of a 65536-long axis exists. -/
theorem col_lt (t : Fin cfg0.N) (j : Fin 2048) : t.val * 2048 + j.val < 65536 := by
  have ht : t.val < 32 := lt_of_lt_of_eq t.isLt N0_eq
  have hj := j.isLt
  omega

/-! ## The block indices, decided over the 32 points -/

/-- The matrix's one block. -/
theorem idx_facts0 : ∀ t : Fin cfg0.N, win0_0.index t (0 : Fin 2) = 0 ∧ win0_0.index t (1 : Fin 2) = 0 :=
  (by decide +kernel : ∀ t : Fin grid0.N, _)

/-- The feature array's block at point t is block (0, 0, t). -/
theorem idx_facts1 : ∀ t : Fin cfg0.N, win0_1.index t (0 : Fin 3) = 0 ∧ win0_1.index t (1 : Fin 3) = 0
    ∧ win0_1.index t (2 : Fin 3) = t.val :=
  (by decide +kernel : ∀ t : Fin grid0.N, _)

/-- The first weight stack's block at point t is block (0, t, 0). -/
theorem idx_facts2 : ∀ t : Fin cfg0.N, win0_2.index t (0 : Fin 3) = 0 ∧ win0_2.index t (1 : Fin 3) = t.val
    ∧ win0_2.index t (2 : Fin 3) = 0 :=
  (by decide +kernel : ∀ t : Fin grid0.N, _)

/-- The second weight stack's block at point t is block (0, t, 0). -/
theorem idx_facts3 : ∀ t : Fin cfg0.N, win0_3.index t (0 : Fin 3) = 0 ∧ win0_3.index t (1 : Fin 3) = t.val
    ∧ win0_3.index t (2 : Fin 3) = 0 :=
  (by decide +kernel : ∀ t : Fin grid0.N, _)

/-! ## The blocks at an index -/

/-- The matrix block is the matrix. -/
theorem blk0_apply (c : Dev nD) (t : Fin cfg0.N) (n s : Fin 100) :
    (iblk m c 0 t : S100x100.Idx → Elt F .f32) (ix2 n s)
      = (V m c main_v45 : S100x100.Idx → Elt F .f32) (ix2 n s) := by
  obtain ⟨e0, e1⟩ := idx_facts0 t
  unfold iblk
  rw [View.read_apply]
  show V m c main_v45 _ = V m c main_v45 _
  congr 1
  funext a
  apply Fin.ext
  match a with
  | ⟨0, _⟩ => show win0_0.index t (0 : Fin 2) * 100 + 1 * n.val = n.val; omega
  | ⟨1, _⟩ => show win0_0.index t (1 : Fin 2) * 100 + 1 * s.val = s.val; omega

/-- The feature block's entry (0, n, j) is the array's entry (0, n, 2048 t + j). -/
theorem blk1_apply (c : Dev nD) (t : Fin cfg0.N) (n : Fin 100) (j : Fin 2048) :
    (iblk m c 1 t : S1x100x2048.Idx → Elt F .f32) (ix3 (0 : Fin 1) n j)
      = (V m c main_arg0 : S1x100x65536.Idx → Elt F .f32) (ix3 (0 : Fin 1) n ⟨t.val * 2048 + j.val, col_lt t j⟩) := by
  obtain ⟨e0, e1, e2⟩ := idx_facts1 t
  unfold iblk
  rw [View.read_apply]
  show V m c main_arg0 _ = V m c main_arg0 _
  congr 1
  funext a
  apply Fin.ext
  match a with
  | ⟨0, _⟩ => show win0_1.index t (0 : Fin 3) * 1 + 1 * 0 = 0; omega
  | ⟨1, _⟩ => show win0_1.index t (1 : Fin 3) * 100 + 1 * n.val = n.val; omega
  | ⟨2, _⟩ => show win0_1.index t (2 : Fin 3) * 2048 + 1 * j.val = t.val * 2048 + j.val; omega

/-- The first weight block's entry (s, j, k) is the stack's entry (s, 2048 t + j, k). -/
theorem blk2_apply (c : Dev nD) (t : Fin cfg0.N) (s : Fin 3) (j : Fin 2048) (k : Fin 60) :
    (iblk m c 2 t : S3x2048x60.Idx → Elt F .f32) (ix3 s j k)
      = (V m c main_arg5 : S3x65536x60.Idx → Elt F .f32) (ix3 s ⟨t.val * 2048 + j.val, col_lt t j⟩ k) := by
  obtain ⟨e0, e1, e2⟩ := idx_facts2 t
  unfold iblk
  rw [View.read_apply]
  show V m c main_arg5 _ = V m c main_arg5 _
  congr 1
  funext a
  apply Fin.ext
  match a with
  | ⟨0, _⟩ => show win0_2.index t (0 : Fin 3) * 3 + 1 * s.val = s.val; omega
  | ⟨1, _⟩ => show win0_2.index t (1 : Fin 3) * 2048 + 1 * j.val = t.val * 2048 + j.val; omega
  | ⟨2, _⟩ => show win0_2.index t (2 : Fin 3) * 60 + 1 * k.val = k.val; omega

/-- The second weight block's entry (s, j, k) is the stack's entry (s, 2048 t + j, k). -/
theorem blk3_apply (c : Dev nD) (t : Fin cfg0.N) (s : Fin 3) (j : Fin 2048) (k : Fin 60) :
    (iblk m c 3 t : S3x2048x60.Idx → Elt F .f32) (ix3 s j k)
      = (V m c main_arg7 : S3x65536x60.Idx → Elt F .f32) (ix3 s ⟨t.val * 2048 + j.val, col_lt t j⟩ k) := by
  obtain ⟨e0, e1, e2⟩ := idx_facts3 t
  unfold iblk
  rw [View.read_apply]
  show V m c main_arg7 _ = V m c main_arg7 _
  congr 1
  funext a
  apply Fin.ext
  match a with
  | ⟨0, _⟩ => show win0_3.index t (0 : Fin 3) * 3 + 1 * s.val = s.val; omega
  | ⟨1, _⟩ => show win0_3.index t (1 : Fin 3) * 2048 + 1 * j.val = t.val * 2048 + j.val; omega
  | ⟨2, _⟩ => show win0_3.index t (2 : Fin 3) * 60 + 1 * k.val = k.val; omega

/-! ## The three slabs of a weight block -/

/-- Slab 0 of a [3, 2048, 60] block at (0, j, k). -/
theorem slab0_apply (x : Vec F S3x2048x60 .f32) (j : Fin 2048) (k : Fin 60) :
    View.ld (Val := Elt F) x (Rect.unit (s := S3x2048x60) ![0, 0, 0] S1x2048x60.size inb_S3x2048x60_S1x2048x60_0_0_0)
      (ix3 (0 : Fin 1) j k) = x (ix3 0 j k) :=
  Cert.Bridge.Slab.ld_slab (Val := Elt F) x 0 _ 0 rfl j k
/-- Slab 1. -/
theorem slab1_apply (x : Vec F S3x2048x60 .f32) (j : Fin 2048) (k : Fin 60) :
    View.ld (Val := Elt F) x (Rect.unit (s := S3x2048x60) ![1, 0, 0] S1x2048x60.size inb_S3x2048x60_S1x2048x60_1_0_0)
      (ix3 (0 : Fin 1) j k) = x (ix3 1 j k) :=
  Cert.Bridge.Slab.ld_slab (Val := Elt F) x 1 _ 1 rfl j k
/-- Slab 2. -/
theorem slab2_apply (x : Vec F S3x2048x60 .f32) (j : Fin 2048) (k : Fin 60) :
    View.ld (Val := Elt F) x (Rect.unit (s := S3x2048x60) ![2, 0, 0] S1x2048x60.size inb_S3x2048x60_S1x2048x60_2_0_0)
      (ix3 (0 : Fin 1) j k) = x (ix3 2 j k) :=
  Cert.Bridge.Slab.ld_slab (Val := Elt F) x 2 _ 2 rfl j k

end Cert.KernelIdeal.GenH

end
-- ==== Proof.KI.AccValue.lean ====
/-
  What the two accumulators hold after each grid point, over the extended reals.

  Point n of the 32 is run n % 16 of half n / 16; its blocks are the dense Laplacian, that run's 2048 columns of the
  feature matrix, and the same 2048 rows of each family's three weight matrices.  A point adds to each accumulator
  entry (r, k) the run's term  Σ_j X(r,f_j) W₀(f_j,k) + Σ_j (L X)(r,f_j) W₁(f_j,k) + Σ_j (2 L(L X) − X)(r,f_j) W₂(f_j,k),
  f_j the run's j-th feature; the first point of a half starts from zero.  Hence, by induction on the point, the
  accumulators hold the specification's running totals, and what the last point of a half copies into the output
  blocks is the half's total over its sixteen runs.
-/
import proofs.«136048_j27848567947758_2_alg».proof.Proof.KI.Frame
import proofs.«136048_j27848567947758_2_alg».proof.Proof.KI.Pieces
import proofs.«136048_j27848567947758_2_alg».proof.Proof.KI.Payload
import proofs.«136048_j27848567947758_2_alg».proof.Proof.KI.Blocks
import proofs.«136048_j27848567947758_2_alg».proof.Proof.Spec
import Idealize.ShloMosaic.Lib.ValueIdx
import Idealize.ShloMosaic.Lib.Pipeline.Value

set_option maxRecDepth 16384

noncomputable section

namespace Cert.KernelIdeal.GenH

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open scoped BigOperators

/-! ## One point's contribution is one run's term of the specification -/

section Step
variable (Lb : Vec Ideal S100x100 .f32) (Xb : Vec Ideal S1x100x2048 .f32) (Wb : Vec Ideal S3x2048x60 .f32)
  (L : Fin 100 → Fin 100 → EReal) (X : Cheb.Feat) (W : Fin 3 → Fin 65536 → Fin 60 → EReal) (q : Fin 2) (kk : Fin 16)
  (hL : ∀ n s, Lb (ix2 n s) = L n s) (hX : ∀ n j, Xb (ix3 0 n j) = X n (Cheb.feat q kk j))
  (hW : ∀ s j k, Wb (ix3 s j k) = W s (Cheb.feat q kk j) k)
include hL hX hW

/-- If the point's blocks are the Laplacian, run kk of half q of the features and the same run of the three weight
    matrices, the first accumulator's new entry is its old entry plus that run's term. -/
theorem new0_apply (acc : Vec Ideal S100x60 .f32) (r : Fin 100) (k : Fin 60) :
    new0 (F := Ideal) Lb Xb Wb acc (ix2 r k) = acc (ix2 r k) + Cheb.part L X W q kk r k := by
  refine (PayValue.actor_point_apply Lb Xb (slab0 Wb) (slab1 Wb) (slab2 Wb) acc r k).trans ?_
  refine congrArg (acc (ix2 r k) + ·) ?_
  unfold Cheb.part
  refine congrArg₂ (· + ·) (congrArg₂ (· + ·) ?_ ?_) ?_
  · exact Finset.sum_congr rfl fun j _ => congrArg₂ (· * ·) (hX r j) ((slab0_apply Wb j k).trans (hW 0 j k))
  · refine Finset.sum_congr rfl fun j _ => congrArg₂ (· * ·) ?_ ((slab1_apply Wb j k).trans (hW 1 j k))
    exact Finset.sum_congr rfl fun s _ => congrArg₂ (· * ·) (hL r s) (hX s j)
  · refine Finset.sum_congr rfl fun j _ => congrArg₂ (· * ·) ?_ ((slab2_apply Wb j k).trans (hW 2 j k))
    show _ = Cheb.two * Cheb.dense L (Cheb.dense L X) r (Cheb.feat q kk j) - X r (Cheb.feat q kk j)
    refine congrArg₂ (· - ·) (congrArg (Cheb.two * ·) ?_) (hX r j)
    exact Finset.sum_congr rfl fun s _ => congrArg₂ (· * ·) (hL r s)
      (Finset.sum_congr rfl fun s' _ => congrArg₂ (· * ·) (hL s s') (hX s' j))

/-- The same for the second accumulator. -/
theorem new1_apply (acc : Vec Ideal S100x60 .f32) (r : Fin 100) (k : Fin 60) :
    new1 (F := Ideal) Lb Xb Wb acc (ix2 r k) = acc (ix2 r k) + Cheb.part L X W q kk r k := by
  refine (PayValue.critic_point_apply Lb Xb (slab0 Wb) (slab1 Wb) (slab2 Wb) acc r k).trans ?_
  refine congrArg (acc (ix2 r k) + ·) ?_
  unfold Cheb.part
  refine congrArg₂ (· + ·) (congrArg₂ (· + ·) ?_ ?_) ?_
  · exact Finset.sum_congr rfl fun j _ => congrArg₂ (· * ·) (hX r j) ((slab0_apply Wb j k).trans (hW 0 j k))
  · refine Finset.sum_congr rfl fun j _ => congrArg₂ (· * ·) ?_ ((slab1_apply Wb j k).trans (hW 1 j k))
    exact Finset.sum_congr rfl fun s _ => congrArg₂ (· * ·) (hL r s) (hX s j)
  · refine Finset.sum_congr rfl fun j _ => congrArg₂ (· * ·) ?_ ((slab2_apply Wb j k).trans (hW 2 j k))
    show _ = Cheb.two * Cheb.dense L (Cheb.dense L X) r (Cheb.feat q kk j) - X r (Cheb.feat q kk j)
    refine congrArg₂ (· - ·) (congrArg (Cheb.two * ·) ?_) (hX r j)
    exact Finset.sum_congr rfl fun s _ => congrArg₂ (· * ·) (hL r s)
      (Finset.sum_congr rfl fun s' _ => congrArg₂ (· * ·) (hL s s') (hX s' j))
end Step

/-! ## The running total, step by step -/

section Accum
variable (L : Fin 100 → Fin 100 → EReal) (X : Cheb.Feat) (W : Fin 3 → Fin 65536 → Fin 60 → EReal) (r : Fin 100) (k : Fin 60)

/-- The running total does not depend on how the half and the run are written. -/
theorem accum_congr {q q' : Fin 2} (hq : q = q') {a b : ℕ} (h : a = b) (ha : a < 16) (hb : b < 16) :
    Cheb.accum L X W q r k a ha = Cheb.accum L X W q' r k b hb := by
  subst hq; subst h; rfl

/-- At the first run of a half it is that run's term over zero; -/
theorem accum_first (q : Fin 2) {a : ℕ} (h : a = 0) (ha : a < 16) :
    Cheb.accum L X W q r k a ha = 0 + Cheb.part L X W q ⟨a, ha⟩ r k := by
  subst h; rfl

/-- at a later run, the total so far plus that run's term. -/
theorem accum_next (q : Fin 2) {a b : ℕ} (h : a = b + 1) (ha : a < 16) (hb : b < 16) :
    Cheb.accum L X W q r k a ha = Cheb.accum L X W q r k b hb + Cheb.part L X W q ⟨a, ha⟩ r k := by
  subst h; rfl
end Accum

/-! ## The arrays the kernel reads, as the specification's functions -/

section Value
variable (m : (ℓ : Loc nD τ sig) → Buf (Elt Ideal) ℓ) (c : Dev nD)

/-- The dense Laplacian the region finds: entry (d, s). -/
abbrev Lm : Fin 100 → Fin 100 → EReal := fun n s => (V m c main_v45 : S100x100.Idx → EReal) (ix2 n s)
/-- The feature matrix: node n, feature f. -/
abbrev Xm : Cheb.Feat := fun n f => (V m c main_arg0 : S1x100x65536.Idx → EReal) (ix3 0 n f)
/-- The first family's three weight matrices: term s, feature f, column k. -/
abbrev WAm : Fin 3 → Fin 65536 → Fin 60 → EReal := fun s f k => (V m c main_arg5 : S3x65536x60.Idx → EReal) (ix3 s f k)
/-- The second family's. -/
abbrev WCm : Fin 3 → Fin 65536 → Fin 60 → EReal := fun s f k => (V m c main_arg7 : S3x65536x60.Idx → EReal) (ix3 s f k)

/-- A point of the 32 lies in half t / 16, -/
theorem half_lt {n : ℕ} (hn : n < cfg0.N) : n / 16 < 2 := by
  have h : n < 32 := lt_of_lt_of_eq hn N0_eq
  omega

/-- and feature j of its block is feature j of run t % 16 of that half. -/
theorem feat_eq (t : Fin cfg0.N) (j : Fin 2048) :
    (⟨t.val * 2048 + j.val, col_lt t j⟩ : Fin 65536)
      = Cheb.feat ⟨t.val / 16, half_lt t.isLt⟩ ⟨t.val % 16, Nat.mod_lt _ (by decide)⟩ j := by
  apply Fin.ext
  show t.val * 2048 + j.val = (t.val / 16 * 16 + t.val % 16) * 2048 + j.val
  omega

/-- The first accumulator's new entry at point t: its old entry plus the point's run's term. -/
theorem step0 (t : Fin cfg0.N) (acc : Vec Ideal S100x60 .f32) (r : Fin 100) (k : Fin 60) :
    new0 (F := Ideal) (iblk m c 0 t) (iblk m c 1 t) (iblk m c 2 t) acc (ix2 r k)
      = acc (ix2 r k) + Cheb.part (Lm m c) (Xm m c) (WAm m c) ⟨t.val / 16, half_lt t.isLt⟩ ⟨t.val % 16, Nat.mod_lt _ (by decide)⟩ r k :=
  new0_apply (iblk m c 0 t) (iblk m c 1 t) (iblk m c 2 t) (Lm m c) (Xm m c) (WAm m c) _ _
    (fun n s => blk0_apply m c t n s)
    (fun n j => (blk1_apply m c t n j).trans (congrArg (fun f => (V m c main_arg0 : S1x100x65536.Idx → EReal) (ix3 0 n f)) (feat_eq t j)))
    (fun s j k => (blk2_apply m c t s j k).trans (congrArg (fun f => (V m c main_arg5 : S3x65536x60.Idx → EReal) (ix3 s f k)) (feat_eq t j)))
    acc r k

/-- The second accumulator's. -/
theorem step1 (t : Fin cfg0.N) (acc : Vec Ideal S100x60 .f32) (r : Fin 100) (k : Fin 60) :
    new1 (F := Ideal) (iblk m c 0 t) (iblk m c 1 t) (iblk m c 3 t) acc (ix2 r k)
      = acc (ix2 r k) + Cheb.part (Lm m c) (Xm m c) (WCm m c) ⟨t.val / 16, half_lt t.isLt⟩ ⟨t.val % 16, Nat.mod_lt _ (by decide)⟩ r k :=
  new1_apply (iblk m c 0 t) (iblk m c 1 t) (iblk m c 3 t) (Lm m c) (Xm m c) (WCm m c) _ _
    (fun n s => blk0_apply m c t n s)
    (fun n j => (blk1_apply m c t n j).trans (congrArg (fun f => (V m c main_arg0 : S1x100x65536.Idx → EReal) (ix3 0 n f)) (feat_eq t j)))
    (fun s j k => (blk3_apply m c t s j k).trans (congrArg (fun f => (V m c main_arg7 : S3x65536x60.Idx → EReal) (ix3 s f k)) (feat_eq t j)))
    acc r k

/-! ## The accumulators after a point, by the kind of the point -/

theorem scr_A (t : Fin cfg0.N) (h0 : t.val % 16 = 0) (h1 : ¬t.val % 16 = 15) :
    scrAt m c t.val t.isLt = (new0 (F := Ideal) (iblk m c 0 t) (iblk m c 1 t) (iblk m c 2 t) (k0_pay5 (F := Ideal)), new1 (F := Ideal) (iblk m c 0 t) (iblk m c 1 t) (iblk m c 3 t) (k0_pay6 (F := Ideal))) :=
  (scrAt_A m c t h0 h1).trans (congrArg₂ Prod.mk
    (pieceA_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h)))
    (pieceA_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))))

theorem scr_B (t : Fin cfg0.N) (h0 : ¬t.val % 16 = 0) (h1 : ¬t.val % 16 = 15) :
    scrAt m c t.val t.isLt = (new0 (F := Ideal) (iblk m c 0 t) (iblk m c 1 t) (iblk m c 2 t) (scrBefore m c t).1, new1 (F := Ideal) (iblk m c 0 t) (iblk m c 1 t) (iblk m c 3 t) (scrBefore m c t).2) :=
  (scrAt_B m c t h0 h1).trans (congrArg₂ Prod.mk
    (pieceB_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (scrBefore m c t).1 (scrBefore m c t).2 (fun h => h0 ((hcond0_0 t).mp h)) (fun h => h1 ((hcond0_1 t).mp h)))
    (pieceB_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (scrBefore m c t).1 (scrBefore m c t).2 (fun h => h0 ((hcond0_0 t).mp h)) (fun h => h1 ((hcond0_1 t).mp h))))

theorem scr_C (t : Fin cfg0.N) (h0 : ¬t.val % 16 = 0) (h1 : t.val % 16 = 15) :
    scrAt m c t.val t.isLt = (new0 (F := Ideal) (iblk m c 0 t) (iblk m c 1 t) (iblk m c 2 t) (scrBefore m c t).1, new1 (F := Ideal) (iblk m c 0 t) (iblk m c 1 t) (iblk m c 3 t) (scrBefore m c t).2) :=
  (scrAt_C m c t h0 h1).trans (congrArg₂ Prod.mk
    (pieceC_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (scrBefore m c t).1 (scrBefore m c t).2 (fun h => h0 ((hcond0_0 t).mp h)) ((hcond0_1 t).mpr h1))
    (pieceC_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (scrBefore m c t).1 (scrBefore m c t).2 (fun h => h0 ((hcond0_0 t).mp h)) ((hcond0_1 t).mpr h1)))

theorem out_C (t : Fin cfg0.N) (h0 : ¬t.val % 16 = 0) (h1 : t.val % 16 = 15) :
    outAt m c t = (k0_pay3 (F := Ideal) (new0 (F := Ideal) (iblk m c 0 t) (iblk m c 1 t) (iblk m c 2 t) (scrBefore m c t).1), k0_pay4 (F := Ideal) (new1 (F := Ideal) (iblk m c 0 t) (iblk m c 1 t) (iblk m c 3 t) (scrBefore m c t).2)) :=
  (outAt_C m c t h0 h1).trans (congrArg₂ Prod.mk
    (pieceC_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (scrBefore m c t).1 (scrBefore m c t).2 (fun h => h0 ((hcond0_0 t).mp h)) ((hcond0_1 t).mpr h1))
    (pieceC_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (scrBefore m c t).1 (scrBefore m c t).2 (fun h => h0 ((hcond0_0 t).mp h)) ((hcond0_1 t).mpr h1)))

/-! ## The accumulators hold the specification's running totals -/

/-- After a first point of a half each accumulator entry is that run's term over zero: the running total at run 0. -/
theorem acc_first (t : Fin cfg0.N) (h0 : t.val % 16 = 0) (r : Fin 100) (k : Fin 60) :
    (scrAt m c t.val t.isLt).1 (ix2 r k)
        = Cheb.accum (Lm m c) (Xm m c) (WAm m c) ⟨t.val / 16, half_lt t.isLt⟩ r k (t.val % 16) (Nat.mod_lt _ (by decide))
      ∧ (scrAt m c t.val t.isLt).2 (ix2 r k)
        = Cheb.accum (Lm m c) (Xm m c) (WCm m c) ⟨t.val / 16, half_lt t.isLt⟩ r k (t.val % 16) (Nat.mod_lt _ (by decide)) := by
  have e := scr_A m c t h0 (by omega)
  have e0 : (scrAt m c t.val t.isLt).1 = new0 (F := Ideal) (iblk m c 0 t) (iblk m c 1 t) (iblk m c 2 t) (k0_pay5 (F := Ideal)) := congrArg Prod.fst e
  have e1 : (scrAt m c t.val t.isLt).2 = new1 (F := Ideal) (iblk m c 0 t) (iblk m c 1 t) (iblk m c 3 t) (k0_pay6 (F := Ideal)) := congrArg Prod.snd e
  have s0 := step0 m c t (k0_pay5 (F := Ideal)) r k
  have s1 := step1 m c t (k0_pay6 (F := Ideal)) r k
  have z0 : k0_pay5 (F := Ideal) (ix2 r k) = 0 := PayValue.pay5_apply r k
  have z1 : k0_pay6 (F := Ideal) (ix2 r k) = 0 := PayValue.pay6_apply r k
  have f0 := accum_first (Lm m c) (Xm m c) (WAm m c) r k ⟨t.val / 16, half_lt t.isLt⟩ h0 (Nat.mod_lt _ (by decide))
  have f1 := accum_first (Lm m c) (Xm m c) (WCm m c) r k ⟨t.val / 16, half_lt t.isLt⟩ h0 (Nat.mod_lt _ (by decide))
  constructor
  · rw [e0, s0, z0]; exact f0.symm
  · rw [e1, s1, z1]; exact f1.symm

/-- After any other point each accumulator entry is the point before's plus this run's term: if the point before
    held the running totals up to its run, this point holds them up to its own. -/
theorem acc_later (t : Fin cfg0.N) (h0 : ¬t.val % 16 = 0) (r : Fin 100) (k : Fin 60)
    (hp : t.val - 1 < cfg0.N)
    (ih0 : (scrBefore m c t).1 (ix2 r k)
        = Cheb.accum (Lm m c) (Xm m c) (WAm m c) ⟨(t.val - 1) / 16, half_lt hp⟩ r k ((t.val - 1) % 16) (Nat.mod_lt _ (by decide)))
    (ih1 : (scrBefore m c t).2 (ix2 r k)
        = Cheb.accum (Lm m c) (Xm m c) (WCm m c) ⟨(t.val - 1) / 16, half_lt hp⟩ r k ((t.val - 1) % 16) (Nat.mod_lt _ (by decide))) :
    (scrAt m c t.val t.isLt).1 (ix2 r k)
        = Cheb.accum (Lm m c) (Xm m c) (WAm m c) ⟨t.val / 16, half_lt t.isLt⟩ r k (t.val % 16) (Nat.mod_lt _ (by decide))
      ∧ (scrAt m c t.val t.isLt).2 (ix2 r k)
        = Cheb.accum (Lm m c) (Xm m c) (WCm m c) ⟨t.val / 16, half_lt t.isLt⟩ r k (t.val % 16) (Nat.mod_lt _ (by decide)) := by
  have hN : t.val < 32 := lt_of_lt_of_eq t.isLt N0_eq
  have e : scrAt m c t.val t.isLt = (new0 (F := Ideal) (iblk m c 0 t) (iblk m c 1 t) (iblk m c 2 t) (scrBefore m c t).1, new1 (F := Ideal) (iblk m c 0 t) (iblk m c 1 t) (iblk m c 3 t) (scrBefore m c t).2) := by
    by_cases h1 : t.val % 16 = 15
    · exact scr_C m c t h0 h1
    · exact scr_B m c t h0 h1
  have e0 : (scrAt m c t.val t.isLt).1 = new0 (F := Ideal) (iblk m c 0 t) (iblk m c 1 t) (iblk m c 2 t) (scrBefore m c t).1 := congrArg Prod.fst e
  have e1 : (scrAt m c t.val t.isLt).2 = new1 (F := Ideal) (iblk m c 0 t) (iblk m c 1 t) (iblk m c 3 t) (scrBefore m c t).2 := congrArg Prod.snd e
  have s0 := step0 m c t (scrBefore m c t).1 r k
  have s1 := step1 m c t (scrBefore m c t).2 r k
  have hq : (⟨(t.val - 1) / 16, half_lt hp⟩ : Fin 2) = ⟨t.val / 16, half_lt t.isLt⟩ :=
    Fin.ext (by show (t.val - 1) / 16 = t.val / 16; omega)
  have hk : t.val % 16 = (t.val - 1) % 16 + 1 := by omega
  have c0 := accum_congr (Lm m c) (Xm m c) (WAm m c) r k hq (rfl : (t.val - 1) % 16 = (t.val - 1) % 16) (Nat.mod_lt _ (by decide)) (Nat.mod_lt _ (by decide))
  have c1 := accum_congr (Lm m c) (Xm m c) (WCm m c) r k hq (rfl : (t.val - 1) % 16 = (t.val - 1) % 16) (Nat.mod_lt _ (by decide)) (Nat.mod_lt _ (by decide))
  have n0 := accum_next (Lm m c) (Xm m c) (WAm m c) r k ⟨t.val / 16, half_lt t.isLt⟩ hk (Nat.mod_lt _ (by decide)) (Nat.mod_lt _ (by decide))
  have n1 := accum_next (Lm m c) (Xm m c) (WCm m c) r k ⟨t.val / 16, half_lt t.isLt⟩ hk (Nat.mod_lt _ (by decide)) (Nat.mod_lt _ (by decide))
  constructor
  · rw [e0, s0, ih0, c0]; exact n0.symm
  · rw [e1, s1, ih1, c1]; exact n1.symm

/-- After point n — run n % 16 of half n / 16 — each accumulator entry is the running total of its family up to
    that run: by induction on the point. -/
theorem acc_value : ∀ (n : ℕ) (hn : n < cfg0.N) (r : Fin 100) (k : Fin 60),
    (scrAt m c n hn).1 (ix2 r k)
        = Cheb.accum (Lm m c) (Xm m c) (WAm m c) ⟨n / 16, half_lt hn⟩ r k (n % 16) (Nat.mod_lt _ (by decide))
      ∧ (scrAt m c n hn).2 (ix2 r k)
        = Cheb.accum (Lm m c) (Xm m c) (WCm m c) ⟨n / 16, half_lt hn⟩ r k (n % 16) (Nat.mod_lt _ (by decide)) := by
  intro n
  induction n with
  | zero => intro hn r k; exact acc_first m c ⟨0, hn⟩ (Nat.zero_mod _) r k
  | succ n ih =>
    intro hn r k
    by_cases h0 : (n + 1) % 16 = 0
    · exact acc_first m c ⟨n + 1, hn⟩ h0 r k
    · exact acc_later m c ⟨n + 1, hn⟩ h0 r k (Nat.lt_of_succ_lt hn) (ih (Nat.lt_of_succ_lt hn) r k).1 (ih (Nat.lt_of_succ_lt hn) r k).2

/-- At the last point of a half each output block receives its family's total over the half's sixteen runs. -/
theorem out_value (t : Fin cfg0.N) (h1 : t.val % 16 = 15) (r : Fin 100) (k : Fin 60) :
    (outAt m c t).1 (ix3 0 r k)
        = Cheb.accum (Lm m c) (Xm m c) (WAm m c) ⟨t.val / 16, half_lt t.isLt⟩ r k 15 (by decide)
      ∧ (outAt m c t).2 (ix3 0 r k)
        = Cheb.accum (Lm m c) (Xm m c) (WCm m c) ⟨t.val / 16, half_lt t.isLt⟩ r k 15 (by decide) := by
  have h0 : ¬t.val % 16 = 0 := by omega
  have eo := out_C m c t h0 h1
  have es := scr_C m c t h0 h1
  have eo0 : (outAt m c t).1 = k0_pay3 (F := Ideal) (new0 (F := Ideal) (iblk m c 0 t) (iblk m c 1 t) (iblk m c 2 t) (scrBefore m c t).1) := congrArg Prod.fst eo
  have eo1 : (outAt m c t).2 = k0_pay4 (F := Ideal) (new1 (F := Ideal) (iblk m c 0 t) (iblk m c 1 t) (iblk m c 3 t) (scrBefore m c t).2) := congrArg Prod.snd eo
  have es0 : (scrAt m c t.val t.isLt).1 = new0 (F := Ideal) (iblk m c 0 t) (iblk m c 1 t) (iblk m c 2 t) (scrBefore m c t).1 := congrArg Prod.fst es
  have es1 : (scrAt m c t.val t.isLt).2 = new1 (F := Ideal) (iblk m c 0 t) (iblk m c 1 t) (iblk m c 3 t) (scrBefore m c t).2 := congrArg Prod.snd es
  obtain ⟨a0, a1⟩ := acc_value m c t.val t.isLt r k
  constructor
  · refine (congrFun eo0 (ix3 0 r k)).trans ?_
    refine (PayValue.pay3_apply _ r k).trans ?_
    refine (congrFun es0 (ix2 r k)).symm.trans ?_
    exact a0.trans (accum_congr _ _ _ r k rfl h1 _ _)
  · refine (congrFun eo1 (ix3 0 r k)).trans ?_
    refine (PayValue.pay4_apply _ r k).trans ?_
    refine (congrFun es1 (ix2 r k)).symm.trans ?_
    exact a1.trans (accum_congr _ _ _ r k rfl h1 _ _)

end Value

end Cert.KernelIdeal.GenH

end
-- ==== Proof.LibSegmentSum.lean ====
/-
  An accumulating scatter along the leading axis, read at an entry: a segment sum.

  The operand has N rows; there are E updates, update e carrying one index word idx(e, 0) that names the row it is added to.  For rows of
  C entries (updates E×C, update e's entry c added to entry (idx e, c)) the result at (n, c) is the operand's entry plus the sum, over
  the updates e whose index word read as a signed integer is n, of entry (e, c) of the updates; for a vector operand (updates of extent
  E, update e added to entry idx e) the same with the one entry of each update.  An update whose index is outside [0, N) lands nowhere
  and is in no such sum.  These are exact sums on the extended reals, whatever the order in which colliding updates are added.  Stated
  for any extents N, E, C and any width of the index words.

  The reading goes through the scatter's dimension numbers: with one scatter axis naming operand axis 0 and the remaining operand axis
  (if any) a window axis, the start of update j's window is (idx(j₀, 0), 0) and its window coordinate is (0, j₁), so update j lands at
  (n, c) exactly when idx(j₀, 0) = n and j₁ = c.
-/
import Idealize.ShloMosaic.PureOps.Ideal
import Idealize.ShloMosaic.PureOps.Contract
import Idealize.ShloMosaic.Lib.ValueIdx

noncomputable section

namespace Cert.SegmentSum

open Idealize.ShloMosaic Idealize.ShloMosaic.ValueIdx
open scoped BigOperators

variable {N E C w : ℕ}

/-- The dimension numbers of a scatter of E rows of C entries into an N×C operand along its rows (update axis 1 a window axis, operand
    axis 0 indexed), with the index words in an E×1 array. -/
abbrev rowDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- Update j's window starts, on the row axis, at its index word read as a signed integer. -/
theorem row_start0 (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  congr 2
  funext b; refine Fin.ext ?_
  match b with
  | ⟨0, _⟩ => rfl
  | ⟨1, _⟩ => rfl

/-- Update j's window starts at 0 on the entry axis. -/
theorem row_start1 (j : (⟨2, ![E, C]⟩ : Shape).Idx) (idx : IVec ⟨2, ![E, 1]⟩ w) :
    (rowDims N E C wf).start j idx 1 = 0 := by
  unfold ScatterDims.start
  rw [dif_neg (show (1 : Fin 2) ∉ (rowDims N E C wf).scatterDimsToOperandDims from (by decide : (1 : Fin 2) ∉ ([0] : List (Fin 2))))]

/-- Update j has no window coordinate on the row axis. -/
theorem row_window0 (j : (⟨2, ![E, C]⟩ : Shape).Idx) : (rowDims N E C wf).window j 0 = 0 := by
  unfold ScatterDims.window
  rw [dif_neg (show (0 : Fin 2) ∉ (rowDims N E C wf).sKept from (by decide : (0 : Fin 2) ∉ ([1] : List (Fin 2))))]

/-- Update j's window coordinate on the entry axis is its own entry coordinate. -/
theorem row_window1 (j : (⟨2, ![E, C]⟩ : Shape).Idx) : (rowDims N E C wf).window j 1 = (j 1).val := by
  unfold ScatterDims.window
  rw [dif_pos (show (1 : Fin 2) ∈ (rowDims N E C wf).sKept from (by decide : (1 : Fin 2) ∈ ([1] : List (Fin 2))))]
  rfl

/-- Update j lands at (n, c) exactly when its index word is n and its entry coordinate is c. -/
theorem row_resultIdx?_eq_some_iff (j : (⟨2, ![E, C]⟩ : Shape).Idx) (idx : IVec ⟨2, ![E, 1]⟩ w) (n : Fin N) (c : Fin C) :
    (rowDims N E C wf).resultIdx? j idx = some (ix2 n c)
      ↔ (idx (ix2 (j 0) (0 : Fin 1))).toInt = (n.val : ℤ) ∧ (j 1).val = c.val := by
  have hn := n.isLt
  have hc := c.isLt
  have hj1 : (j 1).val < C := idx2_lt1 j
  unfold ScatterDims.resultIdx?
  split
  · rename_i h
    rw [Option.some.injEq]
    have h0 := h 0
    rw [row_start0, row_window0] at h0
    constructor
    · intro hf
      have e0 := congrArg Fin.val (congrFun hf 0)
      have e1 := congrArg Fin.val (congrFun hf 1)
      simp only [row_start0, row_start1, row_window0, row_window1] at e0 e1
      change _ = n.val at e0
      change _ = c.val at e1
      constructor <;> omega
    · rintro ⟨hk, hcc⟩
      funext a; apply Fin.ext
      match a with
      | ⟨0, _⟩ =>
        show ((rowDims N E C wf).start j idx 0 + ((rowDims N E C wf).window j 0 : ℤ)).toNat = n.val
        rw [row_start0, row_window0, hk]; omega
      | ⟨1, _⟩ =>
        show ((rowDims N E C wf).start j idx 1 + ((rowDims N E C wf).window j 1 : ℤ)).toNat = c.val
        rw [row_start1, row_window1]; omega
  · rename_i h
    constructor
    · intro hf; cases hf
    · rintro ⟨hk, hcc⟩
      exfalso; apply h
      intro a
      match a with
      | ⟨0, _⟩ =>
        show 0 ≤ (rowDims N E C wf).start j idx 0 + ((rowDims N E C wf).window j 0 : ℤ)
          ∧ (rowDims N E C wf).start j idx 0 + ((rowDims N E C wf).window j 0 : ℤ) < (N : ℤ)
        rw [row_start0, row_window0, hk]; omega
      | ⟨1, _⟩ =>
        show 0 ≤ (rowDims N E C wf).start j idx 1 + ((rowDims N E C wf).window j 1 : ℤ)
          ∧ (rowDims N E C wf).start j idx 1 + ((rowDims N E C wf).window j 1 : ℤ) < (C : ℤ)
        rw [row_start1, row_window1]; omega

/-- The accumulating scatter of rows, read at entry (n, c): the operand's entry plus the sum, over the E updates, of entry c of the
    updates whose index word is n. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : ℤ) then upd (ix2 e c) else 0 := by
  unfold Ideal.hostScatterAdd
  congr 1
  rw [Finset.sum_filter, sum_idx2]
  refine Finset.sum_congr rfl fun e _ => ?_
  simp only [row_resultIdx?_eq_some_iff]
  by_cases hk : (idx (ix2 e (0 : Fin 1))).toInt = (n.val : ℤ)
  · rw [if_pos hk]
    rw [Finset.sum_eq_single c]
    · rw [if_pos ⟨hk, rfl⟩]
    · intro b _ hb
      rw [if_neg]; rintro ⟨_, h2⟩; exact hb (Fin.ext h2)
    · intro h; exact absurd (Finset.mem_univ c) h
  · rw [if_neg hk]
    refine Finset.sum_eq_zero fun b _ => ?_
    rw [if_neg]; rintro ⟨h1, _⟩; exact hk h1

/-- The same reading for the host's accumulating scatter at the exact values, for any record with these dimension numbers. -/
theorem hostRowScatterAdd_apply {φ : FTy} (d : ScatterDims ⟨2, ![N, C]⟩ ⟨2, ![E, 1]⟩ ⟨2, ![E, C]⟩) (hd : d = rowDims N E C wf)
    (x : FVec Ideal ⟨2, ![N, C]⟩ φ) (idx : IVec ⟨2, ![E, 1]⟩ w) (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : ℤ) then upd (ix2 e c) else 0 := by
  subst hd
  exact rowScatterAdd_apply wf x idx upd n c

/-! ## A vector's accumulating scatter -/

/-- The dimension numbers of a scatter of E scalars into a vector of extent N (no window axis, operand axis 0 indexed), with the
    index words in an E×1 array. -/
abbrev vecDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wv : ScatterDims.WF ⟨1, ![N]⟩ ⟨2, ![E, 1]⟩ ⟨1, ![E]⟩ [] [0] [0] 1)

/-- Update j lands, if anywhere, at its index word read as a signed integer. -/
theorem vec_start0 (j : (⟨1, ![E]⟩ : Shape).Idx) (idx : IVec ⟨2, ![E, 1]⟩ w) :
    (vecDims N E wv).start j idx 0 = (idx (ix2 (j 0) (0 : Fin 1))).toInt := by
  unfold ScatterDims.start
  rw [dif_pos (show (0 : Fin 1) ∈ (vecDims N E wv).scatterDimsToOperandDims from List.mem_singleton.mpr rfl)]
  congr 2
  funext b; refine Fin.ext ?_
  match b with
  | ⟨0, _⟩ => rfl
  | ⟨1, _⟩ => rfl

/-- A scalar update has no window coordinate. -/
theorem vec_window0 (j : (⟨1, ![E]⟩ : Shape).Idx) : (vecDims N E wv).window j 0 = 0 := by
  unfold ScatterDims.window
  rw [dif_neg (show (0 : Fin 1) ∉ (vecDims N E wv).sKept from (by decide : (0 : Fin 1) ∉ ([] : List (Fin 1))))]

/-- Update j lands at n exactly when its index word is n. -/
theorem vec_resultIdx?_eq_some_iff (j : (⟨1, ![E]⟩ : Shape).Idx) (idx : IVec ⟨2, ![E, 1]⟩ w) (n : Fin N) :
    (vecDims N E wv).resultIdx? j idx = some (ix1 n) ↔ (idx (ix2 (j 0) (0 : Fin 1))).toInt = (n.val : ℤ) := by
  have hn := n.isLt
  unfold ScatterDims.resultIdx?
  split
  · rename_i h
    rw [Option.some.injEq]
    have h0 := h 0
    rw [vec_start0, vec_window0] at h0
    constructor
    · intro hf
      have e0 := congrArg Fin.val (congrFun hf 0)
      simp only [vec_start0, vec_window0] at e0
      change _ = n.val at e0
      omega
    · intro hk
      funext a; apply Fin.ext
      obtain rfl : a = 0 := Subsingleton.elim _ _
      show ((vecDims N E wv).start j idx 0 + ((vecDims N E wv).window j 0 : ℤ)).toNat = n.val
      rw [vec_start0, vec_window0, hk]; omega
  · rename_i h
    constructor
    · intro hf; cases hf
    · intro hk
      exfalso; apply h
      intro a
      obtain rfl : a = 0 := Subsingleton.elim _ _
      show 0 ≤ (vecDims N E wv).start j idx 0 + ((vecDims N E wv).window j 0 : ℤ)
        ∧ (vecDims N E wv).start j idx 0 + ((vecDims N E wv).window j 0 : ℤ) < (N : ℤ)
      rw [vec_start0, vec_window0, hk]; omega

/-- The sum over a vector's indices, by their one coordinate. -/
theorem sum_idx1 {M : Type*} [AddCommMonoid M] {n : ℕ} (f : (⟨1, ![n]⟩ : Shape).Idx → M) :
    ∑ i, f i = ∑ a : Fin n, f (ix1 a) := by
  refine (Fintype.sum_equiv ⟨fun i => i 0, fun a => ix1 a, fun i => (eq_ix1 i).symm, fun _ => rfl⟩ _ _ fun i => ?_)
  exact congrArg f (eq_ix1 i)

/-- The accumulating scatter of a vector, read at entry n: the operand's entry plus the sum of the updates whose index word is n. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wv) x idx upd (ix1 n)
      = x (ix1 n) + ∑ e : Fin E, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [vec_resultIdx?_eq_some_iff]
  rfl

/-- The same reading for the host's accumulating scatter at the exact values, for any record with these dimension numbers. -/
theorem hostVecScatterAdd_apply {φ : FTy} (d : ScatterDims ⟨1, ![N]⟩ ⟨2, ![E, 1]⟩ ⟨1, ![E]⟩) (hd : d = vecDims N E wv)
    (x : FVec Ideal ⟨1, ![N]⟩ φ) (idx : IVec ⟨2, ![E, 1]⟩ w) (upd : FVec Ideal ⟨1, ![E]⟩ φ) (n : Fin N) :
    Host.scatterAdd d x idx upd (ix1 n)
      = x (ix1 n) + ∑ e : Fin E, if (idx (ix2 e (0 : Fin 1))).toInt = (n.val : ℤ) then upd (ix1 e) else 0 := by
  subst hd
  exact vecScatterAdd_apply wv x idx upd n

end Cert.SegmentSum

end
-- ==== Proof.LibScatter2.lean ====
/-
  An accumulating scatter with a pair of index words per update, read at an entry.

  The operand is an N × M matrix; there are E scalar updates, and update e carries two index words idx(e, 0) and idx(e, 1) that
  name the row and the column of the entry it is added to.  The result at (n, k) is the operand's entry plus the sum of the
  updates e whose two index words, read as signed integers, are n and k.  An update one of whose words is outside its axis's
  range lands nowhere and is in no such sum.  These are exact sums on the extended reals, whatever the order in which colliding
  updates are added.  Stated for any extents N, M, E and any width of the index words.

  The reading goes through the scatter's dimension numbers: both operand axes are scatter axes and there is no window axis, so
  the start of update e's (one-entry) window is (idx(e, 0), idx(e, 1)), its window coordinate is (0, 0), and update e lands at
  (n, k) exactly when idx(e, 0) = n and idx(e, 1) = k.
-/
import Idealize.ShloMosaic.PureOps.Ideal
import Idealize.ShloMosaic.PureOps.Contract
import Idealize.ShloMosaic.Lib.ValueIdx

noncomputable section

namespace Cert.PairScatter

open Idealize.ShloMosaic Idealize.ShloMosaic.ValueIdx
open scoped BigOperators

variable {N M E w : ℕ}

/-- The dimension numbers of a scatter of E scalars into an N × M operand, both operand axes indexed (no window axis), with
    the index words in an E × 2 array: word 0 of an update names the row, word 1 the column. -/
abbrev pairDims (N M E : ℕ) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable (wf : ScatterDims.WF ⟨2, ![N, M]⟩ ⟨2, ![E, 2]⟩ ⟨1, ![E]⟩ [] [0, 1] [0, 1] 1)

/-- Update j's row is its first index word read as a signed integer. -/
theorem pair_start0 (j : (⟨1, ![E]⟩ : Shape).Idx) (idx : IVec ⟨2, ![E, 2]⟩ w) :
    (pairDims N M E wf).start j idx 0 = (idx (ix2 (j 0) (0 : Fin 2))).toInt := by
  unfold ScatterDims.start
  rw [dif_pos (show (0 : Fin 2) ∈ (pairDims N M E wf).scatterDimsToOperandDims from (by decide : (0 : Fin 2) ∈ ([0, 1] : List (Fin 2))))]
  congr 2
  funext b; refine Fin.ext ?_
  match b with
  | ⟨0, _⟩ => rfl
  | ⟨1, _⟩ => rfl

/-- Update j's column is its second index word read as a signed integer. -/
theorem pair_start1 (j : (⟨1, ![E]⟩ : Shape).Idx) (idx : IVec ⟨2, ![E, 2]⟩ w) :
    (pairDims N M E wf).start j idx 1 = (idx (ix2 (j 0) (1 : Fin 2))).toInt := by
  unfold ScatterDims.start
  rw [dif_pos (show (1 : Fin 2) ∈ (pairDims N M E wf).scatterDimsToOperandDims from (by decide : (1 : Fin 2) ∈ ([0, 1] : List (Fin 2))))]
  congr 2
  funext b; refine Fin.ext ?_
  match b with
  | ⟨0, _⟩ => rfl
  | ⟨1, _⟩ => rfl

/-- A scalar update has no window coordinate on either axis. -/
theorem pair_window (j : (⟨1, ![E]⟩ : Shape).Idx) (a : Fin 2) : (pairDims N M E wf).window j a = 0 := by
  unfold ScatterDims.window
  rw [dif_neg (show a ∉ (pairDims N M E wf).sKept from (List.not_mem_nil : a ∉ ([] : List (Fin 2))))]

/-- Update j lands at (n, k) exactly when its two index words are n and k. -/
theorem pair_resultIdx?_eq_some_iff (j : (⟨1, ![E]⟩ : Shape).Idx) (idx : IVec ⟨2, ![E, 2]⟩ w) (n : Fin N) (k : Fin M) :
    (pairDims N M E wf).resultIdx? j idx = some (ix2 n k)
      ↔ (idx (ix2 (j 0) (0 : Fin 2))).toInt = (n.val : ℤ) ∧ (idx (ix2 (j 0) (1 : Fin 2))).toInt = (k.val : ℤ) := by
  have hn := n.isLt
  have hk := k.isLt
  unfold ScatterDims.resultIdx?
  split
  · rename_i h
    rw [Option.some.injEq]
    constructor
    · intro hf
      have h0 := h 0
      have h1 := h 1
      rw [pair_start0, pair_window] at h0
      rw [pair_start1, pair_window] at h1
      have e0 := congrArg Fin.val (congrFun hf 0)
      have e1 := congrArg Fin.val (congrFun hf 1)
      simp only [pair_start0, pair_start1, pair_window] at e0 e1
      change _ = n.val at e0
      change _ = k.val at e1
      constructor <;> omega
    · rintro ⟨h0, h1⟩
      funext a; apply Fin.ext
      match a with
      | ⟨0, _⟩ =>
        show ((pairDims N M E wf).start j idx 0 + ((pairDims N M E wf).window j 0 : ℤ)).toNat = n.val
        rw [pair_start0, pair_window, h0]; omega
      | ⟨1, _⟩ =>
        show ((pairDims N M E wf).start j idx 1 + ((pairDims N M E wf).window j 1 : ℤ)).toNat = k.val
        rw [pair_start1, pair_window, h1]; omega
  · rename_i h
    constructor
    · intro hf; cases hf
    · rintro ⟨h0, h1⟩
      exfalso; apply h
      intro a
      match a with
      | ⟨0, _⟩ =>
        show 0 ≤ (pairDims N M E wf).start j idx 0 + ((pairDims N M E wf).window j 0 : ℤ)
          ∧ (pairDims N M E wf).start j idx 0 + ((pairDims N M E wf).window j 0 : ℤ) < (N : ℤ)
        rw [pair_start0, pair_window, h0]; omega
      | ⟨1, _⟩ =>
        show 0 ≤ (pairDims N M E wf).start j idx 1 + ((pairDims N M E wf).window j 1 : ℤ)
          ∧ (pairDims N M E wf).start j idx 1 + ((pairDims N M E wf).window j 1 : ℤ) < (M : ℤ)
        rw [pair_start1, pair_window, h1]; omega

/-- The sum over a vector's indices, by their one coordinate. -/
theorem sum_idx1 {A : Type*} [AddCommMonoid A] {n : ℕ} (f : (⟨1, ![n]⟩ : Shape).Idx → A) :
    ∑ i, f i = ∑ a : Fin n, f (ix1 a) := by
  refine (Fintype.sum_equiv ⟨fun i => i 0, fun a => ix1 a, fun i => (eq_ix1 i).symm, fun _ => rfl⟩ _ _ fun i => ?_)
  exact congrArg f (eq_ix1 i)

/-- The accumulating scatter read at entry (n, k): the operand's entry plus the sum of the updates whose index words are n and k. -/
theorem pairScatterAdd_apply (x : (⟨2, ![N, M]⟩ : Shape).Idx → EReal) (idx : IVec ⟨2, ![E, 2]⟩ w)
    (upd : (⟨1, ![E]⟩ : Shape).Idx → EReal) (n : Fin N) (k : Fin M) :
    Ideal.hostScatterAdd (pairDims N M E wf) x idx upd (ix2 n k)
      = x (ix2 n k) + ∑ e : Fin E,
          if (idx (ix2 e (0 : Fin 2))).toInt = (n.val : ℤ) ∧ (idx (ix2 e (1 : Fin 2))).toInt = (k.val : ℤ) then upd (ix1 e) else 0 := by
  unfold Ideal.hostScatterAdd
  congr 1
  rw [Finset.sum_filter, sum_idx1]
  refine Finset.sum_congr rfl fun e _ => ?_
  simp only [pair_resultIdx?_eq_some_iff]
  rfl

/-- The same reading for the host's accumulating scatter at the exact values, for any record with these dimension numbers. -/
theorem hostPairScatterAdd_apply {φ : FTy} (d : ScatterDims ⟨2, ![N, M]⟩ ⟨2, ![E, 2]⟩ ⟨1, ![E]⟩) (hd : d = pairDims N M E wf)
    (x : FVec Ideal ⟨2, ![N, M]⟩ φ) (idx : IVec ⟨2, ![E, 2]⟩ w) (upd : FVec Ideal ⟨1, ![E]⟩ φ) (n : Fin N) (k : Fin M) :
    Host.scatterAdd d x idx upd (ix2 n k)
      = x (ix2 n k) + ∑ e : Fin E,
          if (idx (ix2 e (0 : Fin 2))).toInt = (n.val : ℤ) ∧ (idx (ix2 e (1 : Fin 2))).toInt = (k.val : ℤ) then upd (ix1 e) else 0 := by
  subst hd
  exact pairScatterAdd_apply wf x idx upd n k

end Cert.PairScatter

end
-- ==== Proof.KI.HostPrefix.lean ====
/-
  The dense Laplacian as the host builds it before the kernel is launched, read entry by entry.

  The edge array A has two rows of 2000 index words: row 0 the source node of every edge, row 1 its destination.  The host
  computes, in this order:
    deg n   = the number of edges whose source word is n (ones added into a zero vector, one per edge);
    dis n   = deg n ^ (-1/2) where deg n > 0 and 0 elsewhere (two selects around a reciprocal square root);
    w e     = -(dis (source e) · dis (destination e)) (two look-ups into dis, a product, a negation);
    L(d, s) = the sum of w e over the edges e with destination d and source s (every w e added into a zero 100 × 100
              matrix at the entry its pair of index words names).
  Before each look-up and before the last accumulation an index word x is replaced by x + 100 where x < 0 (the wrap-around of
  a negative index); on words in [0, 100) this changes nothing, and a look-up clamps its index into [0, 99], which changes
  nothing there either.  So when the source and destination words are the numbers src e, dst e < 100, the matrix is the
  specification's lhat src dst (nrm src dst).

  The arrays the kernel reads besides the Laplacian (the features and the two weight stacks) are written by none of these
  operations: the kernel finds them as they were at launch.
-/
import proofs.«136048_j27848567947758_2_alg».proof.Proof.Gen.KernelIdeal.Launch
import proofs.«136048_j27848567947758_2_alg».proof.Proof.Spec
import proofs.«136048_j27848567947758_2_alg».proof.Proof.LibSegmentSum
import proofs.«136048_j27848567947758_2_alg».proof.Proof.LibScatter2
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HostValue

open Idealize.ShloMosaic Idealize.ShloMosaic.TcCoe Idealize.ShloMosaic.ValueIdx
open Cert.KernelIdeal Cert.KernelIdeal.Gen
open scoped BigOperators

/-! ## A look-up of a vector at a column of index words -/

section Lookup
variable {α : Type}

/-- The dimension numbers of a look-up of E entries of a vector of extent N, the index words in an E × 1 array. -/
abbrev colDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the look-up is the vector at e's index word, read as a signed integer and clamped into [0, N − 1]. -/
theorem gather_col_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (colDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (colDims N E wf).start (ix1 e) idx 0 + (colDims N E wf).batchCoord (ix1 e) 0 + (colDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N E wf).startIndexMap from List.mem_singleton.mpr rfl)]
  have hsi : (colDims N E wf).siIdx (ix1 e) ⟨List.idxOf (0 : Fin 1) (colDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Lookup

/-! ## The host's stages, as functions of the edge array -/

section Stages
variable (A : IVec S2x2000 32)

/-- Row 0 of the edge array as a vector: every edge's source word. -/
def srcW : IVec S2000 32 :=
  shapeCast S2000 (extractStridedSlice S1x2000 ![0, 0] A slices_S2x2000_S1x2000_0_0) shapeCasts_S1x2000_S2000
/-- Row 1 of the edge array as a vector: every edge's destination word. -/
def dstW : IVec S2000 32 :=
  shapeCast S2000 (extractStridedSlice S1x2000 ![1, 0] A slices_S2x2000_S1x2000_1_0) shapeCasts_S1x2000_S2000

/-- A vector of zeros over the nodes. -/
def zero100 : FVec Ideal S100 .f32 := broadcastInDim S100 ![] bcast_S_S100 (constant (F := Ideal) S_ .f32 0x00000000#32)
/-- A vector of ones over the nodes. -/
def one100 : FVec Ideal S100 .f32 := broadcastInDim S100 ![] bcast_S_S100 (constant (F := Ideal) S_ .f32 0x3F800000#32)
/-- A vector of ones over the edges. -/
def one2000 : FVec Ideal S2000 .f32 := broadcastInDim S2000 ![] bcast_S_S2000 (constant (F := Ideal) S_ .f32 0x3F800000#32)

/-- A vector of index words as a one-column array. -/
def col (x : IVec S2000 32) : IVec S2000x1 32 := broadcastInDim S2000x1 ![0] bcast_S2000_S2000x1_0 x

/-- The wrap-around of negative index words: x + 100 where x < 0, x elsewhere. -/
def wrap (x : IVec S2000 32) : IVec S2000 32 :=
  select (cmpi .slt x (broadcastInDim S2000 ![] bcast_S_S2000 (constantI S_ 32 0#32)))
    (addi x (broadcastInDim S2000 ![] bcast_S_S2000 (constantI S_ 32 100#32))) x

/-- The degrees: a one added, per edge, to the entry its source word names. -/
def degV : FVec Ideal S100 .f32 :=
  Host.scatterAdd scatter_S100_S2000x1_S2000_n_0_0_1 zero100 (col (srcW A)) one2000

/-- deg ^ (-1/2) where the degree is positive, zero elsewhere. -/
def disV : FVec Ideal S100 .f32 :=
  select (cmpf .ogt (degV A) zero100) (Host.rsqrt (select (cmpf .ogt (degV A) zero100) (degV A) one100)) zero100

/-- The edge weights: minus the product of dis at the two end points. -/
def nrmV : FVec Ideal S2000 .f32 :=
  Host.negf (mulf (Host.gather gather_S100_S2000x1_S2000_n_0_n_n_0_1_1 (disV A) (col (wrap (srcW A))))
    (Host.gather gather_S100_S2000x1_S2000_n_0_n_n_0_1_1 (disV A) (col (wrap (dstW A)))))

/-- The pairs of index words: column 0 the destination, column 1 the source. -/
def idxV : IVec S2000x2 32 :=
  concatenate S2000x2 1 [⟨S2000x1, col (wrap (dstW A))⟩, ⟨S2000x1, col (wrap (srcW A))⟩] concatenates_S2000x1_S2000x1_S2000x2_d1

/-- The dense Laplacian: every edge's weight added into a zero matrix at (destination, source). -/
def lhatV : FVec Ideal S100x100 .f32 :=
  Host.scatterAdd scatter_S100x100_S2000x2_S2000_n_01_01_1
    (broadcastInDim S100x100 ![] bcast_S_S100x100 (constant (F := Ideal) S_ .f32 0x00000000#32)) (idxV A) (nrmV A)

/-! ### Each stage at an index -/

theorem srcW_apply (e : Fin 2000) : srcW A (ix1 e) = A (ix2 (0 : Fin 2) e) := by
  unfold srcW
  refine (shapeCast_1a_a_apply _ _ e).trans ?_
  exact slice2_axis0_apply 0 A _ (0 : Fin 1) e (0 : Fin 2) rfl

theorem dstW_apply (e : Fin 2000) : dstW A (ix1 e) = A (ix2 (1 : Fin 2) e) := by
  unfold dstW
  refine (shapeCast_1a_a_apply _ _ e).trans ?_
  exact slice2_axis0_apply 1 A _ (0 : Fin 1) e (1 : Fin 2) rfl

theorem zero100_apply (n : Fin 100) : zero100 (ix1 n) = 0 := by
  unfold zero100
  rw [broadcastInDim_scalar_apply, constant_apply, Ideal.ofBits_zero_f32]

theorem one100_apply (n : Fin 100) : one100 (ix1 n) = 1 := by
  unfold one100
  rw [broadcastInDim_scalar_apply, constant_apply, Ideal.ofBits_one_f32]

theorem one2000_apply (e : Fin 2000) : one2000 (ix1 e) = 1 := by
  unfold one2000
  rw [broadcastInDim_scalar_apply, constant_apply, Ideal.ofBits_one_f32]

theorem col_apply (x : IVec S2000 32) (e : Fin 2000) : col x (ix2 e (0 : Fin 1)) = x (ix1 e) := by
  unfold col
  exact broadcastInDim_apply _ _ x _ (ix1 e) (fun a => by match a with | ⟨0, _⟩ => rfl)

/-- On a word that is not negative the wrap-around changes nothing. -/
theorem wrap_apply (x : IVec S2000 32) (e : Fin 2000) (h : 0 ≤ (x (ix1 e)).toInt) : wrap x (ix1 e) = x (ix1 e) := by
  unfold wrap
  rw [select_apply]
  have hc : cmpi .slt x (broadcastInDim S2000 ![] bcast_S_S2000 (constantI S_ 32 0#32)) (ix1 e) = 0#1 := by
    show IntOp.cmpi .slt (x (ix1 e)) (broadcastInDim S2000 ![] bcast_S_S2000 (constantI S_ 32 0#32) (ix1 e)) = 0#1
    rw [broadcastInDim_scalar_apply, constantI_apply]
    show BitVec.ofBool ((x (ix1 e)).slt 0#32) = 0#1
    have hs : (x (ix1 e)).slt 0#32 = false := by
      unfold BitVec.slt
      rw [BitVec.toInt_zero]
      exact decide_eq_false (by omega)
    rw [hs]; rfl
  rw [hc, select_zero]

end Stages

/-! ## The stages' values when the index words are node numbers -/

section Values
variable (A : IVec S2x2000 32) (src dst : Fin 2000 → Fin 100)

/-- A word that is a natural number below 100 names that node. -/
theorem word_eq_iff (x : BitVec 32) (k n : Fin 100) (hx : x.toInt = ((k : ℕ) : ℤ)) : x.toInt = ((n : ℕ) : ℤ) ↔ k = n := by
  rw [hx]; exact Int.natCast_inj.trans Fin.val_inj

/-- The degree of node n counts the edges whose source is n. -/
theorem degV_apply (hs : ∀ e : Fin 2000, (A (ix2 (0 : Fin 2) e)).toInt = ((src e : ℕ) : ℤ)) (n : Fin 100) :
    degV A (ix1 n) = Cheb.deg src n := by
  unfold degV Cheb.deg
  refine (Cert.SegmentSum.hostVecScatterAdd_apply scatter_S100_S2000x1_S2000_n_0_0_1_wf _ rfl _ _ _ n).trans ?_
  rw [zero100_apply]
  congr 1
  refine Finset.sum_congr rfl fun e _ => ?_
  rw [col_apply, srcW_apply, one2000_apply]
  exact if_congr (word_eq_iff _ (src e) n (hs e)) rfl rfl

theorem disV_apply (hs : ∀ e : Fin 2000, (A (ix2 (0 : Fin 2) e)).toInt = ((src e : ℕ) : ℤ)) (n : Fin 100) :
    disV A (ix1 n) = Cheb.dis src n := by
  unfold Cheb.dis
  show Scalar.select (Ideal.cmp .ogt (degV A (ix1 n)) (zero100 (ix1 n)))
      (Ideal.rsqrt (Scalar.select (Ideal.cmp .ogt (degV A (ix1 n)) (zero100 (ix1 n))) (degV A (ix1 n)) (one100 (ix1 n))))
      (zero100 (ix1 n)) = _
  rw [degV_apply A src hs n, zero100_apply, one100_apply]

/-- A look-up at the wrapped words of a vector of node numbers reads the named node's entry. -/
theorem lookup_apply (f : FVec Ideal S100 .f32) (x : IVec S2000 32) (e : Fin 2000) (k : Fin 100)
    (hx : (x (ix1 e)).toInt = ((k : ℕ) : ℤ)) :
    Host.gather gather_S100_S2000x1_S2000_n_0_n_n_0_1_1 f (col (wrap x)) (ix1 e) = f (ix1 k) := by
  have hw : (col (wrap x) (ix2 e (0 : Fin 1))).toInt = ((k : ℕ) : ℤ) := by
    rw [col_apply, wrap_apply x e (by rw [hx]; omega), hx]
  refine (gather_col_apply (N := 100) (E := 2000) (by decide) gather_S100_S2000x1_S2000_n_0_n_n_0_1_1_wf f (col (wrap x)) e).trans ?_
  refine congrArg f (congrArg ix1 (Fin.ext ?_))
  show min (col (wrap x) (ix2 e (0 : Fin 1))).toInt.toNat (100 - 1) = k.val
  rw [hw]
  have := k.isLt
  omega

theorem nrmV_apply (hs : ∀ e : Fin 2000, (A (ix2 (0 : Fin 2) e)).toInt = ((src e : ℕ) : ℤ))
    (hd : ∀ e : Fin 2000, (A (ix2 (1 : Fin 2) e)).toInt = ((dst e : ℕ) : ℤ)) (e : Fin 2000) :
    nrmV A (ix1 e) = Cheb.nrm src dst e := by
  unfold Cheb.nrm
  show -(Host.gather gather_S100_S2000x1_S2000_n_0_n_n_0_1_1 (disV A) (col (wrap (srcW A))) (ix1 e)
      * Host.gather gather_S100_S2000x1_S2000_n_0_n_n_0_1_1 (disV A) (col (wrap (dstW A))) (ix1 e)) = _
  rw [lookup_apply (disV A) (srcW A) e (src e) (by rw [srcW_apply]; exact hs e),
    lookup_apply (disV A) (dstW A) e (dst e) (by rw [dstW_apply]; exact hd e),
    disV_apply A src hs, disV_apply A src hs]

theorem idxV_apply0 (e : Fin 2000) (h : 0 ≤ (dstW A (ix1 e)).toInt) : idxV A (ix2 e (0 : Fin 2)) = dstW A (ix1 e) := by
  unfold idxV
  refine (concatenate_pair_apply_left _ _ _ concatenates_S2000x1_S2000x1_S2000x2_d1 (ix2 e (0 : Fin 2)) rfl (ix2 e (0 : Fin 1))
    (fun b => by match b with | ⟨0, _⟩ => rfl | ⟨1, _⟩ => rfl)).trans ?_
  rw [col_apply, wrap_apply _ _ h]

theorem idxV_apply1 (e : Fin 2000) (h : 0 ≤ (srcW A (ix1 e)).toInt) : idxV A (ix2 e (1 : Fin 2)) = srcW A (ix1 e) := by
  unfold idxV
  refine (concatenate_pair_apply_right _ _ _ concatenates_S2000x1_S2000x1_S2000x2_d1 (ix2 e (1 : Fin 2)) rfl rfl (ix2 e (0 : Fin 1))
    (fun b hb => ?_) rfl).trans ?_
  · match b with
    | ⟨0, _⟩ => rfl
    | ⟨1, _⟩ => exact absurd rfl hb
  · rw [col_apply, wrap_apply _ _ h]

/-- Entry (d, s) of the dense Laplacian is the summed weight of the edges from s to d. -/
theorem lhatV_apply (hs : ∀ e : Fin 2000, (A (ix2 (0 : Fin 2) e)).toInt = ((src e : ℕ) : ℤ))
    (hd : ∀ e : Fin 2000, (A (ix2 (1 : Fin 2) e)).toInt = ((dst e : ℕ) : ℤ)) (d s : Fin 100) :
    lhatV A (ix2 d s) = Cheb.lhat src dst (Cheb.nrm src dst) d s := by
  unfold lhatV Cheb.lhat
  refine (Cert.PairScatter.hostPairScatterAdd_apply scatter_S100x100_S2000x2_S2000_n_01_01_1_wf _ rfl _ _ _ d s).trans ?_
  rw [broadcastInDim_scalar_apply, constant_apply, Ideal.ofBits_zero_f32]
  congr 1
  refine Finset.sum_congr rfl fun e _ => ?_
  have h0 : 0 ≤ (dstW A (ix1 e)).toInt := by rw [dstW_apply, hd e]; omega
  have h1 : 0 ≤ (srcW A (ix1 e)).toInt := by rw [srcW_apply, hs e]; omega
  rw [idxV_apply0 A e h0, idxV_apply1 A e h1, dstW_apply, srcW_apply, nrmV_apply A src dst hs hd e]
  exact if_congr (and_congr (word_eq_iff _ (dst e) d (hd e)) (word_eq_iff _ (src e) s (hs e))) rfl rfl

end Values

/-! ## What the kernel is launched on -/

variable (m : (ℓ : Loc nD τ sig) → Buf (Elt Ideal) ℓ) (c : Dev nD)

/-- What the device's buffers hold when the kernel is launched: the launch contents after every host operation
    that stands before it. -/
abbrev PRE : Valuation τ sig (Elt Ideal) :=
  StableHlo.after (List.flatten [hostOps0, hostOps0_1, hostOps0_2, hostOps0_3, hostOps0_4]) (fun b => m (c, b))

/-- The kernel's first operand is the stages above composed, applied to the edge array as launched. -/
theorem main_v45_eq :
    (PRE m c (Proc.devRef .tc main_v45) : S100x100.Idx → EReal) = lhatV (m ((c.tc : Thread nD τ).loc main_arg1)) := by
  show StableHlo.after (List.flatten [hostOps0, hostOps0_1, hostOps0_2, hostOps0_3, hostOps0_4]) (fun b => m (c, b))
    (Proc.devRef .tc main_v45) = _
  simp only [hostOps0, hostOps0_1, hostOps0_2, hostOps0_3, hostOps0_4, List.flatten_cons, List.flatten_nil, List.append_nil,
    List.cons_append, List.nil_append]
  after_results_simp
  rfl

/-- The kernel's first operand is the specification's dense Laplacian of the graph the edge array spells. -/
theorem lhat_eq (src dst : Fin 2000 → Fin 100)
    (hs : ∀ e : Fin 2000, ((m ((c.tc : Thread nD τ).loc main_arg1) : S2x2000.Idx → BitVec 32) (ix2 (0 : Fin 2) e)).toInt = ((src e : ℕ) : ℤ))
    (hd : ∀ e : Fin 2000, ((m ((c.tc : Thread nD τ).loc main_arg1) : S2x2000.Idx → BitVec 32) (ix2 (1 : Fin 2) e)).toInt = ((dst e : ℕ) : ℤ)) :
    (PRE m c (Proc.devRef .tc main_v45) : S100x100.Idx → EReal)
      = fun i => Cheb.lhat src dst (Cheb.nrm src dst) (i 0) (i 1) := by
  funext i
  obtain ⟨d, s, rfl⟩ : ∃ (d s : Fin 100), i = ix2 d s := ⟨i 0, i 1, eq_ix2 i⟩
  exact (congrFun (main_v45_eq m c) (ix2 d s)).trans (lhatV_apply _ src dst hs hd d s)

/-- No host operation before the launch writes the feature array: the kernel finds it as launched. -/
theorem pre_arg0 : PRE m c (Proc.devRef .tc main_arg0) = m ((c.tc : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- Nor the first weight stack. -/
theorem pre_arg5 : PRE m c (Proc.devRef .tc main_arg5) = m ((c.tc : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- Nor the second. -/
theorem pre_arg7 : PRE m c (Proc.devRef .tc main_arg7) = m ((c.tc : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.HostValue

end
-- ==== Proof.KI.HostTail.lean ====
/-
  The two outputs as functions of what the kernel leaves in its two result arrays.

  After the kernel the host does the same thing twice, once per result array R (2 halves × 100 nodes × 60 channels):
  the two halves are added up from zero, the channel bias is added, tanh is applied, the 100 × 60 embedding is laid out row by
  row as 6000 entries, three scalars are appended, and a linear head (a 6003-term inner product with each column of a weight
  matrix, plus a bias) reads the resulting state vector.  The first head has 100 outputs, the second one.

  Entry (n, k) of the embedding is tanh ((0 + R(0, n, k) + R(1, n, k)) + b k); entry j of the state vector is embedding entry
  (j / 60, j % 60) for j < 6000 and the three scalars at 6000, 6001, 6002; an output is the sum over j of state j times the weight
  at (j, output), plus the bias: the specification's out.
-/
import proofs.«136048_j27848567947758_2_alg».proof.Proof.Gen.KernelIdeal.Launch
import proofs.«136048_j27848567947758_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HostValue

open Idealize.ShloMosaic Idealize.ShloMosaic.TcCoe Idealize.ShloMosaic.ValueIdx
open Cert.KernelIdeal Cert.KernelIdeal.Gen
open scoped BigOperators

/-! ## The host's stages after the kernel, as functions of a result array and the parameters -/

section Stages
variable (R : FVec Ideal S2x100x60 .f32) (b : FVec Ideal S60 .f32) (v1 v2 v3 : FVec Ideal S1 .f32)

/-- The embedding: the two halves added up from zero, plus the channel bias, through tanh. -/
def embT : FVec Ideal S100x60 .f32 :=
  Host.tanh (addf (Host.reduceAdd R (constant (F := Ideal) S_ .f32 0x00000000#32) reducesTo_S2x100x60_S100x60_d0 h_S_)
    (broadcastInDim S100x60 ![0, 1] bcast_S1x60_S100x60_0_1 (broadcastInDim S1x60 ![1] bcast_S60_S1x60_1 b)))

/-- A scalar as a 1 × 1 array. -/
def cell (v : FVec Ideal S1 .f32) : FVec Ideal S1x1 .f32 := broadcastInDim S1x1 ![1] bcast_S1_S1x1_1 v

/-- The state vector as a 1 × 6003 array: the embedding row by row, then the three scalars. -/
def stateT : FVec Ideal S1x6003 .f32 :=
  concatenate S1x6003 1
    [⟨S1x6000, shapeCast S1x6000 (embT R b) shapeCasts_S100x60_S1x6000⟩, ⟨S1x1, cell v1⟩, ⟨S1x1, cell v2⟩, ⟨S1x1, cell v3⟩]
    concatenates_S1x6000_S1x1_S1x1_S1x1_S1x6003_d1

/-- The head with 100 outputs. -/
def logitsT (W : FVec Ideal S6003x100 .f32) (bias : FVec Ideal S100 .f32) : FVec Ideal S1x100 .f32 :=
  addf (Host.dotGeneral dot_S1x6003_S6003x100_S1x100_1_0_0_1_n_n none (stateT R b v1 v2 v3) W)
    (broadcastInDim S1x100 ![1] bcast_S100_S1x100_1 bias)

/-- The head with one output. -/
def valuesT (W : FVec Ideal S6003x1 .f32) (bias : FVec Ideal S1 .f32) : FVec Ideal S1x1 .f32 :=
  addf (Host.dotGeneral dot_S1x6003_S6003x1_S1x1_1_0_0_1_n_n none (stateT R b v1 v2 v3) W)
    (broadcastInDim S1x1 ![1] bcast_S1_S1x1_1 bias)

/-! ### Each stage at an index -/

/-- The two halves added up from zero. -/
theorem halves_apply (n : Fin 100) (k : Fin 60) :
    Host.reduceAdd R (constant (F := Ideal) S_ .f32 0x00000000#32) reducesTo_S2x100x60_S100x60_d0 h_S_ (ix2 n k)
      = (0 : EReal) + ∑ q : Fin 2, R (ix3 q n k) := by
  rw [hostReduceAdd_apply]
  refine (Ideal.hostReduceAdd_single reducesTo_S2x100x60_S100x60_d0 (by decide : S2x100x60.Reduces [0] S100x60) R _ (ix2 n k)).trans ?_
  rw [constant_apply, Ideal.ofBits_zero_f32]
  refine congrArg (fun z => (0 : EReal) + z) ?_
  exact Finset.sum_congr rfl fun q _ => congrArg R (funext fun a => Fin.ext (by
    match a with
    | ⟨0, _⟩ => rfl
    | ⟨1, _⟩ => rfl
    | ⟨2, _⟩ => rfl))

/-- The channel bias spread over the nodes. -/
theorem bias_apply (n : Fin 100) (k : Fin 60) :
    broadcastInDim S100x60 ![0, 1] bcast_S1x60_S100x60_0_1 (broadcastInDim S1x60 ![1] bcast_S60_S1x60_1 b) (ix2 n k) = b (ix1 k) := by
  refine (broadcastInDim_apply _ _ _ (ix2 n k) (ix2 (0 : Fin 1) k) (fun a => by
    match a with
    | ⟨0, _⟩ => rfl
    | ⟨1, _⟩ => rfl)).trans ?_
  exact broadcastInDim_apply _ _ b _ (ix1 k) (fun a => by match a with | ⟨0, _⟩ => rfl)

theorem embT_apply (n : Fin 100) (k : Fin 60) :
    embT R b (ix2 n k) = Ideal.tanh (((0 : EReal) + ∑ q : Fin 2, R (ix3 q n k)) + b (ix1 k)) := by
  show Ideal.tanh (Host.reduceAdd R (constant (F := Ideal) S_ .f32 0x00000000#32) reducesTo_S2x100x60_S100x60_d0 h_S_ (ix2 n k)
    + broadcastInDim S100x60 ![0, 1] bcast_S1x60_S100x60_0_1 (broadcastInDim S1x60 ![1] bcast_S60_S1x60_1 b) (ix2 n k)) = _
  rw [halves_apply, bias_apply]

theorem cell_apply (v : FVec Ideal S1 .f32) : cell v (ix2 (0 : Fin 1) (0 : Fin 1)) = v (ix1 (0 : Fin 1)) := by
  unfold cell
  exact broadcastInDim_apply _ _ v _ (ix1 (0 : Fin 1)) (fun a => by match a with | ⟨0, _⟩ => rfl)

/-- Entry j of the state vector. -/
theorem stateT_apply (j : Fin 6003) :
    stateT R b v1 v2 v3 (ix2 (0 : Fin 1) j)
      = Cheb.state (fun n k => Ideal.tanh (((0 : EReal) + ∑ q : Fin 2, R (ix3 q n k)) + b (ix1 k)))
          (v1 (ix1 (0 : Fin 1))) (v2 (ix1 (0 : Fin 1))) (v3 (ix1 (0 : Fin 1))) j := by
  have hj := j.isLt
  unfold Cheb.state stateT
  by_cases h0 : j.val < 6000
  · rw [dif_pos h0]
    refine (concatenate_apply_piece _ _ _ (ix2 (0 : Fin 1) j) 0 (by simp) S1x6000 _ rfl rfl 0 rfl
      (ix2 (0 : Fin 1) (⟨j.val, h0⟩ : Fin 6000)) (fun a ha => ?_) ?_).trans ?_
    · match a with
      | ⟨0, _⟩ => rfl
      | ⟨1, _⟩ => exact absurd rfl ha
    · show 0 + j.val = j.val
      omega
    · refine (shapeCast_apply (embT R b) _ _ (ix2 (⟨j.val / 60, by omega⟩ : Fin 100) (⟨j.val % 60, Nat.mod_lt _ (by omega)⟩ : Fin 60)) ?_).trans
        (embT_apply R b _ _)
      rw [Shape.rowMajor_val_two, Shape.rowMajor_val_two]
      show j.val / 60 * 60 + j.val % 60 = 0 * 6000 + j.val
      omega
  · rw [dif_neg h0]
    by_cases h1 : j.val = 6000
    · rw [if_pos h1]
      refine (concatenate_apply_piece _ _ _ (ix2 (0 : Fin 1) j) 1 (by simp) S1x1 _ rfl rfl 6000 rfl
        (ix2 (0 : Fin 1) (0 : Fin 1)) (fun a ha => ?_) ?_).trans (cell_apply v1)
      · match a with
        | ⟨0, _⟩ => rfl
        | ⟨1, _⟩ => exact absurd rfl ha
      · show 6000 + 0 = j.val
        omega
    · rw [if_neg h1]
      by_cases h2 : j.val = 6001
      · rw [if_pos h2]
        refine (concatenate_apply_piece _ _ _ (ix2 (0 : Fin 1) j) 2 (by simp) S1x1 _ rfl rfl 6001 rfl
          (ix2 (0 : Fin 1) (0 : Fin 1)) (fun a ha => ?_) ?_).trans (cell_apply v2)
        · match a with
          | ⟨0, _⟩ => rfl
          | ⟨1, _⟩ => exact absurd rfl ha
        · show 6001 + 0 = j.val
          omega
      · rw [if_neg h2]
        refine (concatenate_apply_piece _ _ _ (ix2 (0 : Fin 1) j) 3 (by simp) S1x1 _ rfl rfl 6002 rfl
          (ix2 (0 : Fin 1) (0 : Fin 1)) (fun a ha => ?_) ?_).trans (cell_apply v3)
        · match a with
          | ⟨0, _⟩ => rfl
          | ⟨1, _⟩ => exact absurd rfl ha
        · show 6002 + 0 = j.val
          omega

end Stages

/-! ## The two linear heads -/

section Heads

/-- On its second axis the weight matrix is read at the output's column. -/
theorem rhs100_col (j : S1x100.Idx) (q : dot_S1x6003_S6003x100_S1x100_1_0_0_1_n_n.contr.Idx) :
    (dot_S1x6003_S6003x100_S1x100_1_0_0_1_n_n.rhsIdx j q 1).val = (j 1).val := by
  unfold DotDims.rhsIdx
  rw [dif_neg (show ¬(1 : Fin S6003x100.rank) ∈ dot_S1x6003_S6003x100_S1x100_1_0_0_1_n_n.rhsBatch by decide),
    dif_pos (show (1 : Fin S6003x100.rank) ∈ dot_S1x6003_S6003x100_S1x100_1_0_0_1_n_n.rhsNonContracting by decide)]
  rfl

/-- The 100-output inner product at output o: the sum over the 6003 state entries of entry times weight. -/
theorem dot100_apply (st : FVec Ideal S1x6003 .f32) (W : FVec Ideal S6003x100 .f32) (o : Fin 100) :
    Host.dotGeneral dot_S1x6003_S6003x100_S1x100_1_0_0_1_n_n none st W (ix2 (0 : Fin 1) o)
      = ∑ j : Fin 6003, st (ix2 (0 : Fin 1) j) * W (ix2 j o) := by
  simp only [Host.dotGeneral]
  rw [Ideal.dotGeneral_apply, ← Equiv.sum_comp (contrEquiv1 dot_S1x6003_S6003x100_S1x100_1_0_0_1_n_n 6003 rfl rfl).symm]
  refine Finset.sum_congr rfl fun k _ => ?_
  have hk := contrEquiv1_symm_val dot_S1x6003_S6003x100_S1x100_1_0_0_1_n_n 6003 rfl rfl k
  have el : dot_S1x6003_S6003x100_S1x100_1_0_0_1_n_n.lhsIdx (ix2 (0 : Fin 1) o)
      ((contrEquiv1 dot_S1x6003_S6003x100_S1x100_1_0_0_1_n_n 6003 rfl rfl).symm k) = ix2 (0 : Fin 1) k :=
    funext fun a => Fin.ext (by
      match a with
      | ⟨0, _⟩ =>
        have h : (dot_S1x6003_S6003x100_S1x100_1_0_0_1_n_n.lhsIdx (ix2 (0 : Fin 1) o)
          ((contrEquiv1 dot_S1x6003_S6003x100_S1x100_1_0_0_1_n_n 6003 rfl rfl).symm k) ⟨0, by decide⟩).val < 1 := Fin.isLt _
        show _ = 0
        omega
      | ⟨1, _⟩ => exact (dot_S1x6003_S6003x100_S1x100_1_0_0_1_n_n.lhsIdx_val_of_single rfl _ _).trans hk)
  have er : dot_S1x6003_S6003x100_S1x100_1_0_0_1_n_n.rhsIdx (ix2 (0 : Fin 1) o)
      ((contrEquiv1 dot_S1x6003_S6003x100_S1x100_1_0_0_1_n_n 6003 rfl rfl).symm k) = ix2 k o :=
    funext fun a => Fin.ext (by
      match a with
      | ⟨0, _⟩ => exact (dot_S1x6003_S6003x100_S1x100_1_0_0_1_n_n.rhsIdx_val_of_single rfl _ _).trans hk
      | ⟨1, _⟩ => exact rhs100_col _ _)
  rw [el, er]

/-- The one-output inner product: the same sum against the one weight column. -/
theorem dot1_apply (st : FVec Ideal S1x6003 .f32) (W : FVec Ideal S6003x1 .f32) :
    Host.dotGeneral dot_S1x6003_S6003x1_S1x1_1_0_0_1_n_n none st W (ix2 (0 : Fin 1) (0 : Fin 1))
      = ∑ j : Fin 6003, st (ix2 (0 : Fin 1) j) * W (ix2 j (0 : Fin 1)) := by
  simp only [Host.dotGeneral]
  rw [Ideal.dotGeneral_apply, ← Equiv.sum_comp (contrEquiv1 dot_S1x6003_S6003x1_S1x1_1_0_0_1_n_n 6003 rfl rfl).symm]
  refine Finset.sum_congr rfl fun k _ => ?_
  have hk := contrEquiv1_symm_val dot_S1x6003_S6003x1_S1x1_1_0_0_1_n_n 6003 rfl rfl k
  have el : dot_S1x6003_S6003x1_S1x1_1_0_0_1_n_n.lhsIdx (ix2 (0 : Fin 1) (0 : Fin 1))
      ((contrEquiv1 dot_S1x6003_S6003x1_S1x1_1_0_0_1_n_n 6003 rfl rfl).symm k) = ix2 (0 : Fin 1) k :=
    funext fun a => Fin.ext (by
      match a with
      | ⟨0, _⟩ =>
        have h : (dot_S1x6003_S6003x1_S1x1_1_0_0_1_n_n.lhsIdx (ix2 (0 : Fin 1) (0 : Fin 1))
          ((contrEquiv1 dot_S1x6003_S6003x1_S1x1_1_0_0_1_n_n 6003 rfl rfl).symm k) ⟨0, by decide⟩).val < 1 := Fin.isLt _
        show _ = 0
        omega
      | ⟨1, _⟩ => exact (dot_S1x6003_S6003x1_S1x1_1_0_0_1_n_n.lhsIdx_val_of_single rfl _ _).trans hk)
  have er : dot_S1x6003_S6003x1_S1x1_1_0_0_1_n_n.rhsIdx (ix2 (0 : Fin 1) (0 : Fin 1))
      ((contrEquiv1 dot_S1x6003_S6003x1_S1x1_1_0_0_1_n_n 6003 rfl rfl).symm k) = ix2 k (0 : Fin 1) :=
    funext fun a => Fin.ext (by
      match a with
      | ⟨0, _⟩ => exact (dot_S1x6003_S6003x1_S1x1_1_0_0_1_n_n.rhsIdx_val_of_single rfl _ _).trans hk
      | ⟨1, _⟩ =>
        have h : (dot_S1x6003_S6003x1_S1x1_1_0_0_1_n_n.rhsIdx (ix2 (0 : Fin 1) (0 : Fin 1))
          ((contrEquiv1 dot_S1x6003_S6003x1_S1x1_1_0_0_1_n_n 6003 rfl rfl).symm k) ⟨1, by decide⟩).val < 1 := Fin.isLt _
        show _ = 0
        omega)
  rw [el, er]

variable (R : FVec Ideal S2x100x60 .f32) (b : FVec Ideal S60 .f32) (v1 v2 v3 : FVec Ideal S1 .f32)

/-- Output o of the first head is the specification's output for the convolution the result array spells. -/
theorem logitsT_apply (W : FVec Ideal S6003x100 .f32) (bias : FVec Ideal S100 .f32) (o : Fin 100) :
    logitsT R b v1 v2 v3 W bias (ix2 (0 : Fin 1) o)
      = Cheb.out (fun n k => ((0 : EReal) + ∑ q : Fin 2, R (ix3 q n k)) + b (ix1 k))
          (v1 (ix1 (0 : Fin 1))) (v2 (ix1 (0 : Fin 1))) (v3 (ix1 (0 : Fin 1))) (fun j => W (ix2 j o)) (bias (ix1 o)) := by
  unfold Cheb.out Cheb.head
  show Host.dotGeneral dot_S1x6003_S6003x100_S1x100_1_0_0_1_n_n none (stateT R b v1 v2 v3) W (ix2 (0 : Fin 1) o)
    + broadcastInDim S1x100 ![1] bcast_S100_S1x100_1 bias (ix2 (0 : Fin 1) o) = _
  rw [dot100_apply]
  refine congrArg₂ (· + ·) (Finset.sum_congr rfl fun j _ => ?_) ?_
  · rw [stateT_apply]
  · exact broadcastInDim_apply _ _ bias _ (ix1 o) (fun a => by match a with | ⟨0, _⟩ => rfl)

/-- The second head's one output likewise. -/
theorem valuesT_apply (W : FVec Ideal S6003x1 .f32) (bias : FVec Ideal S1 .f32) :
    valuesT R b v1 v2 v3 W bias (ix2 (0 : Fin 1) (0 : Fin 1))
      = Cheb.out (fun n k => ((0 : EReal) + ∑ q : Fin 2, R (ix3 q n k)) + b (ix1 k))
          (v1 (ix1 (0 : Fin 1))) (v2 (ix1 (0 : Fin 1))) (v3 (ix1 (0 : Fin 1))) (fun j => W (ix2 j (0 : Fin 1)))
          (bias (ix1 (0 : Fin 1))) := by
  unfold Cheb.out Cheb.head
  show Host.dotGeneral dot_S1x6003_S6003x1_S1x1_1_0_0_1_n_n none (stateT R b v1 v2 v3) W (ix2 (0 : Fin 1) (0 : Fin 1))
    + broadcastInDim S1x1 ![1] bcast_S1_S1x1_1 bias (ix2 (0 : Fin 1) (0 : Fin 1)) = _
  rw [dot1_apply]
  refine congrArg₂ (· + ·) (Finset.sum_congr rfl fun j _ => ?_) ?_
  · rw [stateT_apply]
  · exact cell_apply bias

end Heads

/-! ## The tail over any contents of the buffers -/

variable (Vt : Valuation τ sig (Elt Ideal))

/-- The first output buffer after the tail is the first head applied to the first result array and the parameters. -/
theorem main_v66_eq :
    (StableHlo.after hostOps1 Vt (Proc.devRef .tc main_v66) : S1x100.Idx → EReal)
      = logitsT (Vt (Proc.devRef .tc main_v46_0)) (Vt (Proc.devRef .tc main_arg6)) (Vt (Proc.devRef .tc main_arg2))
          (Vt (Proc.devRef .tc main_arg3)) (Vt (Proc.devRef .tc main_arg4)) (Vt (Proc.devRef .tc main_arg9))
          (Vt (Proc.devRef .tc main_arg10)) := by
  show StableHlo.after hostOps1 Vt (Proc.devRef .tc main_v66) = _
  simp only [hostOps1]
  after_results_simp
  rfl

/-- The second output buffer after the tail is the second head applied to the second result array and the parameters. -/
theorem main_v69_eq :
    (StableHlo.after hostOps1 Vt (Proc.devRef .tc main_v69) : S1x1.Idx → EReal)
      = valuesT (Vt (Proc.devRef .tc main_v46_1)) (Vt (Proc.devRef .tc main_arg8)) (Vt (Proc.devRef .tc main_arg2))
          (Vt (Proc.devRef .tc main_arg3)) (Vt (Proc.devRef .tc main_arg4)) (Vt (Proc.devRef .tc main_arg11))
          (Vt (Proc.devRef .tc main_arg12)) := by
  show StableHlo.after hostOps1 Vt (Proc.devRef .tc main_v69) = _
  simp only [hostOps1]
  after_results_simp
  rfl

theorem tail_logits :
    (StableHlo.after hostOps1 Vt (Proc.devRef .tc main_v66) : S1x100.Idx → EReal) = fun i =>
      Cheb.out
        (fun n k => ((0 : EReal) + (∑ q : Fin 2, (Vt (Proc.devRef .tc main_v46_0) : S2x100x60.Idx → EReal) (ix3 q n k) : EReal))
          + (Vt (Proc.devRef .tc main_arg6) : S60.Idx → EReal) (ix1 k))
        ((Vt (Proc.devRef .tc main_arg2) : S1.Idx → EReal) (ix1 (0 : Fin 1)))
        ((Vt (Proc.devRef .tc main_arg3) : S1.Idx → EReal) (ix1 (0 : Fin 1)))
        ((Vt (Proc.devRef .tc main_arg4) : S1.Idx → EReal) (ix1 (0 : Fin 1)))
        (fun j => (Vt (Proc.devRef .tc main_arg9) : S6003x100.Idx → EReal) (ix2 j (i 1)))
        ((Vt (Proc.devRef .tc main_arg10) : S100.Idx → EReal) (ix1 (i 1))) := by
  funext i
  obtain ⟨u, o, rfl⟩ : ∃ (u : Fin 1) (o : Fin 100), i = ix2 u o := ⟨i 0, i 1, eq_ix2 i⟩
  obtain rfl : u = 0 := Subsingleton.elim _ _
  exact (congrFun (main_v66_eq Vt) (ix2 (0 : Fin 1) o)).trans (logitsT_apply _ _ _ _ _ _ _ o)

theorem tail_values :
    (StableHlo.after hostOps1 Vt (Proc.devRef .tc main_v69) : S1x1.Idx → EReal) = fun i =>
      Cheb.out
        (fun n k => ((0 : EReal) + (∑ q : Fin 2, (Vt (Proc.devRef .tc main_v46_1) : S2x100x60.Idx → EReal) (ix3 q n k) : EReal))
          + (Vt (Proc.devRef .tc main_arg8) : S60.Idx → EReal) (ix1 k))
        ((Vt (Proc.devRef .tc main_arg2) : S1.Idx → EReal) (ix1 (0 : Fin 1)))
        ((Vt (Proc.devRef .tc main_arg3) : S1.Idx → EReal) (ix1 (0 : Fin 1)))
        ((Vt (Proc.devRef .tc main_arg4) : S1.Idx → EReal) (ix1 (0 : Fin 1)))
        (fun j => (Vt (Proc.devRef .tc main_arg11) : S6003x1.Idx → EReal) (ix2 j (i 1)))
        ((Vt (Proc.devRef .tc main_arg12) : S1.Idx → EReal) (ix1 (i 1))) := by
  funext i
  obtain ⟨u, o, rfl⟩ : ∃ (u : Fin 1) (o : Fin 1), i = ix2 u o := ⟨i 0, i 1, eq_ix2 i⟩
  obtain rfl : u = 0 := Subsingleton.elim _ _
  obtain rfl : o = 0 := Subsingleton.elim _ _
  exact (congrFun (main_v69_eq Vt) (ix2 (0 : Fin 1) (0 : Fin 1))).trans (valuesT_apply _ _ _ _ _ _ _)

end Cert.KernelIdeal.HostValue

end
-- ==== Proof.KI.Value.lean ====
/-
  The value of the kernel program's run.

  The program is: the host builds the dense Laplacian; the kernel, over its 2 × 16 grid, accumulates for each of two weight
  families the convolution's 16 runs of each half and writes each half's total into one slab of a 2 × 100 × 60 result array;
  the host adds the two slabs up from zero, adds the bias, applies tanh and the linear head.  Read together: each output is the
  specification's out of the run-by-run convolution convKer, at the Laplacian lhat of the graph the edge array spells, the
  features, the family's weights and bias, the three scalars and the head's weights as they were launched; and the thirteen
  argument arrays end as launched.

  Entry (q, n, k) of a result array is entry (0, n, k) of what the last point of half q, point 16 q + 15, left in the output's
  staging buffer, and that is what half q has accumulated after its last run.
-/
import proofs.«136048_j27848567947758_2_alg».proof.Proof.KI.Frame
import proofs.«136048_j27848567947758_2_alg».proof.Proof.KI.OutArrays
import proofs.«136048_j27848567947758_2_alg».proof.Proof.KI.AccValue
import proofs.«136048_j27848567947758_2_alg».proof.Proof.KI.HostPrefix
import proofs.«136048_j27848567947758_2_alg».proof.Proof.KI.HostTail

set_option maxRecDepth 16384

noncomputable section

namespace Cert.KernelIdeal.KValue

open Cert.KernelIdeal Cert.KernelIdeal.Gen Cert.KernelIdeal.GenH Cert.KernelIdeal.HostValue
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

/-! ## What the kernel is launched on -/

/-- The Laplacian the kernel finds is the specification's, of the graph the edge array spells. -/
theorem Lm_spec (c : Dev nD) (src dst : Fin 2000 → Fin 100)
    (hs : ∀ e : Fin 2000, ((m ((c.tc : Thread nD τ).loc main_arg1) : S2x2000.Idx → BitVec 32) (ix2 (0 : Fin 2) e)).toInt = ((src e : ℕ) : ℤ))
    (hd : ∀ e : Fin 2000, ((m ((c.tc : Thread nD τ).loc main_arg1) : S2x2000.Idx → BitVec 32) (ix2 (1 : Fin 2) e)).toInt = ((dst e : ℕ) : ℤ)) :
    Lm m c = Cheb.lhat src dst (Cheb.nrm src dst) := by
  funext n s
  exact congrFun (lhat_eq m c src dst hs hd) (ix2 n s)

/-- The features the kernel finds are the launched ones. -/
theorem Xm_launched (c : Dev nD) : Xm m c = fun n f => (m ((c.tc : Thread nD τ).loc main_arg0) : S1x100x65536.Idx → EReal) (ix3 (0 : Fin 1) n f) := by
  funext n f
  exact congrFun (V_main_arg0 m c) (ix3 (0 : Fin 1) n f)

/-- So is the first weight family, -/
theorem WAm_launched (c : Dev nD) : WAm m c = fun t f k => (m ((c.tc : Thread nD τ).loc main_arg5) : S3x65536x60.Idx → EReal) (ix3 t f k) := by
  funext t f k
  exact congrFun (V_main_arg5 m c) (ix3 t f k)

/-- and the second. -/
theorem WCm_launched (c : Dev nD) : WCm m c = fun t f k => (m ((c.tc : Thread nD τ).loc main_arg7) : S3x65536x60.Idx → EReal) (ix3 t f k) := by
  funext t f k
  exact congrFun (V_main_arg7 m c) (ix3 t f k)

/-! ## A result array, entry by entry -/

/-- Entry (q, n, k) of the first result array is what half q has accumulated, in the first family, after its last run. -/
theorem arr4_entry (c : Dev nD) (q : Fin 2) (n : Fin 100) (k : Fin 60) :
    ((dats m 0 c).arrAt 4 cfg0.N : S2x100x60.Idx → EReal) (ix3 q n k)
      = Cheb.accum (Lm m c) (Xm m c) (WAm m c) q n k 15 (by decide) := by
  have hq := q.isLt
  refine (congrFun (out4_final m c) (ix3 q n k)).trans ?_
  refine ((out_value m c ⟨q.val * 16 + 15, lastPt_lt q⟩ (by show (q.val * 16 + 15) % 16 = 15; omega) n k).1).trans ?_
  exact congrArg (fun z : Fin 2 => Cheb.accum (Lm m c) (Xm m c) (WAm m c) z n k 15 (by decide))
    (Fin.ext (by show (q.val * 16 + 15) / 16 = q.val; omega))

/-- The second result array likewise, in the second family. -/
theorem arr5_entry (c : Dev nD) (q : Fin 2) (n : Fin 100) (k : Fin 60) :
    ((dats m 0 c).arrAt 5 cfg0.N : S2x100x60.Idx → EReal) (ix3 q n k)
      = Cheb.accum (Lm m c) (Xm m c) (WCm m c) q n k 15 (by decide) := by
  have hq := q.isLt
  refine (congrFun (out5_final m c) (ix3 q n k)).trans ?_
  refine ((out_value m c ⟨q.val * 16 + 15, lastPt_lt q⟩ (by show (q.val * 16 + 15) % 16 = 15; omega) n k).2).trans ?_
  exact congrArg (fun z : Fin 2 => Cheb.accum (Lm m c) (Xm m c) (WCm m c) z n k 15 (by decide))
    (Fin.ext (by show (q.val * 16 + 15) / 16 = q.val; omega))

/-! ## The buffers after the kernel -/

/-- What the host operations after the kernel start from: every buffer as the kernel found it, the six arrays of the
    pipeline at what the run leaves in them. -/
abbrev VT (c : Dev nD) : Valuation τ sig (Elt Ideal) :=
  Pipeline.withArrays spec0 c (V0 m c) (fun w => (dats m 0 c).arrAt w cfg0.N)

/-- A buffer after the whole program is what the operations after the kernel leave, started from there. -/
theorem tail_eq (c : Dev nD) (b : Ref sig .tc) :
    Pipeline.afterTail₀ cfgs (dats m) 0 (V0 m) [hostOps1] c b = StableHlo.after hostOps1 (VT m c) (Proc.devRef .tc b) := rfl

theorem VT_res4 (c : Dev nD) : (VT m c (Proc.devRef .tc main_v46_0) : S2x100x60.Idx → EReal) = (dats m 0 c).arrAt 4 cfg0.N :=
  Pipeline.withArrays_arr spec0 launch0.win.arr_inj c _ _ 4
theorem VT_res5 (c : Dev nD) : (VT m c (Proc.devRef .tc main_v46_1) : S2x100x60.Idx → EReal) = (dats m 0 c).arrAt 5 cfg0.N :=
  Pipeline.withArrays_arr spec0 launch0.win.arr_inj c _ _ 5

theorem VT_arg2 (c : Dev nD) : (VT m c (Proc.devRef .tc main_arg2) : S1.Idx → EReal) = m ((c.tc : Thread nD τ).loc main_arg2) :=
  (Pipeline.withArrays_of_ne _ c (V0 m c) _ main_arg2 (by exact (by decide : ∀ w, Pipeline.arrRef spec0 w ≠ main_arg2))).trans (V_main_arg2 m c)
theorem VT_arg3 (c : Dev nD) : (VT m c (Proc.devRef .tc main_arg3) : S1.Idx → EReal) = m ((c.tc : Thread nD τ).loc main_arg3) :=
  (Pipeline.withArrays_of_ne _ c (V0 m c) _ main_arg3 (by exact (by decide : ∀ w, Pipeline.arrRef spec0 w ≠ main_arg3))).trans (V_main_arg3 m c)
theorem VT_arg4 (c : Dev nD) : (VT m c (Proc.devRef .tc main_arg4) : S1.Idx → EReal) = m ((c.tc : Thread nD τ).loc main_arg4) :=
  (Pipeline.withArrays_of_ne _ c (V0 m c) _ main_arg4 (by exact (by decide : ∀ w, Pipeline.arrRef spec0 w ≠ main_arg4))).trans (V_main_arg4 m c)
theorem VT_arg6 (c : Dev nD) : (VT m c (Proc.devRef .tc main_arg6) : S60.Idx → EReal) = m ((c.tc : Thread nD τ).loc main_arg6) :=
  (Pipeline.withArrays_of_ne _ c (V0 m c) _ main_arg6 (by exact (by decide : ∀ w, Pipeline.arrRef spec0 w ≠ main_arg6))).trans (V_main_arg6 m c)
theorem VT_arg8 (c : Dev nD) : (VT m c (Proc.devRef .tc main_arg8) : S60.Idx → EReal) = m ((c.tc : Thread nD τ).loc main_arg8) :=
  (Pipeline.withArrays_of_ne _ c (V0 m c) _ main_arg8 (by exact (by decide : ∀ w, Pipeline.arrRef spec0 w ≠ main_arg8))).trans (V_main_arg8 m c)
theorem VT_arg9 (c : Dev nD) : (VT m c (Proc.devRef .tc main_arg9) : S6003x100.Idx → EReal) = m ((c.tc : Thread nD τ).loc main_arg9) :=
  (Pipeline.withArrays_of_ne _ c (V0 m c) _ main_arg9 (by exact (by decide : ∀ w, Pipeline.arrRef spec0 w ≠ main_arg9))).trans (V_main_arg9 m c)
theorem VT_arg10 (c : Dev nD) : (VT m c (Proc.devRef .tc main_arg10) : S100.Idx → EReal) = m ((c.tc : Thread nD τ).loc main_arg10) :=
  (Pipeline.withArrays_of_ne _ c (V0 m c) _ main_arg10 (by exact (by decide : ∀ w, Pipeline.arrRef spec0 w ≠ main_arg10))).trans (V_main_arg10 m c)
theorem VT_arg11 (c : Dev nD) : (VT m c (Proc.devRef .tc main_arg11) : S6003x1.Idx → EReal) = m ((c.tc : Thread nD τ).loc main_arg11) :=
  (Pipeline.withArrays_of_ne _ c (V0 m c) _ main_arg11 (by exact (by decide : ∀ w, Pipeline.arrRef spec0 w ≠ main_arg11))).trans (V_main_arg11 m c)
theorem VT_arg12 (c : Dev nD) : (VT m c (Proc.devRef .tc main_arg12) : S1.Idx → EReal) = m ((c.tc : Thread nD τ).loc main_arg12) :=
  (Pipeline.withArrays_of_ne _ c (V0 m c) _ main_arg12 (by exact (by decide : ∀ w, Pipeline.arrRef spec0 w ≠ main_arg12))).trans (V_main_arg12 m c)

/-! ## The two results -/

/-- The specification's output depends on its arguments only through their values. -/
theorem out_congr {conv conv' : Fin 100 → Fin 60 → EReal} {v1 v1' v2 v2' v3 v3' : EReal} {w w' : Fin 6003 → EReal} {b b' : EReal}
    (hc : ∀ n k, conv n k = conv' n k) (h1 : v1 = v1') (h2 : v2 = v2') (h3 : v3 = v3') (hw : ∀ j, w j = w' j) (hb : b = b') :
    Cheb.out conv v1 v2 v3 w b = Cheb.out conv' v1' v2' v3' w' b' := by
  rw [show conv = conv' from funext fun n => funext fun k => hc n k, h1, h2, h3, show w = w' from funext hw, hb]

section Results
variable (c : Dev nD) (src dst : Fin 2000 → Fin 100)

/-- The first result buffer after the program. -/
theorem res66
    (hs : ∀ e : Fin 2000, ((m ((c.tc : Thread nD τ).loc main_arg1) : S2x2000.Idx → BitVec 32) (ix2 (0 : Fin 2) e)).toInt = ((src e : ℕ) : ℤ))
    (hd : ∀ e : Fin 2000, ((m ((c.tc : Thread nD τ).loc main_arg1) : S2x2000.Idx → BitVec 32) (ix2 (1 : Fin 2) e)).toInt = ((dst e : ℕ) : ℤ)) :
    Pipeline.afterTail₀ cfgs (dats m) 0 (V0 m) [hostOps1] c main_v66
      = (fun i : S1x100.Idx => Cheb.out
        (Cheb.convKer src dst (fun n f => (m ((c.tc : Thread nD τ).loc main_arg0) : S1x100x65536.Idx → EReal) (ix3 (0 : Fin 1) n f))
          (fun t f k => (m ((c.tc : Thread nD τ).loc main_arg5) : S3x65536x60.Idx → EReal) (ix3 t f k)) (fun k => (m ((c.tc : Thread nD τ).loc main_arg6) : S60.Idx → EReal) (ix1 k)))
        ((m ((c.tc : Thread nD τ).loc main_arg2) : S1.Idx → EReal) (ix1 (0 : Fin 1))) ((m ((c.tc : Thread nD τ).loc main_arg3) : S1.Idx → EReal) (ix1 (0 : Fin 1))) ((m ((c.tc : Thread nD τ).loc main_arg4) : S1.Idx → EReal) (ix1 (0 : Fin 1)))
        (fun j => (m ((c.tc : Thread nD τ).loc main_arg9) : S6003x100.Idx → EReal) (ix2 j (i 1))) ((m ((c.tc : Thread nD τ).loc main_arg10) : S100.Idx → EReal) (ix1 (i 1)))) := by
  refine (tail_eq m c main_v66).trans ((tail_logits (VT m c)).trans ?_)
  funext i
  refine out_congr (fun n k => ?_) (congrFun (VT_arg2 m c) _) (congrFun (VT_arg3 m c) _) (congrFun (VT_arg4 m c) _)
    (fun j => congrFun (VT_arg9 m c) _) (congrFun (VT_arg10 m c) _)
  unfold Cheb.convKer
  refine congrArg₂ (· + ·) (congrArg (fun z => (0 : EReal) + z) (Finset.sum_congr rfl fun q _ => ?_)) (congrFun (VT_arg6 m c) _)
  refine (congrFun (VT_res4 m c) (ix3 q n k)).trans ((arr4_entry m c q n k).trans ?_)
  rw [Lm_spec m c src dst hs hd, Xm_launched m c, WAm_launched m c]

/-- The second result buffer after the program. -/
theorem res69
    (hs : ∀ e : Fin 2000, ((m ((c.tc : Thread nD τ).loc main_arg1) : S2x2000.Idx → BitVec 32) (ix2 (0 : Fin 2) e)).toInt = ((src e : ℕ) : ℤ))
    (hd : ∀ e : Fin 2000, ((m ((c.tc : Thread nD τ).loc main_arg1) : S2x2000.Idx → BitVec 32) (ix2 (1 : Fin 2) e)).toInt = ((dst e : ℕ) : ℤ)) :
    Pipeline.afterTail₀ cfgs (dats m) 0 (V0 m) [hostOps1] c main_v69
      = (fun i : S1x1.Idx => Cheb.out
        (Cheb.convKer src dst (fun n f => (m ((c.tc : Thread nD τ).loc main_arg0) : S1x100x65536.Idx → EReal) (ix3 (0 : Fin 1) n f))
          (fun t f k => (m ((c.tc : Thread nD τ).loc main_arg7) : S3x65536x60.Idx → EReal) (ix3 t f k)) (fun k => (m ((c.tc : Thread nD τ).loc main_arg8) : S60.Idx → EReal) (ix1 k)))
        ((m ((c.tc : Thread nD τ).loc main_arg2) : S1.Idx → EReal) (ix1 (0 : Fin 1))) ((m ((c.tc : Thread nD τ).loc main_arg3) : S1.Idx → EReal) (ix1 (0 : Fin 1))) ((m ((c.tc : Thread nD τ).loc main_arg4) : S1.Idx → EReal) (ix1 (0 : Fin 1)))
        (fun j => (m ((c.tc : Thread nD τ).loc main_arg11) : S6003x1.Idx → EReal) (ix2 j (i 1))) ((m ((c.tc : Thread nD τ).loc main_arg12) : S1.Idx → EReal) (ix1 (i 1)))) := by
  refine (tail_eq m c main_v69).trans ((tail_values (VT m c)).trans ?_)
  funext i
  refine out_congr (fun n k => ?_) (congrFun (VT_arg2 m c) _) (congrFun (VT_arg3 m c) _) (congrFun (VT_arg4 m c) _)
    (fun j => congrFun (VT_arg11 m c) _) (congrFun (VT_arg12 m c) _)
  unfold Cheb.convKer
  refine congrArg₂ (· + ·) (congrArg (fun z => (0 : EReal) + z) (Finset.sum_congr rfl fun q _ => ?_)) (congrFun (VT_arg8 m c) _)
  refine (congrFun (VT_res5 m c) (ix3 q n k)).trans ((arr5_entry m c q n k).trans ?_)
  rw [Lm_spec m c src dst hs hd, Xm_launched m c, WCm_launched m c]

end Results

/-! ## The run -/

/-- From any memory with zero counters in which the edge array's words are node numbers, every weakly fair execution of
    the program terminates, each of the two results is the specification's output of the run-by-run convolution, and
    every argument array ends as it was launched. -/
theorem run_value (ρ : Dev nD → PrngReg) (src dst : Dev nD → Fin 2000 → Fin 100)
    (hs : ∀ (c : Dev nD) (e : Fin 2000), ((m ((c.tc : Thread nD τ).loc main_arg1) : S2x2000.Idx → BitVec 32) (ix2 (0 : Fin 2) e)).toInt = ((src c e : ℕ) : ℤ))
    (hd : ∀ (c : Dev nD) (e : Fin 2000), ((m ((c.tc : Thread nD τ).loc main_arg1) : S2x2000.Idx → BitVec 32) (ix2 (1 : Fin 2) e)).toInt = ((dst c e : ℕ) : ℤ)) :
    θ_run defs (onTc (τ := τ) (main (F := Ideal))) ⟨m, fun _ => 0, ρ⟩ (fun r => ∀ c : Dev nD,
      r.2.mem ((c.tc : Thread nD τ).loc main_v66) = (fun i : S1x100.Idx => Cheb.out
        (Cheb.convKer (src c) (dst c) (fun n f => (m ((c.tc : Thread nD τ).loc main_arg0) : S1x100x65536.Idx → EReal) (ix3 (0 : Fin 1) n f))
          (fun t f k => (m ((c.tc : Thread nD τ).loc main_arg5) : S3x65536x60.Idx → EReal) (ix3 t f k)) (fun k => (m ((c.tc : Thread nD τ).loc main_arg6) : S60.Idx → EReal) (ix1 k)))
        ((m ((c.tc : Thread nD τ).loc main_arg2) : S1.Idx → EReal) (ix1 (0 : Fin 1))) ((m ((c.tc : Thread nD τ).loc main_arg3) : S1.Idx → EReal) (ix1 (0 : Fin 1))) ((m ((c.tc : Thread nD τ).loc main_arg4) : S1.Idx → EReal) (ix1 (0 : Fin 1)))
        (fun j => (m ((c.tc : Thread nD τ).loc main_arg9) : S6003x100.Idx → EReal) (ix2 j (i 1))) ((m ((c.tc : Thread nD τ).loc main_arg10) : S100.Idx → EReal) (ix1 (i 1))))
      ∧ r.2.mem ((c.tc : Thread nD τ).loc main_v69) = (fun i : S1x1.Idx => Cheb.out
        (Cheb.convKer (src c) (dst c) (fun n f => (m ((c.tc : Thread nD τ).loc main_arg0) : S1x100x65536.Idx → EReal) (ix3 (0 : Fin 1) n f))
          (fun t f k => (m ((c.tc : Thread nD τ).loc main_arg7) : S3x65536x60.Idx → EReal) (ix3 t f k)) (fun k => (m ((c.tc : Thread nD τ).loc main_arg8) : S60.Idx → EReal) (ix1 k)))
        ((m ((c.tc : Thread nD τ).loc main_arg2) : S1.Idx → EReal) (ix1 (0 : Fin 1))) ((m ((c.tc : Thread nD τ).loc main_arg3) : S1.Idx → EReal) (ix1 (0 : Fin 1))) ((m ((c.tc : Thread nD τ).loc main_arg4) : S1.Idx → EReal) (ix1 (0 : Fin 1)))
        (fun j => (m ((c.tc : Thread nD τ).loc main_arg11) : S6003x1.Idx → EReal) (ix2 j (i 1))) ((m ((c.tc : Thread nD τ).loc main_arg12) : S1.Idx → EReal) (ix1 (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨((h c).2 main_v66 (Pipeline.mem_restRefs_of main_v66 (by decide) (by decide))).trans (res66 m c (src c) (dst c) (hs c) (hd c)),
     ((h c).2 main_v69 (Pipeline.mem_restRefs_of main_v69 (by decide) (by decide))).trans (res69 m c (src c) (dst c) (hs c) (hd c)),
     (((h c).1 1).trans (((dats m 0 c).arrAt_in 1 rfl _).trans ((A_eq m c 1).trans (V_main_arg0 m c)))),
     (((h c).2 main_arg1 (Pipeline.mem_restRefs_of main_arg1 (by decide) (by decide))).trans (W_main_arg1 m (dats m) c)),
     (((h c).2 main_arg2 (Pipeline.mem_restRefs_of main_arg2 (by decide) (by decide))).trans (W_main_arg2 m (dats m) c)),
     (((h c).2 main_arg3 (Pipeline.mem_restRefs_of main_arg3 (by decide) (by decide))).trans (W_main_arg3 m (dats m) c)),
     (((h c).2 main_arg4 (Pipeline.mem_restRefs_of main_arg4 (by decide) (by decide))).trans (W_main_arg4 m (dats m) c)),
     (((h c).1 2).trans (((dats m 0 c).arrAt_in 2 rfl _).trans ((A_eq m c 2).trans (V_main_arg5 m c)))),
     (((h c).2 main_arg6 (Pipeline.mem_restRefs_of main_arg6 (by decide) (by decide))).trans (W_main_arg6 m (dats m) c)),
     (((h c).1 3).trans (((dats m 0 c).arrAt_in 3 rfl _).trans ((A_eq m c 3).trans (V_main_arg7 m c)))),
     (((h c).2 main_arg8 (Pipeline.mem_restRefs_of main_arg8 (by decide) (by decide))).trans (W_main_arg8 m (dats m) c)),
     (((h c).2 main_arg9 (Pipeline.mem_restRefs_of main_arg9 (by decide) (by decide))).trans (W_main_arg9 m (dats m) c)),
     (((h c).2 main_arg10 (Pipeline.mem_restRefs_of main_arg10 (by decide) (by decide))).trans (W_main_arg10 m (dats m) c)),
     (((h c).2 main_arg11 (Pipeline.mem_restRefs_of main_arg11 (by decide) (by decide))).trans (W_main_arg11 m (dats m) c)),
     (((h c).2 main_arg12 (Pipeline.mem_restRefs_of main_arg12 (by decide) (by decide))).trans (W_main_arg12 m (dats m) c))⟩) (run_main m ρ)

end Cert.KernelIdeal.KValue

end
-- ==== Proof.RefValue.Gather.lean ====
/-
  A gather along the leading axis, read at an entry.

  The operand has N entries (or N rows of C entries); there are E start indices, one index word idx(e, 0) each.  Result entry e
  (or (e, c)) is the operand's entry (row) at the index word read as a signed integer and clamped into [0, N − 1].  When the word
  is a node number n < N the clamp does nothing and the entry is the operand's entry n (row n, entry c).
-/
import Idealize.ShloMosaic.PureOps.Ideal
import Idealize.ShloMosaic.Lib.ValueIdx

noncomputable section

namespace Cert.ReferenceIdeal.RefValue

open Idealize.ShloMosaic Idealize.ShloMosaic.ValueIdx

variable {α : Type} {N E C w : ℕ}

/-- The dimension numbers of a gather of single entries of a vector of extent N at E index words held in an E×1 array. -/
abbrev vecGDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather is the operand at index word e, read signed and clamped. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGDims N E wf).start (ix1 e) idx 0 + (vecGDims N E wf).batchCoord (ix1 e) 0 + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGDims N E wf).startIndexMap from List.mem_singleton.mpr rfl)]
  have hsi : (vecGDims N E wf).siIdx (ix1 e) ⟨List.idxOf (0 : Fin 1) (vecGDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- When index word e is the number n of an entry, entry e of the gather is the operand's entry n. -/
theorem hostVecGather_apply (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hd : d = vecGDims N E wf)
    (x : (⟨1, ![N]⟩ : Shape).Idx → α) (idx : IVec ⟨2, ![E, 1]⟩ w) (e : Fin E) (n : Fin N)
    (h : (idx (ix2 e (0 : Fin 1))).toInt = (n.val : ℤ)) :
    Host.gather d x idx (ix1 e) = x (ix1 n) := by
  subst hd
  have hn := n.isLt
  rw [vecGather_apply (by omega) wf x idx e]
  congr 2
  refine Fin.ext ?_
  show min (idx (ix2 e (0 : Fin 1))).toInt.toNat (N - 1) = n.val
  rw [h]; omega

/-- The dimension numbers of a gather of whole rows of an N×C operand at E index words held in an E×1 array. -/
abbrev rowGDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry (e, c) of the gather of rows is entry c of the operand's row at index word e, read signed and clamped. -/
theorem rowGather_apply (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGDims N E C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowGDims N E C wf).start (ix2 e c) idx 0 + (rowGDims N E C wf).batchCoord (ix2 e c) 0
      + (rowGDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGDims N E C wf).startIndexMap from List.mem_singleton.mpr rfl)]
    have hsi : (rowGDims N E C wf).siIdx (ix2 e c) ⟨List.idxOf (0 : Fin 2) (rowGDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGDims N E C wf).start (ix2 e c) idx 1 + (rowGDims N E C wf).batchCoord (ix2 e c) 1
      + (rowGDims N E C wf).offCoord (ix2 e c) 1 = c.val
    rw [GatherDims.batchCoord_eq_zero _ _ _ List.not_mem_nil]
    unfold GatherDims.start
    rw [dif_neg (show (1 : Fin 2) ∉ (rowGDims N E C wf).startIndexMap from (by decide : (1 : Fin 2) ∉ ([0] : List (Fin 2))))]
    unfold GatherDims.offCoord
    rw [dif_pos (show (1 : Fin 2) ∈ (rowGDims N E C wf).sKept from (by decide : (1 : Fin 2) ∈ ([1] : List (Fin 2))))]
    simp only [Nat.zero_add, Nat.add_zero]
    rfl

/-- When index word e is the number n of a row, entry (e, c) of the gather of rows is the operand's entry (n, c). -/
theorem hostRowGather_apply (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C]) (hd : d = rowGDims N E C wf)
    (x : (⟨2, ![N, C]⟩ : Shape).Idx → α) (idx : IVec ⟨2, ![E, 1]⟩ w) (e : Fin E) (c : Fin C) (n : Fin N)
    (h : (idx (ix2 e (0 : Fin 1))).toInt = (n.val : ℤ)) :
    Host.gather d x idx (ix2 e c) = x (ix2 n c) := by
  subst hd
  have hn := n.isLt
  rw [rowGather_apply (by omega) wf x idx e c]
  congr 2
  refine Fin.ext ?_
  show min (idx (ix2 e (0 : Fin 1))).toInt.toNat (N - 1) = n.val
  rw [h]; omega

end Cert.ReferenceIdeal.RefValue

end
-- ==== Proof.RefValue.Words.lean ====
/-
  Words and constants the reference's operations meet at one index: the float words of 1.0 and of 2.0, a node number read back
  from its 32-bit word, and the wrap-around "index < 0 ? index + 100 : index", which does nothing to a word that is not negative.
-/
import Idealize.ShloMosaic.PureOps.Ideal
import Idealize.ShloMosaic.PureOps.Ideal.Laws
import Idealize.ShloMosaic.Lib.ValueIdx

noncomputable section

namespace Cert.ReferenceIdeal.RefValue

open Idealize.ShloMosaic Idealize.ShloMosaic.ValueIdx

/-- The float word of 1.0 is the extended real 1. -/
theorem ofBits_one_f32 : Ideal.ofBits .f32 0x3F800000#32 = 1 := by
  simp [Ideal.ofBits, Ideal.ieee, -EReal.coe_mul]; norm_num

/-- A signed comparison "w < 0" of a word that is not negative is the bit 0. -/
theorem cmpi_slt_zero_of_nonneg (w : BitVec 32) (h : 0 ≤ w.toInt) : IntOp.cmpi .slt w 0#32 = 0#1 := by
  unfold IntOp.cmpi
  have : w.slt 0#32 = false := by
    rw [BitVec.slt]
    simp only [BitVec.toInt_zero, decide_eq_false_iff_not, not_lt]
    exact h
  simp [this]

/-- The wrap-around of an index word that is not negative is the word itself. -/
theorem wrap_of_nonneg (w k : BitVec 32) (h : 0 ≤ w.toInt) :
    Scalar.select (IntOp.cmpi .slt w 0#32) (IntOp.addi w k) w = w := by
  rw [cmpi_slt_zero_of_nonneg w h, select_zero]

/-- Two node numbers are equal as integers exactly when they are equal. -/
theorem natCast_fin_eq_iff {N : ℕ} (a b : Fin N) : ((a : ℕ) : ℤ) = ((b : ℕ) : ℤ) ↔ a = b := by
  constructor
  · intro h; exact Fin.ext (by exact_mod_cast h)
  · intro h; rw [h]

end Cert.ReferenceIdeal.RefValue

end
-- ==== Proof.RefValue.Index.lean ====
/-
  Two indices of an array are equal when their coordinates are.
-/
import Idealize.ShloMosaic.Lib.ValueIdx

namespace Cert.ReferenceIdeal.RefValue

open Idealize.ShloMosaic

/-- Rank 1. -/
theorem idx1_ext {n : ℕ} {i j : (⟨1, ![n]⟩ : Shape).Idx} (h0 : (i 0).val = (j 0).val) : i = j := by
  funext a
  match a with
  | ⟨0, _⟩ => exact Fin.ext h0

/-- Rank 2. -/
theorem idx2_ext {n0 n1 : ℕ} {i j : (⟨2, ![n0, n1]⟩ : Shape).Idx} (h0 : (i 0).val = (j 0).val) (h1 : (i 1).val = (j 1).val) :
    i = j := by
  funext a
  match a with
  | ⟨0, _⟩ => exact Fin.ext h0
  | ⟨1, _⟩ => exact Fin.ext h1

/-- Rank 3. -/
theorem idx3_ext {n0 n1 n2 : ℕ} {i j : (⟨3, ![n0, n1, n2]⟩ : Shape).Idx} (h0 : (i 0).val = (j 0).val)
    (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

end Cert.ReferenceIdeal.RefValue
-- ==== Proof.RefValue.Degree.lean ====
/-
  The reference's edge weights, read at one index.

  The two rows of the edge list are the edges' end points.  The degree vector is a segment sum of ones over the first row; `dis` is
  its reciprocal square root where positive and zero elsewhere; the weight of edge e is minus the product of `dis` at its two end
  points, each read by a gather whose (wrapped, clamped) index word is the end point itself.
-/
import proofs.«136048_j27848567947758_2_alg».proof.Proof.RefRead
import proofs.«136048_j27848567947758_2_alg».proof.Proof.Spec
import proofs.«136048_j27848567947758_2_alg».proof.Proof.LibSegmentSum
import proofs.«136048_j27848567947758_2_alg».proof.Proof.RefValue.Gather
import proofs.«136048_j27848567947758_2_alg».proof.Proof.RefValue.Words
import proofs.«136048_j27848567947758_2_alg».proof.Proof.RefValue.Index

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx
open scoped BigOperators

variable (x1 : (⟨S2x2000, .i32⟩ : BufTy).Contents (Elt Ideal))

/-- Entry e of the first row of the edge list. -/
theorem srcWord (e : Fin 2000) : val_main_v1 (F := Ideal) x1 (ix1 e) = x1 (ix2 (0 : Fin 2) e) := by
  rw [val_main_v1_apply, val_main_v0_apply]
  congr 1
  exact idx2_ext rfl (Nat.mod_eq_of_lt e.isLt)

/-- Entry e of the second row of the edge list. -/
theorem dstWord (e : Fin 2000) : val_main_v3 (F := Ideal) x1 (ix1 e) = x1 (ix2 (1 : Fin 2) e) := by
  rw [val_main_v3_apply, val_main_v2_apply]
  congr 1
  exact idx2_ext rfl (Nat.mod_eq_of_lt e.isLt)

variable (src dst : Fin 2000 → Fin 100)
  (hs : ∀ e : Fin 2000, (x1 (ix2 (0 : Fin 2) e)).toInt = ((src e : ℕ) : ℤ))
  (hd : ∀ e : Fin 2000, (x1 (ix2 (1 : Fin 2) e)).toInt = ((dst e : ℕ) : ℤ))

include hs in
/-- The degree vector: the number of edges leaving node n. -/
theorem deg_eq (n : Fin 100) : val_main_v7 (F := Ideal) x1 (ix1 n) = Cheb.deg src n := by
  have h := Cert.SegmentSum.hostVecScatterAdd_apply (N := 100) (E := 2000) (w := 32) (φ := .f32)
    Facts₀.scatter_S100_S2000x1_S2000_n_0_0_1_wf scatter_S100_S2000x1_S2000_n_0_0_1 rfl
    (val_main_v5 (F := Ideal)) (val_main_v6 (F := Ideal) x1) (val_main_v4 (F := Ideal)) n
  refine h.trans ?_
  unfold Cheb.deg
  rw [val_main_v5_apply, val_main_cst_0_apply, Ideal.ofBits_def, Ideal.ofBits_zero_f32]
  congr 1
  refine Finset.sum_congr rfl fun e _ => ?_
  have hc : (val_main_v6 (F := Ideal) x1 (ix2 e (0 : Fin 1))).toInt = ((n : ℕ) : ℤ) ↔ src e = n := by
    rw [val_main_v6_apply, (idx1_ext rfl : idx_main_v6 (ix2 e (0 : Fin 1)) = ix1 e), srcWord, hs]
    exact natCast_fin_eq_iff _ _
  have hv : val_main_v4 (F := Ideal) (ix1 e) = 1 := by
    rw [val_main_v4_apply, val_main_cst_apply, Ideal.ofBits_def, ofBits_one_f32]
  rw [hv]
  exact if_congr hc rfl rfl

include hs in
/-- `dis`: the degree's reciprocal square root where the degree is positive, zero elsewhere. -/
theorem dis_eq (n : Fin 100) : val_main_v14 (F := Ideal) x1 (ix1 n) = Cheb.dis src n := by
  rw [val_main_v14_apply, val_main_v9_apply, val_main_v13_apply, val_main_v12_apply, val_main_v11_apply,
    val_main_v8_apply, val_main_cst_1_apply, val_main_v10_apply, val_main_cst_2_apply,
    val_main_call0_v1_apply, val_main_call0_v0_apply, val_main_cst_3_apply,
    val_main_call1_v1_apply, val_main_call1_v0_apply, val_main_cst_4_apply, deg_eq x1 src hs n]
  simp only [Ideal.ofBits_def, Ideal.ofBits_zero_f32, ofBits_one_f32, Ideal.cmpf_def, Ideal.hostUnary_rsqrt_def]
  rfl

include hs in
/-- The wrapped index word of edge e's first end point is the end point. -/
theorem srcIdx (e : Fin 2000) : (val_main_v20 (F := Ideal) x1 (ix2 e (0 : Fin 1))).toInt = ((src e : ℕ) : ℤ) := by
  rw [val_main_v20_apply, (idx1_ext rfl : idx_main_v20 (ix2 e (0 : Fin 1)) = ix1 e), val_main_v19_apply, val_main_v16_apply,
    val_main_v18_apply, val_main_v15_apply, val_main_c_apply, srcWord,
    wrap_of_nonneg _ _ (by rw [hs e]; exact Int.natCast_nonneg _), hs e]

include hd in
/-- The wrapped index word of edge e's second end point is the end point. -/
theorem dstIdx (e : Fin 2000) : (val_main_v27 (F := Ideal) x1 (ix2 e (0 : Fin 1))).toInt = ((dst e : ℕ) : ℤ) := by
  rw [val_main_v27_apply, (idx1_ext rfl : idx_main_v27 (ix2 e (0 : Fin 1)) = ix1 e), val_main_v26_apply, val_main_v23_apply,
    val_main_v25_apply, val_main_v22_apply, val_main_c_6_apply, dstWord,
    wrap_of_nonneg _ _ (by rw [hd e]; exact Int.natCast_nonneg _), hd e]

include hs hd in
/-- The weight of edge e: minus the product of `dis` at its two end points. -/
theorem nrm_eq (e : Fin 2000) : val_main_v30 (F := Ideal) x1 (ix1 e) = Cheb.nrm src dst e := by
  have g1 : val_main_v21 (F := Ideal) x1 (ix1 e) = Cheb.dis src (src e) :=
    (hostVecGather_apply (N := 100) (E := 2000) (w := 32) gather_S100_S2000x1_S2000_n_0_n_n_0_1_1
      Facts₀.gather_S100_S2000x1_S2000_n_0_n_n_0_1_1_wf rfl (val_main_v14 (F := Ideal) x1) (val_main_v20 (F := Ideal) x1) e (src e)
      (srcIdx x1 src hs e)).trans (dis_eq x1 src hs (src e))
  have g2 : val_main_v28 (F := Ideal) x1 (ix1 e) = Cheb.dis src (dst e) :=
    (hostVecGather_apply (N := 100) (E := 2000) (w := 32) gather_S100_S2000x1_S2000_n_0_n_n_0_1_1
      Facts₀.gather_S100_S2000x1_S2000_n_0_n_n_0_1_1_wf rfl (val_main_v14 (F := Ideal) x1) (val_main_v27 (F := Ideal) x1) e (dst e)
      (dstIdx x1 dst hd e)).trans (dis_eq x1 src hs (dst e))
  rw [val_main_v30_apply, val_main_v29_apply, g1, g2]
  simp only [Ideal.hostNegf_def, Ideal.negf_def, Ideal.mulf_def]
  rfl

end Cert.ReferenceIdeal.RefValue

end
-- ==== Proof.RefValue.Prop.lean ====
/-
  One propagation of the reference, read at one entry.

  A feature matrix z is propagated by gathering the rows of z at the edges' first end points, multiplying row e by the weight of
  edge e, and summing the rows by second end point into a zero matrix: entry (d, f) of the result is the sum over the edges ending
  in d of z (src e, f) times the weight of e.  The reference propagates twice, the second time the result of the first.
-/
import proofs.«136048_j27848567947758_2_alg».proof.Proof.RefValue.Degree

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx
open scoped BigOperators

variable (x0 : (⟨S1x100x65536, .f32⟩ : BufTy).Contents (Elt Ideal)) (x1 : (⟨S2x2000, .i32⟩ : BufTy).Contents (Elt Ideal))

/-- One propagation as a function of the matrix it propagates. -/
def propStage (z : (⟨S100x65536, .f32⟩ : BufTy).Contents (Elt Ideal)) : (⟨S100x65536, .f32⟩ : BufTy).Contents (Elt Ideal) :=
  Host.scatterAdd (F := Ideal) (φ := .f32) scatter_S100x65536_S2000x1_S2000x65536_1_0_0_1 (val_main_v42 (F := Ideal))
    (val_main_v43 (F := Ideal) x1)
    (mulf (F := Ideal) (φ := .f32) (Host.gather gather_S100x65536_S2000x1_S2000x65536_1_0_n_n_0_1_165536 z (val_main_v37 (F := Ideal) x1))
      (val_main_v40 (F := Ideal) x1))

/-- The first propagation is of the input features. -/
theorem v44_eq_propStage : val_main_v44 (F := Ideal) x0 x1 = propStage x1 (val_main_v31 (F := Ideal) x0) := rfl

/-- The second propagation is of the first one's result. -/
theorem v57_eq_propStage : val_main_v57 (F := Ideal) x0 x1 = propStage x1 (val_main_v44 (F := Ideal) x0 x1) := rfl

variable (src dst : Fin 2000 → Fin 100)
  (hs : ∀ e : Fin 2000, (x1 (ix2 (0 : Fin 2) e)).toInt = ((src e : ℕ) : ℤ))
  (hd : ∀ e : Fin 2000, (x1 (ix2 (1 : Fin 2) e)).toInt = ((dst e : ℕ) : ℤ))

include hs hd in
/-- One propagation at entry (d, f). -/
theorem propStage_apply (z : (⟨S100x65536, .f32⟩ : BufTy).Contents (Elt Ideal)) (d : Fin 100) (f : Fin 65536) :
    propStage x1 z (ix2 d f) = Cheb.prop src dst (Cheb.nrm src dst) (fun n f => z (ix2 n f)) d f := by
  have h := Cert.SegmentSum.hostRowScatterAdd_apply (N := 100) (E := 2000) (C := 65536) (w := 32) (φ := .f32)
    Facts₀.scatter_S100x65536_S2000x1_S2000x65536_1_0_0_1_wf scatter_S100x65536_S2000x1_S2000x65536_1_0_0_1 rfl
    (val_main_v42 (F := Ideal)) (val_main_v43 (F := Ideal) x1)
    (mulf (F := Ideal) (φ := .f32) (Host.gather gather_S100x65536_S2000x1_S2000x65536_1_0_n_n_0_1_165536 z (val_main_v37 (F := Ideal) x1))
      (val_main_v40 (F := Ideal) x1)) d f
  refine h.trans ?_
  unfold Cheb.prop
  rw [val_main_v42_apply, val_main_cst_10_apply, Ideal.ofBits_def, Ideal.ofBits_zero_f32]
  refine congrArg (fun s : EReal => 0 + s) ?_
  refine Finset.sum_congr rfl fun e _ => ?_
  have hc : (val_main_v43 (F := Ideal) x1 (ix2 e (0 : Fin 1))).toInt = ((d : ℕ) : ℤ) ↔ dst e = d := by
    rw [val_main_v43_apply, (idx1_ext rfl : idx_main_v43 (ix2 e (0 : Fin 1)) = ix1 e), dstWord, hd]
    exact natCast_fin_eq_iff _ _
  have hg : Host.gather gather_S100x65536_S2000x1_S2000x65536_1_0_n_n_0_1_165536 z (val_main_v37 (F := Ideal) x1) (ix2 e f)
      = z (ix2 (src e) f) :=
    hostRowGather_apply (N := 100) (E := 2000) (C := 65536) (w := 32) gather_S100x65536_S2000x1_S2000x65536_1_0_n_n_0_1_165536
      Facts₀.gather_S100x65536_S2000x1_S2000x65536_1_0_n_n_0_1_165536_wf rfl z (val_main_v37 (F := Ideal) x1) e f (src e)
      (srcIdx x1 src hs e)
  have hw : val_main_v40 (F := Ideal) x1 (ix2 e f) = Cheb.nrm src dst e := by
    rw [val_main_v40_apply, val_main_v39_apply,
      (idx1_ext rfl : idx_main_v39 (idx_main_v40 (ix2 e f)) = ix1 e), nrm_eq x1 src dst hs hd e]
  rw [mulf_apply, hg, hw]
  exact if_congr hc rfl rfl

end Cert.ReferenceIdeal.RefValue

end
-- ==== Proof.RefValue.Conv.lean ====
/-
  The reference's convolution, read at one entry.

  With x the input features, P the propagation, T₂ = 2 · P (P x) − x, the three weight slices W₀, W₁, W₂ and the bias b, entry (n, c) of
  the convolution is ((x W₀ + (P x) W₁) + T₂ W₂)(n, c) + b c, each product a sum over all 65536 features.
-/
import proofs.«136048_j27848567947758_2_alg».proof.Proof.RefValue.Prop

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx
open scoped BigOperators

variable (x0 : (⟨S1x100x65536, .f32⟩ : BufTy).Contents (Elt Ideal)) (x1 : (⟨S2x2000, .i32⟩ : BufTy).Contents (Elt Ideal))
  (x5 : (⟨S3x65536x60, .f32⟩ : BufTy).Contents (Elt Ideal)) (x6 : (⟨S60, .f32⟩ : BufTy).Contents (Elt Ideal))

/-- The input features as a matrix. -/
theorem x_eq (n : Fin 100) (f : Fin 65536) : val_main_v31 (F := Ideal) x0 (ix2 n f) = x0 (ix3 (0 : Fin 1) n f) := by
  have hn := n.isLt
  have hf := f.isLt
  rw [val_main_v31_apply]
  congr 1
  refine idx3_ext rfl ?_ ?_
  · show (n.val * 65536 + f.val) / 65536 % 100 = n.val
    omega
  · show (n.val * 65536 + f.val) % 65536 = f.val
    omega

/-- The first weight slice. -/
theorem w0_eq (f : Fin 65536) (c : Fin 60) : val_main_v62 (F := Ideal) x5 (ix2 f c) = x5 (ix3 (0 : Fin 3) f c) := by
  have hf := f.isLt
  have hc := c.isLt
  rw [val_main_v62_apply, val_main_v61_apply]
  congr 1
  refine idx3_ext ?_ ?_ ?_
  · show 0 + 0 = 0
    rfl
  · show (f.val * 60 + c.val) / 60 % 65536 = f.val
    omega
  · show (f.val * 60 + c.val) % 60 = c.val
    omega

/-- The second weight slice. -/
theorem w1_eq (f : Fin 65536) (c : Fin 60) : val_main_v65 (F := Ideal) x5 (ix2 f c) = x5 (ix3 (1 : Fin 3) f c) := by
  have hf := f.isLt
  have hc := c.isLt
  rw [val_main_v65_apply, val_main_v64_apply]
  congr 1
  refine idx3_ext ?_ ?_ ?_
  · show 1 + 0 = 1
    rfl
  · show (f.val * 60 + c.val) / 60 % 65536 = f.val
    omega
  · show (f.val * 60 + c.val) % 60 = c.val
    omega

/-- The third weight slice. -/
theorem w2_eq (f : Fin 65536) (c : Fin 60) : val_main_v69 (F := Ideal) x5 (ix2 f c) = x5 (ix3 (2 : Fin 3) f c) := by
  have hf := f.isLt
  have hc := c.isLt
  rw [val_main_v69_apply, val_main_v68_apply]
  congr 1
  refine idx3_ext ?_ ?_ ?_
  · show 2 + 0 = 2
    rfl
  · show (f.val * 60 + c.val) / 60 % 65536 = f.val
    omega
  · show (f.val * 60 + c.val) % 60 = c.val
    omega

variable (src dst : Fin 2000 → Fin 100)
  (hs : ∀ e : Fin 2000, (x1 (ix2 (0 : Fin 2) e)).toInt = ((src e : ℕ) : ℤ))
  (hd : ∀ e : Fin 2000, (x1 (ix2 (1 : Fin 2) e)).toInt = ((dst e : ℕ) : ℤ))

include hs hd in
/-- The first propagation's result. -/
theorem prop1_eq (n : Fin 100) (f : Fin 65536) :
    val_main_v44 (F := Ideal) x0 x1 (ix2 n f)
      = Cheb.prop src dst (Cheb.nrm src dst) (fun n f => x0 (ix3 (0 : Fin 1) n f)) n f := by
  have hz : (fun (n : Fin 100) (f : Fin 65536) => val_main_v31 (F := Ideal) x0 (ix2 n f)) = fun n f => x0 (ix3 (0 : Fin 1) n f) :=
    funext fun n => funext fun f => x_eq x0 n f
  rw [v44_eq_propStage, propStage_apply x1 src dst hs hd, hz]

include hs hd in
/-- The second propagation's result. -/
theorem prop2_eq (n : Fin 100) (f : Fin 65536) :
    val_main_v57 (F := Ideal) x0 x1 (ix2 n f)
      = Cheb.prop src dst (Cheb.nrm src dst)
          (Cheb.prop src dst (Cheb.nrm src dst) (fun n f => x0 (ix3 (0 : Fin 1) n f))) n f := by
  have hz : (fun (n : Fin 100) (f : Fin 65536) => val_main_v44 (F := Ideal) x0 x1 (ix2 n f))
      = Cheb.prop src dst (Cheb.nrm src dst) (fun n f => x0 (ix3 (0 : Fin 1) n f)) :=
    funext fun n => funext fun f => prop1_eq x0 x1 src dst hs hd n f
  rw [v57_eq_propStage, propStage_apply x1 src dst hs hd, hz]

include hs hd in
/-- The third Chebyshev term. -/
theorem cheb2_eq (n : Fin 100) (f : Fin 65536) :
    val_main_v60 (F := Ideal) x0 x1 (ix2 n f)
      = Cheb.cheb2 (Cheb.prop src dst (Cheb.nrm src dst)) (fun n f => x0 (ix3 (0 : Fin 1) n f)) n f := by
  rw [val_main_v60_apply, val_main_v59_apply, val_main_v58_apply, val_main_cst_14_apply, Ideal.ofBits_def,
    prop2_eq x0 x1 src dst hs hd, x_eq]
  rfl

include hs hd in
/-- The convolution at entry (n, c). -/
theorem conv_eq (n : Fin 100) (c : Fin 60) :
    val_main_v74 (F := Ideal) x0 x1 x5 x6 (ix2 n c)
      = Cheb.convRef src dst (fun n f => x0 (ix3 (0 : Fin 1) n f)) (fun t f k => x5 (ix3 t f k)) (fun k => x6 (ix1 k)) n c := by
  have d0 : val_main_v63 (F := Ideal) x0 x5 (ix2 n c)
      = Cheb.mm (fun n f => x0 (ix3 (0 : Fin 1) n f)) (fun f k => x5 (ix3 (0 : Fin 3) f k)) n c := by
    rw [val_main_v63_apply]
    refine Finset.sum_congr rfl fun k _ => ?_
    rw [(idx2_ext rfl rfl : lidx_main_v63 (ix2 n c) k = ix2 n k), (idx2_ext rfl rfl : ridx_main_v63 (ix2 n c) k = ix2 k c),
      x_eq, w0_eq]
  have d1 : val_main_v66 (F := Ideal) x0 x1 x5 (ix2 n c)
      = Cheb.mm (Cheb.prop src dst (Cheb.nrm src dst) (fun n f => x0 (ix3 (0 : Fin 1) n f)))
          (fun f k => x5 (ix3 (1 : Fin 3) f k)) n c := by
    rw [val_main_v66_apply]
    refine Finset.sum_congr rfl fun k _ => ?_
    rw [(idx2_ext rfl rfl : lidx_main_v66 (ix2 n c) k = ix2 n k), (idx2_ext rfl rfl : ridx_main_v66 (ix2 n c) k = ix2 k c),
      prop1_eq x0 x1 src dst hs hd, w1_eq]
  have d2 : val_main_v70 (F := Ideal) x0 x1 x5 (ix2 n c)
      = Cheb.mm (Cheb.cheb2 (Cheb.prop src dst (Cheb.nrm src dst)) (fun n f => x0 (ix3 (0 : Fin 1) n f)))
          (fun f k => x5 (ix3 (2 : Fin 3) f k)) n c := by
    rw [val_main_v70_apply]
    refine Finset.sum_congr rfl fun k _ => ?_
    rw [(idx2_ext rfl rfl : lidx_main_v70 (ix2 n c) k = ix2 n k), (idx2_ext rfl rfl : ridx_main_v70 (ix2 n c) k = ix2 k c),
      cheb2_eq x0 x1 src dst hs hd, w2_eq]
  rw [val_main_v74_apply, val_main_v71_apply, val_main_v67_apply, d0, d1, d2, val_main_v73_apply, val_main_v72_apply,
    (idx1_ext rfl : idx_main_v72 (idx_main_v73 (ix2 n c)) = ix1 c)]
  rfl

end Cert.ReferenceIdeal.RefValue

end
-- ==== Proof.RefValue.Head.lean ====
/-
  The reference's state vector and linear head, read at one entry.

  After the hyperbolic tangent the 100 × 60 embedding is laid out row by row as 6000 entries, three scalars are appended (a
  concatenation of four pieces: entry j lies in the first piece when j < 6000, and is the one entry of the second, third or fourth
  piece when j = 6000, 6001, 6002), and one output of the head is the dot product with a column of the head's matrix plus a bias.
-/
import proofs.«136048_j27848567947758_2_alg».proof.Proof.RefValue.Conv

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx
open scoped BigOperators

variable (x0 : (⟨S1x100x65536, .f32⟩ : BufTy).Contents (Elt Ideal)) (x1 : (⟨S2x2000, .i32⟩ : BufTy).Contents (Elt Ideal))
  (x2 x3 x4 : (⟨S1, .f32⟩ : BufTy).Contents (Elt Ideal))
  (x5 : (⟨S3x65536x60, .f32⟩ : BufTy).Contents (Elt Ideal)) (x6 : (⟨S60, .f32⟩ : BufTy).Contents (Elt Ideal))

variable (src dst : Fin 2000 → Fin 100)
  (hs : ∀ e : Fin 2000, (x1 (ix2 (0 : Fin 2) e)).toInt = ((src e : ℕ) : ℤ))
  (hd : ∀ e : Fin 2000, (x1 (ix2 (1 : Fin 2) e)).toInt = ((dst e : ℕ) : ℤ))

include hs hd in
/-- Entry j < 6000 of the flattened embedding. -/
theorem emb_eq (j : Fin 6000) :
    val_main_v77 (F := Ideal) x0 x1 x5 x6 (ix2 (0 : Fin 1) j)
      = Ideal.tanh (Cheb.convRef src dst (fun n f => x0 (ix3 (0 : Fin 1) n f)) (fun t f k => x5 (ix3 t f k)) (fun k => x6 (ix1 k))
          ⟨j.val / 60, by have := j.isLt; omega⟩ ⟨j.val % 60, Nat.mod_lt _ (by omega)⟩) := by
  have hj := j.isLt
  rw [val_main_v77_apply, val_main_v76_apply, val_main_v75_apply, Ideal.hostUnary_tanh_def,
    (idx2_ext (by show (0 * 6000 + j.val) / 60 % 100 = j.val / 60; omega) (by show (0 * 6000 + j.val) % 60 = j.val % 60; omega) :
      idx_main_v75 (idx_main_v77 (ix2 (0 : Fin 1) j))
        = ix2 (⟨j.val / 60, by omega⟩ : Fin 100) (⟨j.val % 60, Nat.mod_lt _ (by omega)⟩ : Fin 60)),
    conv_eq x0 x1 x5 x6 src dst hs hd]

include hs hd in
/-- Entry j of the state vector. -/
theorem state_eq (j : Fin 6003) :
    val_main_v159 (F := Ideal) x0 x1 x2 x3 x4 x5 x6 (ix2 (0 : Fin 1) j)
      = Cheb.state (fun n c => Ideal.tanh (Cheb.convRef src dst (fun n f => x0 (ix3 (0 : Fin 1) n f)) (fun t f k => x5 (ix3 t f k))
          (fun k => x6 (ix1 k)) n c)) (x2 (ix1 (0 : Fin 1))) (x3 (ix1 (0 : Fin 1))) (x4 (ix1 (0 : Fin 1))) j := by
  have hj := j.isLt
  unfold val_main_v159 Cheb.state
  by_cases h0 : j.val < 6000
  · rw [dif_pos h0]
    refine (concatenate_apply_piece (t := S1x6003) (1 : Fin 2)
      [⟨S1x6000, val_main_v77 (F := Ideal) x0 x1 x5 x6⟩, ⟨S1x1, val_main_v156 (F := Ideal) x2⟩, ⟨S1x1, val_main_v157 (F := Ideal) x3⟩,
        ⟨S1x1, val_main_v158 (F := Ideal) x4⟩]
      concatenates_S1x6000_S1x1_S1x1_S1x1_S1x6003_d1 (ix2 (0 : Fin 1) j)
      0 (by show 0 < 4; omega) S1x6000 (val_main_v77 (F := Ideal) x0 x1 x5 x6) rfl rfl 0 rfl (ix2 (0 : Fin 1) (⟨j.val, h0⟩ : Fin 6000)) ?_ ?_).trans ?_
    · intro b hb
      match b, hb with
      | ⟨0, _⟩, _ => rfl
      | ⟨1, _⟩, hb => exact absurd rfl hb
    · show 0 + j.val = j.val
      omega
    · exact emb_eq x0 x1 x5 x6 src dst hs hd ⟨j.val, h0⟩
  · rw [dif_neg h0]
    by_cases h1 : j.val = 6000
    · rw [if_pos h1]
      refine (concatenate_apply_piece (t := S1x6003) (1 : Fin 2)
        [⟨S1x6000, val_main_v77 (F := Ideal) x0 x1 x5 x6⟩, ⟨S1x1, val_main_v156 (F := Ideal) x2⟩, ⟨S1x1, val_main_v157 (F := Ideal) x3⟩,
          ⟨S1x1, val_main_v158 (F := Ideal) x4⟩]
        concatenates_S1x6000_S1x1_S1x1_S1x1_S1x6003_d1 (ix2 (0 : Fin 1) j)
        1 (by show 1 < 4; omega) S1x1 (val_main_v156 (F := Ideal) x2) rfl rfl 6000 rfl (ix2 (0 : Fin 1) (0 : Fin 1)) ?_ ?_).trans ?_
      · intro b hb
        match b, hb with
        | ⟨0, _⟩, _ => rfl
        | ⟨1, _⟩, hb => exact absurd rfl hb
      · show 6000 + 0 = j.val
        omega
      · rw [val_main_v156_apply]
        exact congrArg _ (idx1_ext rfl)
    · rw [if_neg h1]
      by_cases h2 : j.val = 6001
      · rw [if_pos h2]
        refine (concatenate_apply_piece (t := S1x6003) (1 : Fin 2)
          [⟨S1x6000, val_main_v77 (F := Ideal) x0 x1 x5 x6⟩, ⟨S1x1, val_main_v156 (F := Ideal) x2⟩, ⟨S1x1, val_main_v157 (F := Ideal) x3⟩,
            ⟨S1x1, val_main_v158 (F := Ideal) x4⟩]
          concatenates_S1x6000_S1x1_S1x1_S1x1_S1x6003_d1 (ix2 (0 : Fin 1) j)
          2 (by show 2 < 4; omega) S1x1 (val_main_v157 (F := Ideal) x3) rfl rfl 6001 rfl (ix2 (0 : Fin 1) (0 : Fin 1)) ?_ ?_).trans ?_
        · intro b hb
          match b, hb with
          | ⟨0, _⟩, _ => rfl
          | ⟨1, _⟩, hb => exact absurd rfl hb
        · show 6001 + 0 = j.val
          omega
        · rw [val_main_v157_apply]
          exact congrArg _ (idx1_ext rfl)
      · rw [if_neg h2]
        refine (concatenate_apply_piece (t := S1x6003) (1 : Fin 2)
          [⟨S1x6000, val_main_v77 (F := Ideal) x0 x1 x5 x6⟩, ⟨S1x1, val_main_v156 (F := Ideal) x2⟩, ⟨S1x1, val_main_v157 (F := Ideal) x3⟩,
            ⟨S1x1, val_main_v158 (F := Ideal) x4⟩]
          concatenates_S1x6000_S1x1_S1x1_S1x1_S1x6003_d1 (ix2 (0 : Fin 1) j)
          3 (by show 3 < 4; omega) S1x1 (val_main_v158 (F := Ideal) x4) rfl rfl 6002 rfl (ix2 (0 : Fin 1) (0 : Fin 1)) ?_ ?_).trans ?_
        · intro b hb
          match b, hb with
          | ⟨0, _⟩, _ => rfl
          | ⟨1, _⟩, hb => exact absurd rfl hb
        · show 6002 + 0 = j.val
          omega
        · rw [val_main_v158_apply]
          exact congrArg _ (idx1_ext rfl)

end Cert.ReferenceIdeal.RefValue

end
-- ==== Proof.RefValue.Critic.lean ====
/-
  The critic's copy of the network is the actor's with the critic's weights.

  The reference computes the degree, `dis`, the edge weights, both propagations, the convolution and the state vector a second
  time, operation for operation as the first time, from the same edge list and features but with the second pair of weight
  arrays: the second state vector is the first one's term at those weights.
-/
import proofs.«136048_j27848567947758_2_alg».proof.Proof.RefRead

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx
open scoped BigOperators

/-- The second state vector is the first one's term at the second pair of weight arrays. -/
theorem v160_eq_v159 (x0 : (⟨S1x100x65536, .f32⟩ : BufTy).Contents (Elt Ideal)) (x1 : (⟨S2x2000, .i32⟩ : BufTy).Contents (Elt Ideal))
    (x2 x3 x4 : (⟨S1, .f32⟩ : BufTy).Contents (Elt Ideal))
    (x7 : (⟨S3x65536x60, .f32⟩ : BufTy).Contents (Elt Ideal)) (x8 : (⟨S60, .f32⟩ : BufTy).Contents (Elt Ideal)) :
    val_main_v160 (F := Ideal) x0 x1 x2 x3 x4 x7 x8 = val_main_v159 (F := Ideal) x0 x1 x2 x3 x4 x7 x8 := rfl

end Cert.ReferenceIdeal.RefValue

end
-- ==== Proof.RefValue.Out.lean ====
/-
  One output of each linear head of the reference, read at an index.

  An output is the dot product of the state vector with a column of the head's matrix, plus the column's bias.  The critic's state
  vector is the actor's term at the critic's weights.
-/
import proofs.«136048_j27848567947758_2_alg».proof.Proof.RefValue.Head
import proofs.«136048_j27848567947758_2_alg».proof.Proof.RefValue.Critic

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx
open scoped BigOperators

variable (x0 : (⟨S1x100x65536, .f32⟩ : BufTy).Contents (Elt Ideal)) (x1 : (⟨S2x2000, .i32⟩ : BufTy).Contents (Elt Ideal))
  (x2 x3 x4 : (⟨S1, .f32⟩ : BufTy).Contents (Elt Ideal))
  (x5 : (⟨S3x65536x60, .f32⟩ : BufTy).Contents (Elt Ideal)) (x6 : (⟨S60, .f32⟩ : BufTy).Contents (Elt Ideal))
  (x9 : (⟨S6003x100, .f32⟩ : BufTy).Contents (Elt Ideal)) (x10 : (⟨S100, .f32⟩ : BufTy).Contents (Elt Ideal))
  (x11 : (⟨S6003x1, .f32⟩ : BufTy).Contents (Elt Ideal)) (x12 : (⟨S1, .f32⟩ : BufTy).Contents (Elt Ideal))

variable (src dst : Fin 2000 → Fin 100)
  (hs : ∀ e : Fin 2000, (x1 (ix2 (0 : Fin 2) e)).toInt = ((src e : ℕ) : ℤ))
  (hd : ∀ e : Fin 2000, (x1 (ix2 (1 : Fin 2) e)).toInt = ((dst e : ℕ) : ℤ))

include hs hd in
/-- The first head's outputs. -/
theorem logits_val :
    val_main_v163 (F := Ideal) x0 x1 x2 x3 x4 x5 x6 x9 x10
      = fun i => Cheb.out (Cheb.convRef src dst (fun n f => x0 (ix3 (0 : Fin 1) n f)) (fun t f k => x5 (ix3 t f k)) (fun k => x6 (ix1 k)))
          (x2 (ix1 (0 : Fin 1))) (x3 (ix1 (0 : Fin 1))) (x4 (ix1 (0 : Fin 1))) (fun j => x9 (ix2 j (i 1))) (x10 (ix1 (i 1))) := by
  funext i
  have hi0 : (i 0).val = 0 := by
    have h : (i 0).val < 1 := (i 0).isLt
    omega
  rw [val_main_v163_apply, val_main_v161_apply, val_main_v162_apply, Ideal.addf_def]
  unfold Cheb.out Cheb.head
  refine congrArg₂ (fun a b : EReal => a + b) ?_ ?_
  · refine Finset.sum_congr rfl fun k _ => ?_
    beta_reduce
    rw [(idx2_ext hi0 rfl : lidx_main_v161 i k = ix2 (0 : Fin 1) k), (idx2_ext rfl rfl : ridx_main_v161 i k = ix2 k (i 1)),
      state_eq x0 x1 x2 x3 x4 x5 x6 src dst hs hd]
    rfl
  · exact congrArg _ (idx1_ext rfl)

include hs hd in
/-- The second head's output, from the second pair of weight arrays. -/
theorem values_val :
    val_main_v166 (F := Ideal) x0 x1 x2 x3 x4 x5 x6 x11 x12
      = fun i => Cheb.out (Cheb.convRef src dst (fun n f => x0 (ix3 (0 : Fin 1) n f)) (fun t f k => x5 (ix3 t f k)) (fun k => x6 (ix1 k)))
          (x2 (ix1 (0 : Fin 1))) (x3 (ix1 (0 : Fin 1))) (x4 (ix1 (0 : Fin 1))) (fun j => x11 (ix2 j (i 1))) (x12 (ix1 (i 1))) := by
  funext i
  have hi0 : (i 0).val = 0 := by
    have h : (i 0).val < 1 := (i 0).isLt
    omega
  have hi1 : (i 1).val = 0 := by
    have h : (i 1).val < 1 := (i 1).isLt
    omega
  rw [val_main_v166_apply, val_main_v164_apply, val_main_v165_apply, Ideal.addf_def, v160_eq_v159]
  unfold Cheb.out Cheb.head
  refine congrArg₂ (fun a b : EReal => a + b) ?_ ?_
  · refine Finset.sum_congr rfl fun k _ => ?_
    beta_reduce
    rw [(idx2_ext hi0 rfl : lidx_main_v164 i k = ix2 (0 : Fin 1) k), (idx2_ext rfl rfl : ridx_main_v164 i k = ix2 k (i 1)),
      state_eq x0 x1 x2 x3 x4 x5 x6 src dst hs hd]
    rfl
  · exact congrArg _ (idx1_ext hi1.symm)

end Cert.ReferenceIdeal.RefValue

end
-- ==== Proof.RefValue.lean ====
/-
  The reference's two results as the mathematics of the specification.

  Under the hypothesis that the words of the edge list are the node numbers `src e`, `dst e`, each of the reference's two results,
  read at an index, is one output of the network of the specification: the edge-by-edge Chebyshev convolution, `tanh`, the state
  vector and a linear head — the actor's weights for the first result, the critic's for the second.
-/
import proofs.«136048_j27848567947758_2_alg».proof.Proof.RefValue.Out

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ) (c : Dev nD)

/-- The first result (the logits). -/
theorem logits_eq (src dst : Fin 2000 → Fin 100)
    (hs : ∀ e : Fin 2000, ((m ((c.tc : Thread nD τ).loc main_arg1) : (⟨S2x2000, .i32⟩ : BufTy).Contents (Elt Ideal)) (ix2 (0 : Fin 2) e)).toInt = ((src e : ℕ) : ℤ))
    (hd : ∀ e : Fin 2000, ((m ((c.tc : Thread nD τ).loc main_arg1) : (⟨S2x2000, .i32⟩ : BufTy).Contents (Elt Ideal)) (ix2 (1 : Fin 2) e)).toInt = ((dst e : ℕ) : ℤ)) :
    ValueP.res_main_v163 m c = fun i => Cheb.out (Cheb.convRef src dst (fun n f => (m ((c.tc : Thread nD τ).loc main_arg0) : (⟨S1x100x65536, .f32⟩ : BufTy).Contents (Elt Ideal)) (ix3 (0 : Fin 1) n f))
        (fun t f k => (m ((c.tc : Thread nD τ).loc main_arg5) : (⟨S3x65536x60, .f32⟩ : BufTy).Contents (Elt Ideal)) (ix3 t f k)) (fun k => (m ((c.tc : Thread nD τ).loc main_arg6) : (⟨S60, .f32⟩ : BufTy).Contents (Elt Ideal)) (ix1 k)))
      ((m ((c.tc : Thread nD τ).loc main_arg2) : (⟨S1, .f32⟩ : BufTy).Contents (Elt Ideal)) (ix1 (0 : Fin 1))) ((m ((c.tc : Thread nD τ).loc main_arg3) : (⟨S1, .f32⟩ : BufTy).Contents (Elt Ideal)) (ix1 (0 : Fin 1))) ((m ((c.tc : Thread nD τ).loc main_arg4) : (⟨S1, .f32⟩ : BufTy).Contents (Elt Ideal)) (ix1 (0 : Fin 1)))
      (fun j => (m ((c.tc : Thread nD τ).loc main_arg9) : (⟨S6003x100, .f32⟩ : BufTy).Contents (Elt Ideal)) (ix2 j (i 1))) ((m ((c.tc : Thread nD τ).loc main_arg10) : (⟨S100, .f32⟩ : BufTy).Contents (Elt Ideal)) (ix1 (i 1))) :=
  (ReadP.val_main_v163_eq m c).trans (logits_val _ _ _ _ _ _ _ _ _ src dst hs hd)

/-- The second result (the value). -/
theorem values_eq (src dst : Fin 2000 → Fin 100)
    (hs : ∀ e : Fin 2000, ((m ((c.tc : Thread nD τ).loc main_arg1) : (⟨S2x2000, .i32⟩ : BufTy).Contents (Elt Ideal)) (ix2 (0 : Fin 2) e)).toInt = ((src e : ℕ) : ℤ))
    (hd : ∀ e : Fin 2000, ((m ((c.tc : Thread nD τ).loc main_arg1) : (⟨S2x2000, .i32⟩ : BufTy).Contents (Elt Ideal)) (ix2 (1 : Fin 2) e)).toInt = ((dst e : ℕ) : ℤ)) :
    ValueP.res_main_v166 m c = fun i => Cheb.out (Cheb.convRef src dst (fun n f => (m ((c.tc : Thread nD τ).loc main_arg0) : (⟨S1x100x65536, .f32⟩ : BufTy).Contents (Elt Ideal)) (ix3 (0 : Fin 1) n f))
        (fun t f k => (m ((c.tc : Thread nD τ).loc main_arg7) : (⟨S3x65536x60, .f32⟩ : BufTy).Contents (Elt Ideal)) (ix3 t f k)) (fun k => (m ((c.tc : Thread nD τ).loc main_arg8) : (⟨S60, .f32⟩ : BufTy).Contents (Elt Ideal)) (ix1 k)))
      ((m ((c.tc : Thread nD τ).loc main_arg2) : (⟨S1, .f32⟩ : BufTy).Contents (Elt Ideal)) (ix1 (0 : Fin 1))) ((m ((c.tc : Thread nD τ).loc main_arg3) : (⟨S1, .f32⟩ : BufTy).Contents (Elt Ideal)) (ix1 (0 : Fin 1))) ((m ((c.tc : Thread nD τ).loc main_arg4) : (⟨S1, .f32⟩ : BufTy).Contents (Elt Ideal)) (ix1 (0 : Fin 1)))
      (fun j => (m ((c.tc : Thread nD τ).loc main_arg11) : (⟨S6003x1, .f32⟩ : BufTy).Contents (Elt Ideal)) (ix2 j (i 1))) ((m ((c.tc : Thread nD τ).loc main_arg12) : (⟨S1, .f32⟩ : BufTy).Contents (Elt Ideal)) (ix1 (i 1))) :=
  (ReadP.val_main_v166_eq m c).trans (values_val _ _ _ _ _ _ _ _ _ src dst hs hd)

end Cert.ReferenceIdeal.RefValue

end
-- ==== Proof.PreFacts.lean ====
/-
  The precondition, decoded.  The statement assumes of the thirteen input arrays that a printed predicate evaluates
  to one: a conjunction of fourteen tests, each an "all" over one array — |a| < +∞ at every entry of each of the twelve
  float arrays, then 0 ≤ e and e < 100 (read signed) at every entry of the edge table.  Two consequences are drawn here:
  every entry of the feature array is a real number (neither infinity), and every word of the edge table, read signed,
  lies in [0, 100).
-/
import proofs.«136048_j27848567947758_2_alg».proof.Defs
import Idealize.ShloMosaic.Lib.ReduceAll
import Idealize.ShloMosaic.Lib.ValueIdx
import Idealize.ShloMosaic.PureOps.Ideal.Laws

noncomputable section

namespace Cert.Proof.PreFacts

open Idealize.ShloMosaic Idealize.SL.Sem
open Cert.Pre_finite_inputs

variable [hP : Cert.Pre_finite_inputs.Facts]

/-- The shape with no axes has one index. -/
instance : Subsingleton S_.Idx := ⟨fun a b => funext fun d => d.elim0⟩

/-- A truth value whose one-bit word is 1 is true. -/
theorem ofBool_eq_one {b : Bool} (h : BitVec.ofBool b = 1#1) : b = true := by
  revert h; cases b <;> decide

/-- An extended real whose absolute value lies below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The predicate read on any thirteen arrays: the first array's entries are reals, the second's words lie in [0, 100). -/
theorem decode (a0 : FVec Ideal S1x100x65536 .f32) (a1 : IVec S2x2000 32) (a2 a3 a4 : FVec Ideal S1 .f32)
    (a5 : FVec Ideal S3x65536x60 .f32) (a6 : FVec Ideal S60 .f32) (a7 : FVec Ideal S3x65536x60 .f32)
    (a8 : FVec Ideal S60 .f32) (a9 : FVec Ideal S6003x100 .f32) (a10 : FVec Ideal S100 .f32)
    (a11 : FVec Ideal S6003x1 .f32) (a12 : FVec Ideal S1 .f32)
    (h : fn (F := Ideal) a0 a1 a2 a3 a4 a5 a6 a7 a8 a9 a10 a11 a12 = fun _ => 1#1) :
    (∀ i, ∃ r : ℝ, a0 i = (r : EReal)) ∧ (∀ i, 0 ≤ (a1 i).toInt ∧ (a1 i).toInt < 100) := by
  have e := congrFun h ValueIdx.ix0
  dsimp only [fn, fn_part1, fn_part2, fn_part3, andi] at e
  -- the fourteen tests, the last first
  obtain ⟨e, hlt⟩ := IntOp.andi_eq_one.1 e
  obtain ⟨e, hge⟩ := IntOp.andi_eq_one.1 e
  -- ten float tests that are not needed, then the third, the second, and the first
  iterate 10 replace e := (IntOp.andi_eq_one.1 e).1
  have hx := (IntOp.andi_eq_one.1 e).1
  refine ⟨fun i => ?_, fun i => ⟨?_, ?_⟩⟩
  · -- the test at entry i: |a0 i| below the word of +∞
    have t := Host.reduce_andi_all _ _ _ _ _ hx i
    dsimp only [cmpf, Host.absf, broadcastInDim, constant] at t
    have t' : BitVec.ofBool (decide (max (a0 i) (-(a0 i)) < Ideal.ofBits .f32 0x7F800000#32)) = 1#1 := t
    have t'' := of_decide_eq_true (ofBool_eq_one t')
    refine real_of_abs_lt_top _ ?_
    simpa [Ideal.ofBits, Ideal.ieee] using t''
  · -- the test at entry i: the word 0 at most a1 i, signed
    have t := Host.reduce_andi_all _ _ _ _ _ hge i
    dsimp only [cmpi, broadcastInDim, constantI] at t
    have t' := IntOp.cmpi_sge.1 t
    have h0 : (0#32 : BitVec 32).toInt = 0 := by decide
    rw [h0] at t'
    exact t'
  · -- the test at entry i: a1 i below the word 100, signed
    have t := Host.reduce_andi_all _ _ _ _ _ hlt i
    dsimp only [cmpi, broadcastInDim, constantI] at t
    have t' := IntOp.cmpi_slt.1 t
    have h100 : (100#32 : BitVec 32).toInt = 100 := by decide
    rw [h100] at t'
    exact t'

variable (m : (ℓ : Loc Cert.KernelIdeal.nD Cert.KernelIdeal.τ Cert.KernelIdeal.sig) → Buf (Elt Ideal) ℓ)

/-- Every entry of the feature array is a real. -/
theorem x_real (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (decode _ _ _ _ _ _ _ _ _ _ _ _ _ (h c)).1

/-- Every word of the edge table, read signed, lies in [0, 100). -/
theorem edge_range (h : Cert.Pre_KernelIdeal m) (c : Dev Cert.KernelIdeal.nD) :
    ∀ i, 0 ≤ (m ((c.tc : Thread Cert.KernelIdeal.nD Cert.KernelIdeal.τ).loc Cert.KernelIdeal.main_arg1) i).toInt
      ∧ (m ((c.tc : Thread Cert.KernelIdeal.nD Cert.KernelIdeal.τ).loc Cert.KernelIdeal.main_arg1) i).toInt < 100 :=
  (decode _ _ _ _ _ _ _ _ _ _ _ _ _ (h c)).2

/-- The same at explicit coordinates: node n, feature f. -/
theorem x_real_at (h : Cert.Pre_KernelIdeal m) (c : Dev Cert.KernelIdeal.nD) (n : Fin 100) (f : Fin 65536) :
    ∃ r : ℝ, m ((c.tc : Thread Cert.KernelIdeal.nD Cert.KernelIdeal.τ).loc Cert.KernelIdeal.main_arg0)
      (ValueIdx.ix3 (0 : Fin 1) n f) = (r : EReal) :=
  x_real m h c (ValueIdx.ix3 (0 : Fin 1) n f)

/-- The same at explicit coordinates: row a (0 the sources, 1 the targets), edge e. -/
theorem edge_range_at (h : Cert.Pre_KernelIdeal m) (c : Dev Cert.KernelIdeal.nD) (a : Fin 2) (e : Fin 2000) :
    0 ≤ (m ((c.tc : Thread Cert.KernelIdeal.nD Cert.KernelIdeal.τ).loc Cert.KernelIdeal.main_arg1) (ValueIdx.ix2 a e)).toInt
      ∧ (m ((c.tc : Thread Cert.KernelIdeal.nD Cert.KernelIdeal.τ).loc Cert.KernelIdeal.main_arg1) (ValueIdx.ix2 a e)).toInt < 100 :=
  edge_range m h c (ValueIdx.ix2 a e)

/-- A word in [0, 100) read signed reads the same unsigned. -/
theorem toNat_of_range (w : BitVec 32) (h0 : 0 ≤ w.toInt) (h1 : w.toInt < 100) : w.toNat < 100 ∧ (w.toNat : Int) = w.toInt := by
  have hw := w.isLt
  unfold BitVec.toInt at h0 h1 ⊢
  split at h1 <;> simp_all <;> omega

end Cert.Proof.PreFacts

end
-- ==== Proof.LibGraphProp.lean ====
/-
  Propagation over a finite directed graph, two ways.

  A graph has edges `e : E` with end points `src e, dst e : N` and a real weight `w e`; a feature column
  is a real-valued function `z` on the nodes.  Row `d` of the propagated column can be collected edge by
  edge (`z (src e) · w e` over the edges ending in `d`), or as row `d` of the dense matrix
  `A d s = ∑ {e : s → d} w e` times the column.  Over the reals the two agree by exchanging the two
  finite sums.  Over the extended reals multiplication does not distribute over addition at the
  infinities, so the statement is made for real weights and real features cast into `EReal`: every
  partial result is then the cast of a real, and the casts can be pushed outward.
-/
import Mathlib

namespace GraphProp

variable {E N : Type*} [Fintype E] [Fintype N] [DecidableEq N]

/-- The cast of a finite sum of reals into the extended reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The cast of a finite sum of reals, each taken only where a condition holds (zero elsewhere). -/
theorem coe_sum_ite {ι : Type*} (s : Finset ι) (p : ι → Prop) [DecidablePred p] (f : ι → ℝ) :
    ((∑ i ∈ s, (if p i then f i else 0) : ℝ) : EReal) = ∑ i ∈ s, if p i then (f i : EReal) else 0 := by
  rw [coe_sum]
  refine Finset.sum_congr rfl fun i _ => ?_
  split_ifs <;> simp

/-- Over the reals: the dense matrix `A d s = ∑ {e : s → d} w e` applied to a column is the sum, over the
    edges ending in `d`, of the source's feature times the edge weight. -/
theorem real_dense_eq_edges (src dst : E → N) (w : E → ℝ) (z : N → ℝ) (d : N) :
    ∑ s, (∑ e, if dst e = d ∧ src e = s then w e else 0) * z s
      = ∑ e, if dst e = d then z (src e) * w e else 0 := by
  simp_rw [Finset.sum_mul]
  rw [Finset.sum_comm]
  refine Finset.sum_congr rfl fun e _ => ?_
  by_cases h : dst e = d
  · simp [h, mul_comm]
  · simp [h]

/-- The edge-by-edge sum (started from zero) of real features times real weights is the cast of the
    corresponding real sum. -/
theorem edges_eq_coe (src dst : E → N) (w : E → ℝ) (z : N → ℝ) (d : N) :
    (0 : EReal) + ∑ e, (if dst e = d then ((z (src e) : ℝ) : EReal) * ((w e : ℝ) : EReal) else 0)
      = ((∑ e, if dst e = d then z (src e) * w e else 0 : ℝ) : EReal) := by
  rw [zero_add, coe_sum_ite]
  simp only [EReal.coe_mul]

/-- An entry of the dense matrix (a sum of real weights started from zero) is the cast of a real. -/
theorem entry_eq_coe (src dst : E → N) (w : E → ℝ) (d s : N) :
    (0 : EReal) + ∑ e, (if dst e = d ∧ src e = s then ((w e : ℝ) : EReal) else 0)
      = ((∑ e, if dst e = d ∧ src e = s then w e else 0 : ℝ) : EReal) := by
  rw [zero_add, coe_sum_ite]

/-- Row `d` of the dense matrix times a real column is the cast of the corresponding real sum. -/
theorem dense_eq_coe (src dst : E → N) (w : E → ℝ) (z : N → ℝ) (d : N) :
    ∑ s, ((0 : EReal) + ∑ e, if dst e = d ∧ src e = s then ((w e : ℝ) : EReal) else 0) * ((z s : ℝ) : EReal)
      = ((∑ s, (∑ e, if dst e = d ∧ src e = s then w e else 0) * z s : ℝ) : EReal) := by
  rw [coe_sum]
  refine Finset.sum_congr rfl fun s _ => ?_
  rw [entry_eq_coe, EReal.coe_mul]

/-- Edge-by-edge propagation equals multiplication by the dense matrix, on the extended reals, for real
    weights and a real feature column. -/
theorem edges_eq_dense (src dst : E → N) (w : E → ℝ) (z : N → ℝ) (d : N) :
    (0 : EReal) + ∑ e, (if dst e = d then ((z (src e) : ℝ) : EReal) * ((w e : ℝ) : EReal) else 0)
      = ∑ s, ((0 : EReal) + ∑ e, if dst e = d ∧ src e = s then ((w e : ℝ) : EReal) else 0)
          * ((z s : ℝ) : EReal) := by
  rw [edges_eq_coe, dense_eq_coe, real_dense_eq_edges]

end GraphProp
-- ==== Proof.Algebra.Real.lean ====
/-
  Every quantity the scaled Laplacian is built from is the cast of a real number, so that on real-valued
  feature matrices the edge-by-edge propagation and the dense matrix product agree.

  The out-degree is a finite sum of zeros and ones; where it is positive its inverse square root is a
  real, and elsewhere the weight factor is zero; the edge weights, minus a product of two such factors,
  are therefore real.  With real weights and real features the exchange of the two finite sums is valid
  on the extended reals, and the dense product of a real-valued matrix is real-valued again, so the
  argument applies a second time to the second propagation of the Chebyshev recurrence.
-/
import proofs.«136048_j27848567947758_2_alg».proof.Proof.Spec
import proofs.«136048_j27848567947758_2_alg».proof.Proof.LibGraphProp

noncomputable section

namespace Cheb

open Idealize.ShloMosaic

/-- A feature matrix all of whose entries are casts of reals. -/
def IsReal (z : Feat) : Prop := ∀ n f, ∃ r : ℝ, z n f = (r : EReal)

/-- The out-degree of a node is the cast of a real (a finite sum of zeros and ones). -/
theorem deg_real (src : Fin 2000 → Fin 100) (n : Fin 100) : ∃ r : ℝ, deg src n = (r : EReal) := by
  refine ⟨∑ e : Fin 2000, if src e = n then (1 : ℝ) else 0, ?_⟩
  rw [GraphProp.coe_sum_ite]
  unfold deg
  simp

/-- The comparison "greater than zero" yields the bit one at a positive value. -/
theorem cmp_ogt_pos {a : EReal} (h : 0 < a) : Ideal.cmp .ogt a 0 = 1#1 := by
  simp [Ideal.cmp, h]

/-- The comparison "greater than zero" yields the bit zero at a value that is not positive. -/
theorem cmp_ogt_nonpos {a : EReal} (h : ¬ 0 < a) : Ideal.cmp .ogt a 0 = 0#1 := by
  simp [Ideal.cmp, h]

/-- The factor `deg ^ (-1/2)` (zero where the degree is not positive) is the cast of a real. -/
theorem dis_real (src : Fin 2000 → Fin 100) (n : Fin 100) : ∃ r : ℝ, dis src n = (r : EReal) := by
  obtain ⟨r, hr⟩ := deg_real src n
  unfold dis
  rw [hr]
  by_cases h : (0 : EReal) < (r : EReal)
  · have hr0 : 0 < r := by exact_mod_cast h
    rw [cmp_ogt_pos h, ValueIdx.select_one, ValueIdx.select_one, Ideal.rsqrt_coe,
      if_neg (not_lt.mpr hr0.le), if_neg hr0.ne']
    exact ⟨_, rfl⟩
  · rw [cmp_ogt_nonpos h, ValueIdx.select_zero]
    exact ⟨0, by simp⟩

/-- Every edge weight is the cast of a real. -/
theorem nrm_real (src dst : Fin 2000 → Fin 100) (e : Fin 2000) : ∃ r : ℝ, nrm src dst e = (r : EReal) := by
  obtain ⟨a, ha⟩ := dis_real src (src e)
  obtain ⟨b, hb⟩ := dis_real src (dst e)
  exact ⟨-(a * b), by unfold nrm; rw [ha, hb, EReal.coe_neg, EReal.coe_mul]⟩

/-- On a real-valued feature matrix, propagating edge by edge is multiplying by the dense Laplacian. -/
theorem prop_eq_dense (src dst : Fin 2000 → Fin 100) {z : Feat} (hz : IsReal z) :
    prop src dst (nrm src dst) z = dense (lhat src dst (nrm src dst)) z := by
  choose wr hw using nrm_real src dst
  choose zr hzr using hz
  funext d f
  unfold prop dense lhat
  simp only [hw, hzr]
  exact GraphProp.edges_eq_dense src dst wr (fun s => zr s f) d

/-- The dense Laplacian maps real-valued feature matrices to real-valued ones. -/
theorem dense_isReal (src dst : Fin 2000 → Fin 100) {z : Feat} (hz : IsReal z) :
    IsReal (dense (lhat src dst (nrm src dst)) z) := by
  choose wr hw using nrm_real src dst
  choose zr hzr using hz
  intro d f
  refine ⟨∑ s, (∑ e, if dst e = d ∧ src e = s then wr e else 0) * zr s f, ?_⟩
  unfold dense lhat
  simp only [hw, hzr]
  exact GraphProp.dense_eq_coe src dst wr (fun s => zr s f) d

/-- The third Chebyshev term is the same for the two propagations, on a real-valued feature matrix. -/
theorem cheb2_prop_eq_dense (src dst : Fin 2000 → Fin 100) {x : Feat} (hx : IsReal x) :
    cheb2 (prop src dst (nrm src dst)) x = cheb2 (dense (lhat src dst (nrm src dst))) x := by
  funext n f
  unfold cheb2
  rw [prop_eq_dense src dst hx, prop_eq_dense src dst (dense_isReal src dst hx)]

end Cheb

end
-- ==== Proof.Algebra.Sums.lean ====
/-
  Regrouping the sums of the run-by-run convolution.  Nothing here needs finiteness: the extended reals
  are an additive commutative monoid, and only associativity, commutativity and the neutral zero are used.

  * What a half has accumulated after its last run is zero plus the sum of its sixteen runs.
  * The 65536 features are enumerated exactly once by (half, run, position in the run), so a sum over all
    the features is the triple sum over halves, runs and positions.
-/
import proofs.«136048_j27848567947758_2_alg».proof.Proof.Spec

noncomputable section

namespace Cheb

/-- What a half has accumulated after its runs `0 … k` is zero plus the sum of those runs. -/
theorem accum_eq (L : Fin 100 → Fin 100 → EReal) (x : Feat) (W : Fin 3 → Fin 65536 → Fin 60 → EReal)
    (q : Fin 2) (n : Fin 100) (c : Fin 60) : ∀ (k : ℕ) (h : k < 16),
    accum L x W q n c k h
      = 0 + ∑ i : Fin (k + 1), part L x W q ⟨i.val, lt_of_lt_of_le i.isLt h⟩ n c
  | 0, h => by simp [accum]
  | k + 1, h => by
      rw [accum, accum_eq L x W q n c k (Nat.lt_of_succ_lt h), add_assoc]
      conv_rhs => rw [Fin.sum_univ_castSucc]
      rfl

/-- What a half has accumulated after all its sixteen runs. -/
theorem accum_last (L : Fin 100 → Fin 100 → EReal) (x : Feat) (W : Fin 3 → Fin 65536 → Fin 60 → EReal)
    (q : Fin 2) (n : Fin 100) (c : Fin 60) (h : 15 < 16) :
    accum L x W q n c 15 h = 0 + ∑ k : Fin 16, part L x W q k n c :=
  accum_eq L x W q n c 15 h

/-- The features are enumerated once by (half, run, position): a sum over all the features is the triple
    sum over the 2 halves, the 16 runs of a half and the 2048 positions of a run. -/
theorem sum_feat (g : Fin 65536 → EReal) :
    ∑ q : Fin 2, ∑ k : Fin 16, ∑ j : Fin 2048, g (feat q k j) = ∑ f : Fin 65536, g f := by
  let e : (Fin 2 × Fin 16) × Fin 2048 ≃ Fin 65536 :=
    (finProdFinEquiv.prodCongr (Equiv.refl _)).trans finProdFinEquiv
  rw [← e.sum_comp, Fintype.sum_prod_type, Fintype.sum_prod_type]
  refine Finset.sum_congr rfl fun q _ => Finset.sum_congr rfl fun k _ => Finset.sum_congr rfl fun j _ => ?_
  congr 1
  apply Fin.ext
  show (q.val * 16 + k.val) * 2048 + j.val = j.val + 2048 * (k.val + 16 * q.val)
  ring

end Cheb

end
-- ==== Proof.Algebra.lean ====
/-
  The run-by-run convolution with the dense Laplacian equals the edge-by-edge convolution, for a
  real-valued feature matrix and arbitrary (extended-real) weights and bias.

  Two steps.  On real-valued features the edge-by-edge propagation is the dense matrix product, once and
  twice over, so the three feature matrices `T₀, T₁, T₂` of the two forms coincide.  Then each product
  `Tᵢ Wᵢ`, a sum over all 65536 features, is cut into its 2 · 16 runs of 2048 features; the run-by-run
  accumulation adds the same terms in another order, which in an additive commutative monoid changes
  nothing.  No product is ever distributed over a sum of weights, so the weights and the bias may be
  infinite.
-/
import proofs.«136048_j27848567947758_2_alg».proof.Proof.Spec
import proofs.«136048_j27848567947758_2_alg».proof.Proof.Algebra.Real
import proofs.«136048_j27848567947758_2_alg».proof.Proof.Algebra.Sums

noncomputable section

namespace Cheb

/-- A product summed over all the features at once is the sum of its 2 · 16 runs of 2048 features. -/
theorem mm_eq_runs (z : Feat) (W : Fin 65536 → Fin 60 → EReal) (n : Fin 100) (c : Fin 60) :
    mm z W n c = ∑ q : Fin 2, ∑ k : Fin 16, ∑ j : Fin 2048, z n (feat q k j) * W (feat q k j) c :=
  (sum_feat (fun f => z n f * W f c)).symm

/-- The run-by-run accumulation with a dense matrix `L` is the convolution whose propagation is the
    product with `L`, for any feature matrix, weights and bias. -/
theorem runs_eq_convWith_dense (L : Fin 100 → Fin 100 → EReal) (x : Feat)
    (W : Fin 3 → Fin 65536 → Fin 60 → EReal) (b : Fin 60 → EReal) (n : Fin 100) (c : Fin 60) (h : 15 < 16) :
    (0 + ∑ q : Fin 2, accum L x W q n c 15 h) + b c = convWith (dense L) x W b n c := by
  unfold convWith
  simp only [accum_last, zero_add, part, Finset.sum_add_distrib, mm_eq_runs]

/-- The convolution computed densely and run by run equals the convolution computed edge by edge, for a
    real-valued feature matrix. -/
theorem convKer_eq_convRef (src dst : Fin 2000 → Fin 100) (x : Feat) (W : Fin 3 → Fin 65536 → Fin 60 → EReal)
    (b : Fin 60 → EReal) (hx : ∀ n f, ∃ r : ℝ, x n f = (r : EReal)) :
    convKer src dst x W b = convRef src dst x W b := by
  funext n c
  unfold convKer convRef
  rw [runs_eq_convWith_dense]
  unfold convWith
  rw [prop_eq_dense src dst hx, cheb2_prop_eq_dense src dst hx]

end Cheb

end
-- ==== Proof.lean ====
/-
  Two programs compute one function of their thirteen arguments, over the extended reals.

  Both build, from a list of 2000 directed edges on 100 nodes, the scaled graph Laplacian with entries
  `-(deg s)^(-1/2) (deg d)^(-1/2)` summed over the edges `s → d`, apply the Chebyshev recurrence
  `T₀ = x, T₁ = L x, T₂ = 2 L T₁ − x` to a 100 × 65536 feature matrix, form `T₀ W₀ + T₁ W₁ + T₂ W₂ + b` for two weight
  families, and feed `tanh` of each 100 × 60 result, flattened and followed by three scalars, to a linear head.

  The kernel program builds `L` as a dense 100 × 100 matrix by one two-index scatter-add and multiplies block by
  block: 2 · 16 grid points, each adding the contribution of 2048 consecutive features to a scratch accumulator that is
  cleared at the first point of a half and copied out at the last; the two halves' totals are added on the host.  The
  reference never forms `L`: it gathers the source rows edge by edge, scales them, and sums them into the target rows.

  The two agree entry by entry because (i) edge indices in range make the gathers, the wrap-around selections and the
  scatter tests say the same thing on both sides, (ii) for real-valued features and real edge weights the edge-by-edge
  sum is the dense matrix product (distributivity, which needs finiteness on the extended reals), and (iii) sums over
  the 65536 features regroup freely into 32 runs of 2048.  The precondition supplies the range and the finiteness.

  The frames: each kernel program's run is the pipeline's launch over proof data that follow the accumulators point
  by point; the reference's is its host operations composed.
-/
import proofs.«136048_j27848567947758_2_alg».proof.Defs
import proofs.«136048_j27848567947758_2_alg».proof.Proof.Gen.ReferenceIdeal
import proofs.«136048_j27848567947758_2_alg».proof.Proof.Gen.Pre_finite_inputs
import proofs.«136048_j27848567947758_2_alg».proof.Proof.K.Frame
import proofs.«136048_j27848567947758_2_alg».proof.Proof.KI.Value
import proofs.«136048_j27848567947758_2_alg».proof.Proof.RefValue
import proofs.«136048_j27848567947758_2_alg».proof.Proof.PreFacts
import proofs.«136048_j27848567947758_2_alg».proof.Proof.Algebra
import Idealize.ShloMosaic.Adequacy
import Idealize.ShloMosaic.Init

noncomputable section

namespace Cert.Proof

open Idealize.ShloMosaic Idealize.SL.Sem Idealize.ShloMosaic.ValueIdx

/-! ## The frames and the idealization -/

theorem frame_k : Cert.frame_Kernel (hKernel := Cert.Kernel.Gen.facts) (hPre_finite_inputs := Cert.Pre_finite_inputs.Gen.facts) :=
  fun m ρ _ => Cert.Kernel.GenH.frame m ρ

theorem frame_ki : Cert.frame_KernelIdeal (hKernelIdeal := Cert.KernelIdeal.Gen.facts) (hPre_finite_inputs := Cert.Pre_finite_inputs.Gen.facts) :=
  fun m ρ _ => Cert.KernelIdeal.GenH.frame m ρ

/-- The reference is host operations only: its run, with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-! ## The two programs compute one function -/

/-- The node an edge word names, given that the word read signed lies in `[0, 100)`. -/
def nodeOf (w : BitVec 32) (h : 0 ≤ w.toInt ∧ w.toInt < 100) : Fin 100 :=
  ⟨w.toNat, (PreFacts.toNat_of_range w h.1 h.2).1⟩

theorem nodeOf_toInt (w : BitVec 32) (h : 0 ≤ w.toInt ∧ w.toInt < 100) : w.toInt = ((nodeOf w h : ℕ) : ℤ) :=
  (PreFacts.toNat_of_range w h.1 h.2).2.symm

/-- Under the precondition the edge words are node ids and the features are reals; the kernel's run ends at the
    dense, run-by-run convolution and the reference's at the edge-by-edge one, which are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ (c : Dev Cert.KernelIdeal.nD) (a : Fin 2) (e : Fin 2000), _ := fun c a e => PreFacts.edge_range_at m hpre c a e
  let src : Dev Cert.KernelIdeal.nD → Fin 2000 → Fin 100 := fun c e => nodeOf _ (hr c 0 e)
  let dst : Dev Cert.KernelIdeal.nD → Fin 2000 → Fin 100 := fun c e => nodeOf _ (hr c 1 e)
  have hs : ∀ (c : Dev Cert.KernelIdeal.nD) (e : Fin 2000), ((m ((c.tc : Thread Cert.KernelIdeal.nD Cert.KernelIdeal.τ).loc Cert.KernelIdeal.main_arg1) : Cert.KernelIdeal.S2x2000.Idx → BitVec 32) (ix2 (0 : Fin 2) e)).toInt = ((src c e : ℕ) : ℤ) :=
    fun c e => nodeOf_toInt _ _
  have hd : ∀ (c : Dev Cert.KernelIdeal.nD) (e : Fin 2000), ((m ((c.tc : Thread Cert.KernelIdeal.nD Cert.KernelIdeal.τ).loc Cert.KernelIdeal.main_arg1) : Cert.KernelIdeal.S2x2000.Idx → BitVec 32) (ix2 (1 : Fin 2) e)).toInt = ((dst c e : ℕ) : ℤ) :=
    fun c e => nodeOf_toInt _ _
  refine ⟨_, _, Cert.KernelIdeal.KValue.run_value m ρ src dst hs hd, ?_⟩
  refine (θ_run Cert.ReferenceIdeal.defs _ _).mono (fun _ h c => ?_) (Cert.ReferenceIdeal.ValueP.run (F := Ideal) m' ρ')
  obtain ⟨e0, e1, e2, e3, e4, e5, e6, e7, e8, e9, e10, e11, e12⟩ := hagree c
  have hx : ∀ (n : Fin 100) (f : Fin 65536), ∃ r : ℝ, (m ((c.tc : Thread Cert.KernelIdeal.nD Cert.KernelIdeal.τ).loc Cert.KernelIdeal.main_arg0) : Cert.KernelIdeal.S1x100x65536.Idx → EReal) (ix3 (0 : Fin 1) n f) = (r : EReal) :=
    fun n f => PreFacts.x_real_at m hpre c n f
  have hs' : ∀ e : Fin 2000, ((m' ((c.tc : Thread Cert.ReferenceIdeal.nD Cert.ReferenceIdeal.τ).loc Cert.ReferenceIdeal.main_arg1) : Cert.ReferenceIdeal.S2x2000.Idx → BitVec 32) (ix2 (0 : Fin 2) e)).toInt = ((src c e : ℕ) : ℤ) := by
    rw [e1]; exact hs c
  have hd' : ∀ e : Fin 2000, ((m' ((c.tc : Thread Cert.ReferenceIdeal.nD Cert.ReferenceIdeal.τ).loc Cert.ReferenceIdeal.main_arg1) : Cert.ReferenceIdeal.S2x2000.Idx → BitVec 32) (ix2 (1 : Fin 2) e)).toInt = ((dst c e : ℕ) : ℤ) := by
    rw [e1]; exact hd c
  refine ⟨(h c).1.trans ?_, (h c).2.1.trans ?_, (h c).2.2⟩
  · rw [Cert.ReferenceIdeal.RefValue.logits_eq m' c (src c) (dst c) hs' hd', e0, e2, e3, e4, e5, e6, e9, e10]
    funext i
    show Cheb.out (Cheb.convRef (src c) (dst c) _ _ _) _ _ _ _ _ = Cheb.out (Cheb.convKer (src c) (dst c) _ _ _) _ _ _ _ _
    rw [Cheb.convKer_eq_convRef (src c) (dst c) _ _ _ hx]
  · rw [Cert.ReferenceIdeal.RefValue.values_eq m' c (src c) (dst c) hs' hd', e0, e2, e3, e4, e7, e8, e11, e12]
    funext i
    show Cheb.out (Cheb.convRef (src c) (dst c) _ _ _) _ _ _ _ _ = Cheb.out (Cheb.convKer (src c) (dst c) _ _ _) _ _ _ _ _
    rw [Cheb.convKer_eq_convRef (src c) (dst c) _ _ _ hx]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
